-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S32768x64 : Shape := ⟨2, ![32768, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S32768x64 .f32) (main_arg2 : FVec F S32768x64 .f32) : IVec S_ 1 :=
  let main_v0 : FVec F S32768x64 .f32 := Host.absf main_arg1
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x64 .f32 := Host.absf main_arg2
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_c_2 : IVec S_ 32 := constantI S_ 32 0#32
  let main_v9 : IVec S4x8192 32 := broadcastInDim S4x8192 ![] bcast_S_S4x8192 main_c_2
  let main_v10 : IVec S4x8192 1 := cmpi .sge main_arg0 main_v9
  let main_c_3 : IVec S_ 32 := constantI S_ 32 32767#32
  let main_v11 : IVec S4x8192 32 := broadcastInDim S4x8192 ![] bcast_S_S4x8192 main_c_3
  let main_v12 : IVec S4x8192 1 := cmpi .sle main_arg0 main_v11
  let main_v13 : IVec S4x8192 1 := andi main_v10 main_v12
  let main_c_4 : IVec S_ 1 := constantI S_ 1 1#1
  let main_v14 : IVec S_ 1 := (fun x v => Host.reduce IntOp.andi x v reducesTo_S4x8192_S_d0_1 h_S_) main_v13 main_c_4
  let main_v15 : IVec S_ 1 := andi main_v8 main_v14
  main_v15
-- ==== Kernel.lean ====
abbrev S4x8192 : Shape := ⟨2, ![4, 8192]⟩
abbrev S32768x64 : Shape := ⟨2, ![32768, 64]⟩
abbrev S256x128 : Shape := ⟨2, ![256, 128]⟩
abbrev S32768x128 : Shape := ⟨2, ![32768, 128]⟩
abbrev S8x128 : Shape := ⟨2, ![8, 128]⟩
abbrev S128x128 : Shape := ⟨2, ![128, 128]⟩
abbrev S128x64 : Shape := ⟨2, ![128, 64]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩
abbrev S4x8192x64 : Shape := ⟨3, ![4, 8192, 64]⟩

abbrev nBuf : Table → Nat
  | .hbm => 9
  | .local .scVector .vmem => 7
  | _ => 0

abbrev bufTy : (tb : Table) → Fin (nBuf tb) → BufTy
  | .hbm, ⟨0, _⟩ => ⟨S4x8192, .i32⟩
  | .hbm, ⟨1, _⟩ => ⟨S32768x64, .f32⟩
  | .hbm, ⟨2, _⟩ => ⟨S32768x64, .f32⟩
  | .hbm, ⟨3, _⟩ => ⟨S256x128, .i32⟩
  | .hbm, ⟨4, _⟩ => ⟨S32768x128, .f32⟩
  | .hbm, ⟨5, _⟩ => ⟨S32768x64, .f32⟩
  | .hbm, ⟨6, _⟩ => ⟨S32768x64, .f32⟩
  | .hbm, ⟨7, _⟩ => ⟨S4x8192x64, .f32⟩
  | .hbm, ⟨8, _⟩ => ⟨S4x8192x64, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | .local .scVector .vmem, ⟨3, _⟩ => ⟨S128x64, .f32⟩
  | .local .scVector .vmem, ⟨4, _⟩ => ⟨S128x64, .f32⟩
  | .local .scVector .vmem, ⟨5, _⟩ => ⟨S128x64, .f32⟩
  | .local .scVector .vmem, ⟨6, _⟩ => ⟨S128x64, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_162_r0 : BitVec 32 := 0#32
  ![v2.toNat, 0]
@[reducible] def k0_t1_loop : Scf.Loop 32 :=
  let c0_i32_11 : BitVec 32 := 0#32
  let c128_i32 : BitVec 32 := 128#32
  let v13 : BitVec 32 := Scalar.addi c0_i32_11 c128_i32
  let c1_i32_12 : BitVec 32 := 1#32
  ⟨c0_i32_11, v13, c1_i32_12⟩
def k0_off2 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v132 : Index := Scalar.indexCast arg19
  let c0 : Index := 0#32
  ![v132.toNat, 0]
def k0_off3 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v135 : Index := Scalar.indexCast arg19
  let c0_162 : Index := 0#32
  ![v135.toNat, 0]
def k0_off4 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v139 : Index := Scalar.indexCast arg19
  let c64 : Index := 64#32
  ![v139.toNat, 64]
def k0_off5 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v146 : Index := Scalar.indexCast arg19
  let c16 : Index := 16#32
  ![v146.toNat, 16]
def k0_off6 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v149 : Index := Scalar.indexCast arg19
  let c16_164 : Index := 16#32
  ![v149.toNat, 16]
def k0_off7 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v153 : Index := Scalar.indexCast arg19
  let c80 : Index := 80#32
  ![v153.toNat, 80]
def k0_off8 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v160 : Index := Scalar.indexCast arg19
  let c32 : Index := 32#32
  ![v160.toNat, 32]
def k0_off9 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v163 : Index := Scalar.indexCast arg19
  let c32_166 : Index := 32#32
  ![v163.toNat, 32]
def k0_off10 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v167 : Index := Scalar.indexCast arg19
  let c96 : Index := 96#32
  ![v167.toNat, 96]
def k0_off11 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v174 : Index := Scalar.indexCast arg19
  let c48 : Index := 48#32
  ![v174.toNat, 48]
def k0_off12 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v177 : Index := Scalar.indexCast arg19
  let c48_168 : Index := 48#32
  ![v177.toNat, 48]
def k0_off13 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let v181 : Index := Scalar.indexCast arg19
  let c112 : Index := 112#32
  ![v181.toNat, 112]
def k0_off14 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v3 : BitVec 32 := Scalar.muli v1 c1024_i32
  let v14 : BitVec 32 := Scalar.addi v3 c0_i32_14
  let c0_i32_15 : BitVec 32 := 0#32
  ![v14.toNat, 0]
@[reducible] def k0_t2_loop : Scf.Loop 32 :=
  let c0_i32_28 : BitVec 32 := 0#32
  let c128_i32_29 : BitVec 32 := 128#32
  let v25 : BitVec 32 := Scalar.addi c0_i32_28 c128_i32_29
  let c1_i32_30 : BitVec 32 := 1#32
  ⟨c0_i32_28, v25, c1_i32_30⟩
def k0_off15 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v132 : Index := Scalar.indexCast arg19
  let c0 : Index := 0#32
  ![v132.toNat, 0]
def k0_off16 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v135 : Index := Scalar.indexCast arg19
  let c0_162 : Index := 0#32
  ![v135.toNat, 0]
def k0_off17 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v139 : Index := Scalar.indexCast arg19
  let c64 : Index := 64#32
  ![v139.toNat, 64]
def k0_off18 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v146 : Index := Scalar.indexCast arg19
  let c16 : Index := 16#32
  ![v146.toNat, 16]
def k0_off19 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v149 : Index := Scalar.indexCast arg19
  let c16_164 : Index := 16#32
  ![v149.toNat, 16]
def k0_off20 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v153 : Index := Scalar.indexCast arg19
  let c80 : Index := 80#32
  ![v153.toNat, 80]
def k0_off21 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v160 : Index := Scalar.indexCast arg19
  let c32 : Index := 32#32
  ![v160.toNat, 32]
def k0_off22 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v163 : Index := Scalar.indexCast arg19
  let c32_166 : Index := 32#32
  ![v163.toNat, 32]
def k0_off23 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v167 : Index := Scalar.indexCast arg19
  let c96 : Index := 96#32
  ![v167.toNat, 96]
def k0_off24 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v174 : Index := Scalar.indexCast arg19
  let c48 : Index := 48#32
  ![v174.toNat, 48]
def k0_off25 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v177 : Index := Scalar.indexCast arg19
  let c48_168 : Index := 48#32
  ![v177.toNat, 48]
def k0_off26 (k0_t2 : Fin k0_t2_loop.trips) : Fin 2 → Nat :=
  let c0_i32_28 : BitVec 32 := 0#32
  let c1_i32_30 : BitVec 32 := 1#32
  let arg19 : BitVec 32 := Scf.iv c0_i32_28 c1_i32_30 k0_t2
  let v181 : Index := Scalar.indexCast arg19
  let c112 : Index := 112#32
  ![v181.toNat, 112]
@[reducible] def k0_t3_loop : Scf.Loop 32 :=
  let c0_i32_49 : BitVec 32 := 0#32
  let c128_i32_50 : BitVec 32 := 128#32
  let v41 : BitVec 32 := Scalar.addi c0_i32_49 c128_i32_50
  let c1_i32_51 : BitVec 32 := 1#32
  ⟨c0_i32_49, v41, c1_i32_51⟩
def k0_off27 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v132 : Index := Scalar.indexCast arg19
  let c0 : Index := 0#32
  ![v132.toNat, 0]
def k0_off28 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v135 : Index := Scalar.indexCast arg19
  let c0_162 : Index := 0#32
  ![v135.toNat, 0]
def k0_off29 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v139 : Index := Scalar.indexCast arg19
  let c64 : Index := 64#32
  ![v139.toNat, 64]
def k0_off30 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v146 : Index := Scalar.indexCast arg19
  let c16 : Index := 16#32
  ![v146.toNat, 16]
def k0_off31 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v149 : Index := Scalar.indexCast arg19
  let c16_164 : Index := 16#32
  ![v149.toNat, 16]
def k0_off32 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v153 : Index := Scalar.indexCast arg19
  let c80 : Index := 80#32
  ![v153.toNat, 80]
def k0_off33 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v160 : Index := Scalar.indexCast arg19
  let c32 : Index := 32#32
  ![v160.toNat, 32]
def k0_off34 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v163 : Index := Scalar.indexCast arg19
  let c32_166 : Index := 32#32
  ![v163.toNat, 32]
def k0_off35 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v167 : Index := Scalar.indexCast arg19
  let c96 : Index := 96#32
  ![v167.toNat, 96]
def k0_off36 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v174 : Index := Scalar.indexCast arg19
  let c48 : Index := 48#32
  ![v174.toNat, 48]
def k0_off37 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v177 : Index := Scalar.indexCast arg19
  let c48_168 : Index := 48#32
  ![v177.toNat, 48]
def k0_off38 (k0_t3 : Fin k0_t3_loop.trips) : Fin 2 → Nat :=
  let c0_i32_49 : BitVec 32 := 0#32
  let c1_i32_51 : BitVec 32 := 1#32
  let arg19 : BitVec 32 := Scf.iv c0_i32_49 c1_i32_51 k0_t3
  let v181 : Index := Scalar.indexCast arg19
  let c112 : Index := 112#32
  ![v181.toNat, 112]
@[reducible] def k0_t4_loop : Scf.Loop 32 :=
  let c0_i32_69 : BitVec 32 := 0#32
  let c128_i32_70 : BitVec 32 := 128#32
  let v57 : BitVec 32 := Scalar.addi c0_i32_69 c128_i32_70
  let c1_i32_71 : BitVec 32 := 1#32
  ⟨c0_i32_69, v57, c1_i32_71⟩
def k0_off39 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v132 : Index := Scalar.indexCast arg19
  let c0 : Index := 0#32
  ![v132.toNat, 0]
def k0_off40 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v135 : Index := Scalar.indexCast arg19
  let c0_162 : Index := 0#32
  ![v135.toNat, 0]
def k0_off41 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v139 : Index := Scalar.indexCast arg19
  let c64 : Index := 64#32
  ![v139.toNat, 64]
def k0_off42 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v146 : Index := Scalar.indexCast arg19
  let c16 : Index := 16#32
  ![v146.toNat, 16]
def k0_off43 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v149 : Index := Scalar.indexCast arg19
  let c16_164 : Index := 16#32
  ![v149.toNat, 16]
def k0_off44 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v153 : Index := Scalar.indexCast arg19
  let c80 : Index := 80#32
  ![v153.toNat, 80]
def k0_off45 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v160 : Index := Scalar.indexCast arg19
  let c32 : Index := 32#32
  ![v160.toNat, 32]
def k0_off46 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v163 : Index := Scalar.indexCast arg19
  let c32_166 : Index := 32#32
  ![v163.toNat, 32]
def k0_off47 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v167 : Index := Scalar.indexCast arg19
  let c96 : Index := 96#32
  ![v167.toNat, 96]
def k0_off48 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v174 : Index := Scalar.indexCast arg19
  let c48 : Index := 48#32
  ![v174.toNat, 48]
def k0_off49 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v177 : Index := Scalar.indexCast arg19
  let c48_168 : Index := 48#32
  ![v177.toNat, 48]
def k0_off50 (k0_t4 : Fin k0_t4_loop.trips) : Fin 2 → Nat :=
  let c0_i32_69 : BitVec 32 := 0#32
  let c1_i32_71 : BitVec 32 := 1#32
  let arg19 : BitVec 32 := Scf.iv c0_i32_69 c1_i32_71 k0_t4
  let v181 : Index := Scalar.indexCast arg19
  let c112 : Index := 112#32
  ![v181.toNat, 112]
@[reducible] def k0_t5_loop : Scf.Loop 32 :=
  let c0_i32_89 : BitVec 32 := 0#32
  let c128_i32_90 : BitVec 32 := 128#32
  let v73 : BitVec 32 := Scalar.addi c0_i32_89 c128_i32_90
  let c1_i32_91 : BitVec 32 := 1#32
  ⟨c0_i32_89, v73, c1_i32_91⟩
def k0_off51 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v132 : Index := Scalar.indexCast arg19
  let c0 : Index := 0#32
  ![v132.toNat, 0]
def k0_off52 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v135 : Index := Scalar.indexCast arg19
  let c0_162 : Index := 0#32
  ![v135.toNat, 0]
def k0_off53 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v139 : Index := Scalar.indexCast arg19
  let c64 : Index := 64#32
  ![v139.toNat, 64]
def k0_off54 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v146 : Index := Scalar.indexCast arg19
  let c16 : Index := 16#32
  ![v146.toNat, 16]
def k0_off55 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v149 : Index := Scalar.indexCast arg19
  let c16_164 : Index := 16#32
  ![v149.toNat, 16]
def k0_off56 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v153 : Index := Scalar.indexCast arg19
  let c80 : Index := 80#32
  ![v153.toNat, 80]
def k0_off57 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v160 : Index := Scalar.indexCast arg19
  let c32 : Index := 32#32
  ![v160.toNat, 32]
def k0_off58 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v163 : Index := Scalar.indexCast arg19
  let c32_166 : Index := 32#32
  ![v163.toNat, 32]
def k0_off59 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v167 : Index := Scalar.indexCast arg19
  let c96 : Index := 96#32
  ![v167.toNat, 96]
def k0_off60 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v174 : Index := Scalar.indexCast arg19
  let c48 : Index := 48#32
  ![v174.toNat, 48]
def k0_off61 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v177 : Index := Scalar.indexCast arg19
  let c48_168 : Index := 48#32
  ![v177.toNat, 48]
def k0_off62 (k0_t5 : Fin k0_t5_loop.trips) : Fin 2 → Nat :=
  let c0_i32_89 : BitVec 32 := 0#32
  let c1_i32_91 : BitVec 32 := 1#32
  let arg19 : BitVec 32 := Scf.iv c0_i32_89 c1_i32_91 k0_t5
  let v181 : Index := Scalar.indexCast arg19
  let c112 : Index := 112#32
  ![v181.toNat, 112]
@[reducible] def k0_t6_loop : Scf.Loop 32 :=
  let c0_i32_109 : BitVec 32 := 0#32
  let c128_i32_110 : BitVec 32 := 128#32
  let v89 : BitVec 32 := Scalar.addi c0_i32_109 c128_i32_110
  let c1_i32_111 : BitVec 32 := 1#32
  ⟨c0_i32_109, v89, c1_i32_111⟩
def k0_off63 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v132 : Index := Scalar.indexCast arg19
  let c0 : Index := 0#32
  ![v132.toNat, 0]
def k0_off64 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v135 : Index := Scalar.indexCast arg19
  let c0_162 : Index := 0#32
  ![v135.toNat, 0]
def k0_off65 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v139 : Index := Scalar.indexCast arg19
  let c64 : Index := 64#32
  ![v139.toNat, 64]
def k0_off66 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v146 : Index := Scalar.indexCast arg19
  let c16 : Index := 16#32
  ![v146.toNat, 16]
def k0_off67 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v149 : Index := Scalar.indexCast arg19
  let c16_164 : Index := 16#32
  ![v149.toNat, 16]
def k0_off68 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v153 : Index := Scalar.indexCast arg19
  let c80 : Index := 80#32
  ![v153.toNat, 80]
def k0_off69 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v160 : Index := Scalar.indexCast arg19
  let c32 : Index := 32#32
  ![v160.toNat, 32]
def k0_off70 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v163 : Index := Scalar.indexCast arg19
  let c32_166 : Index := 32#32
  ![v163.toNat, 32]
def k0_off71 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v167 : Index := Scalar.indexCast arg19
  let c96 : Index := 96#32
  ![v167.toNat, 96]
def k0_off72 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v174 : Index := Scalar.indexCast arg19
  let c48 : Index := 48#32
  ![v174.toNat, 48]
def k0_off73 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v177 : Index := Scalar.indexCast arg19
  let c48_168 : Index := 48#32
  ![v177.toNat, 48]
def k0_off74 (k0_t6 : Fin k0_t6_loop.trips) : Fin 2 → Nat :=
  let c0_i32_109 : BitVec 32 := 0#32
  let c1_i32_111 : BitVec 32 := 1#32
  let arg19 : BitVec 32 := Scf.iv c0_i32_109 c1_i32_111 k0_t6
  let v181 : Index := Scalar.indexCast arg19
  let c112 : Index := 112#32
  ![v181.toNat, 112]
@[reducible] def k0_t7_loop : Scf.Loop 32 :=
  let c0_i32_129 : BitVec 32 := 0#32
  let c128_i32_130 : BitVec 32 := 128#32
  let v105 : BitVec 32 := Scalar.addi c0_i32_129 c128_i32_130
  let c1_i32_131 : BitVec 32 := 1#32
  ⟨c0_i32_129, v105, c1_i32_131⟩
def k0_off75 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v132 : Index := Scalar.indexCast arg19
  let c0 : Index := 0#32
  ![v132.toNat, 0]
def k0_off76 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v135 : Index := Scalar.indexCast arg19
  let c0_162 : Index := 0#32
  ![v135.toNat, 0]
def k0_off77 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v139 : Index := Scalar.indexCast arg19
  let c64 : Index := 64#32
  ![v139.toNat, 64]
def k0_off78 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v146 : Index := Scalar.indexCast arg19
  let c16 : Index := 16#32
  ![v146.toNat, 16]
def k0_off79 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v149 : Index := Scalar.indexCast arg19
  let c16_164 : Index := 16#32
  ![v149.toNat, 16]
def k0_off80 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v153 : Index := Scalar.indexCast arg19
  let c80 : Index := 80#32
  ![v153.toNat, 80]
def k0_off81 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v160 : Index := Scalar.indexCast arg19
  let c32 : Index := 32#32
  ![v160.toNat, 32]
def k0_off82 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v163 : Index := Scalar.indexCast arg19
  let c32_166 : Index := 32#32
  ![v163.toNat, 32]
def k0_off83 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v167 : Index := Scalar.indexCast arg19
  let c96 : Index := 96#32
  ![v167.toNat, 96]
def k0_off84 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v174 : Index := Scalar.indexCast arg19
  let c48 : Index := 48#32
  ![v174.toNat, 48]
def k0_off85 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v177 : Index := Scalar.indexCast arg19
  let c48_168 : Index := 48#32
  ![v177.toNat, 48]
def k0_off86 (k0_t7 : Fin k0_t7_loop.trips) : Fin 2 → Nat :=
  let c0_i32_129 : BitVec 32 := 0#32
  let c1_i32_131 : BitVec 32 := 1#32
  let arg19 : BitVec 32 := Scf.iv c0_i32_129 c1_i32_131 k0_t7
  let v181 : Index := Scalar.indexCast arg19
  let c112 : Index := 112#32
  ![v181.toNat, 112]
@[reducible] def k0_t8_loop : Scf.Loop 32 :=
  let c0_i32_146 : BitVec 32 := 0#32
  let c128_i32_147 : BitVec 32 := 128#32
  let v118 : BitVec 32 := Scalar.addi c0_i32_146 c128_i32_147
  let c1_i32_148 : BitVec 32 := 1#32
  ⟨c0_i32_146, v118, c1_i32_148⟩
def k0_off87 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v132 : Index := Scalar.indexCast arg19
  let c0 : Index := 0#32
  ![v132.toNat, 0]
def k0_off88 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v135 : Index := Scalar.indexCast arg19
  let c0_162 : Index := 0#32
  ![v135.toNat, 0]
def k0_off89 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v139 : Index := Scalar.indexCast arg19
  let c64 : Index := 64#32
  ![v139.toNat, 64]
def k0_off90 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v146 : Index := Scalar.indexCast arg19
  let c16 : Index := 16#32
  ![v146.toNat, 16]
def k0_off91 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v149 : Index := Scalar.indexCast arg19
  let c16_164 : Index := 16#32
  ![v149.toNat, 16]
def k0_off92 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v153 : Index := Scalar.indexCast arg19
  let c80 : Index := 80#32
  ![v153.toNat, 80]
def k0_off93 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v160 : Index := Scalar.indexCast arg19
  let c32 : Index := 32#32
  ![v160.toNat, 32]
def k0_off94 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v163 : Index := Scalar.indexCast arg19
  let c32_166 : Index := 32#32
  ![v163.toNat, 32]
def k0_off95 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v167 : Index := Scalar.indexCast arg19
  let c96 : Index := 96#32
  ![v167.toNat, 96]
def k0_off96 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v174 : Index := Scalar.indexCast arg19
  let c48 : Index := 48#32
  ![v174.toNat, 48]
def k0_off97 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v177 : Index := Scalar.indexCast arg19
  let c48_168 : Index := 48#32
  ![v177.toNat, 48]
def k0_off98 (k0_t8 : Fin k0_t8_loop.trips) : Fin 2 → Nat :=
  let c0_i32_146 : BitVec 32 := 0#32
  let c1_i32_148 : BitVec 32 := 1#32
  let arg19 : BitVec 32 := Scf.iv c0_i32_146 c1_i32_148 k0_t8
  let v181 : Index := Scalar.indexCast arg19
  let c112 : Index := 112#32
  ![v181.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x8192_S256x128 : S4x8192.ShapeCasts S256x128
  concatenates_S32768x64_S32768x64_S32768x128_d1 : Shape.Concatenates [S32768x64, S32768x64] S32768x128 1
  inb_S8x128_S1x128_0_0 : ∀ a, (![0, 0] : Fin 2 → Nat) a + S1x128.size a ≤ S8x128.size a
  squeezes_S1x128_S128 : S1x128.Squeezes S128
  inb_S32768x128_S32768x128_0_0 : ∀ a, (![0, 0] : Fin 2 → Nat) a + S32768x128.size a ≤ S32768x128.size a
  gathers_S32768x128_S128x128 : S32768x128.Gathers 0 S128x128
  inb_S8x128_S1x128_1_0 : ∀ a, (![1, 0] : Fin 2 → Nat) a + S1x128.size a ≤ S8x128.size a
  h_S1x16 : 0 < S1x16.numel
  shapeCasts_S1x16_S16 : S1x16.ShapeCasts S16
  shapeCasts_S16_S1x16 : S16.ShapeCasts S1x16
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  shapeCasts_S32768x64_S4x8192x64 : S32768x64.ShapeCasts S4x8192x64
  hcc0_scratch7 : 0 + S_.numel ≤ 7
  hcc0_scratch8 : 1 + S_.numel ≤ 7
  hcc0_scratch9 : 2 + S_.numel ≤ 7
  hcc0_scratch10 : 3 + S_.numel ≤ 7
  hcc0_scratch11 : 4 + S_.numel ≤ 7
  hcc0_scratch12 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x128.size a ≤ S256x128.size a
  k0_t1_ok : k0_t1_loop.OK
  k0_off2_inb : ∀ k0_t1 : Fin k0_t1_loop.trips, ∀ a, (k0_off2 k0_t1) a + S1x16.size a ≤ S128x128.size a
  k0_off3_inb : ∀ k0_t1 : Fin k0_t1_loop.trips, ∀ a, (k0_off3 k0_t1) a + S1x16.size a ≤ S128x64.size a
  k0_off4_inb : ∀ k0_t1 : Fin k0_t1_loop.trips, ∀ a, (k0_off4 k0_t1) a + S1x16.size a ≤ S128x128.size a
  k0_off5_inb : ∀ k0_t1 : Fin k0_t1_loop.trips, ∀ a, (k0_off5 k0_t1) a + S1x16.size a ≤ S128x128.size a
  k0_off6_inb : ∀ k0_t1 : Fin k0_t1_loop.trips, ∀ a, (k0_off6 k0_t1) a + S1x16.size a ≤ S128x64.size a
  k0_off7_inb : ∀ k0_t1 : Fin k0_t1_loop.trips, ∀ a, (k0_off7 k0_t1) a + S1x16.size a ≤ S128x128.size a
  k0_off8_inb : ∀ k0_t1 : Fin k0_t1_loop.trips, ∀ a, (k0_off8 k0_t1) a + S1x16.size a ≤ S128x128.size a
  k0_off9_inb : ∀ k0_t1 : Fin k0_t1_loop.trips, ∀ a, (k0_off9 k0_t1) a + S1x16.size a ≤ S128x64.size a
  k0_off10_inb : ∀ k0_t1 : Fin k0_t1_loop.trips, ∀ a, (k0_off10 k0_t1) a + S1x16.size a ≤ S128x128.size a
  k0_off11_inb : ∀ k0_t1 : Fin k0_t1_loop.trips, ∀ a, (k0_off11 k0_t1) a + S1x16.size a ≤ S128x128.size a
  k0_off12_inb : ∀ k0_t1 : Fin k0_t1_loop.trips, ∀ a, (k0_off12 k0_t1) a + S1x16.size a ≤ S128x64.size a
  k0_off13_inb : ∀ k0_t1 : Fin k0_t1_loop.trips, ∀ a, (k0_off13 k0_t1) a + S1x16.size a ≤ S128x128.size a
  k0_off14_inb : ∀ i : grid0.Coords, ∀ (r : Fin 8), ∀ a, (k0_off14 i (BitVec.ofNat 32 (128 * r.val))) a + S128x64.size a ≤ S32768x64.size a
  k0_t2_ok : k0_t2_loop.OK
  k0_off15_inb : ∀ k0_t2 : Fin k0_t2_loop.trips, ∀ a, (k0_off15 k0_t2) a + S1x16.size a ≤ S128x128.size a
  k0_off16_inb : ∀ k0_t2 : Fin k0_t2_loop.trips, ∀ a, (k0_off16 k0_t2) a + S1x16.size a ≤ S128x64.size a
  k0_off17_inb : ∀ k0_t2 : Fin k0_t2_loop.trips, ∀ a, (k0_off17 k0_t2) a + S1x16.size a ≤ S128x128.size a
  k0_off18_inb : ∀ k0_t2 : Fin k0_t2_loop.trips, ∀ a, (k0_off18 k0_t2) a + S1x16.size a ≤ S128x128.size a
  k0_off19_inb : ∀ k0_t2 : Fin k0_t2_loop.trips, ∀ a, (k0_off19 k0_t2) a + S1x16.size a ≤ S128x64.size a
  k0_off20_inb : ∀ k0_t2 : Fin k0_t2_loop.trips, ∀ a, (k0_off20 k0_t2) a + S1x16.size a ≤ S128x128.size a
  k0_off21_inb : ∀ k0_t2 : Fin k0_t2_loop.trips, ∀ a, (k0_off21 k0_t2) a + S1x16.size a ≤ S128x128.size a
  k0_off22_inb : ∀ k0_t2 : Fin k0_t2_loop.trips, ∀ a, (k0_off22 k0_t2) a + S1x16.size a ≤ S128x64.size a
  k0_off23_inb : ∀ k0_t2 : Fin k0_t2_loop.trips, ∀ a, (k0_off23 k0_t2) a + S1x16.size a ≤ S128x128.size a
  k0_off24_inb : ∀ k0_t2 : Fin k0_t2_loop.trips, ∀ a, (k0_off24 k0_t2) a + S1x16.size a ≤ S128x128.size a
  k0_off25_inb : ∀ k0_t2 : Fin k0_t2_loop.trips, ∀ a, (k0_off25 k0_t2) a + S1x16.size a ≤ S128x64.size a
  k0_off26_inb : ∀ k0_t2 : Fin k0_t2_loop.trips, ∀ a, (k0_off26 k0_t2) a + S1x16.size a ≤ S128x128.size a
  k0_t3_ok : k0_t3_loop.OK
  k0_off27_inb : ∀ k0_t3 : Fin k0_t3_loop.trips, ∀ a, (k0_off27 k0_t3) a + S1x16.size a ≤ S128x128.size a
  k0_off28_inb : ∀ k0_t3 : Fin k0_t3_loop.trips, ∀ a, (k0_off28 k0_t3) a + S1x16.size a ≤ S128x64.size a
  k0_off29_inb : ∀ k0_t3 : Fin k0_t3_loop.trips, ∀ a, (k0_off29 k0_t3) a + S1x16.size a ≤ S128x128.size a
  k0_off30_inb : ∀ k0_t3 : Fin k0_t3_loop.trips, ∀ a, (k0_off30 k0_t3) a + S1x16.size a ≤ S128x128.size a
  k0_off31_inb : ∀ k0_t3 : Fin k0_t3_loop.trips, ∀ a, (k0_off31 k0_t3) a + S1x16.size a ≤ S128x64.size a
  k0_off32_inb : ∀ k0_t3 : Fin k0_t3_loop.trips, ∀ a, (k0_off32 k0_t3) a + S1x16.size a ≤ S128x128.size a
  k0_off33_inb : ∀ k0_t3 : Fin k0_t3_loop.trips, ∀ a, (k0_off33 k0_t3) a + S1x16.size a ≤ S128x128.size a
  k0_off34_inb : ∀ k0_t3 : Fin k0_t3_loop.trips, ∀ a, (k0_off34 k0_t3) a + S1x16.size a ≤ S128x64.size a
  k0_off35_inb : ∀ k0_t3 : Fin k0_t3_loop.trips, ∀ a, (k0_off35 k0_t3) a + S1x16.size a ≤ S128x128.size a
  k0_off36_inb : ∀ k0_t3 : Fin k0_t3_loop.trips, ∀ a, (k0_off36 k0_t3) a + S1x16.size a ≤ S128x128.size a
  k0_off37_inb : ∀ k0_t3 : Fin k0_t3_loop.trips, ∀ a, (k0_off37 k0_t3) a + S1x16.size a ≤ S128x64.size a
  k0_off38_inb : ∀ k0_t3 : Fin k0_t3_loop.trips, ∀ a, (k0_off38 k0_t3) a + S1x16.size a ≤ S128x128.size a
  k0_t4_ok : k0_t4_loop.OK
  k0_off39_inb : ∀ k0_t4 : Fin k0_t4_loop.trips, ∀ a, (k0_off39 k0_t4) a + S1x16.size a ≤ S128x128.size a
  k0_off40_inb : ∀ k0_t4 : Fin k0_t4_loop.trips, ∀ a, (k0_off40 k0_t4) a + S1x16.size a ≤ S128x64.size a
  k0_off41_inb : ∀ k0_t4 : Fin k0_t4_loop.trips, ∀ a, (k0_off41 k0_t4) a + S1x16.size a ≤ S128x128.size a
  k0_off42_inb : ∀ k0_t4 : Fin k0_t4_loop.trips, ∀ a, (k0_off42 k0_t4) a + S1x16.size a ≤ S128x128.size a
  k0_off43_inb : ∀ k0_t4 : Fin k0_t4_loop.trips, ∀ a, (k0_off43 k0_t4) a + S1x16.size a ≤ S128x64.size a
  k0_off44_inb : ∀ k0_t4 : Fin k0_t4_loop.trips, ∀ a, (k0_off44 k0_t4) a + S1x16.size a ≤ S128x128.size a
  k0_off45_inb : ∀ k0_t4 : Fin k0_t4_loop.trips, ∀ a, (k0_off45 k0_t4) a + S1x16.size a ≤ S128x128.size a
  k0_off46_inb : ∀ k0_t4 : Fin k0_t4_loop.trips, ∀ a, (k0_off46 k0_t4) a + S1x16.size a ≤ S128x64.size a
  k0_off47_inb : ∀ k0_t4 : Fin k0_t4_loop.trips, ∀ a, (k0_off47 k0_t4) a + S1x16.size a ≤ S128x128.size a
  k0_off48_inb : ∀ k0_t4 : Fin k0_t4_loop.trips, ∀ a, (k0_off48 k0_t4) a + S1x16.size a ≤ S128x128.size a
  k0_off49_inb : ∀ k0_t4 : Fin k0_t4_loop.trips, ∀ a, (k0_off49 k0_t4) a + S1x16.size a ≤ S128x64.size a
  k0_off50_inb : ∀ k0_t4 : Fin k0_t4_loop.trips, ∀ a, (k0_off50 k0_t4) a + S1x16.size a ≤ S128x128.size a
  k0_t5_ok : k0_t5_loop.OK
  k0_off51_inb : ∀ k0_t5 : Fin k0_t5_loop.trips, ∀ a, (k0_off51 k0_t5) a + S1x16.size a ≤ S128x128.size a
  k0_off52_inb : ∀ k0_t5 : Fin k0_t5_loop.trips, ∀ a, (k0_off52 k0_t5) a + S1x16.size a ≤ S128x64.size a
  k0_off53_inb : ∀ k0_t5 : Fin k0_t5_loop.trips, ∀ a, (k0_off53 k0_t5) a + S1x16.size a ≤ S128x128.size a
  k0_off54_inb : ∀ k0_t5 : Fin k0_t5_loop.trips, ∀ a, (k0_off54 k0_t5) a + S1x16.size a ≤ S128x128.size a
  k0_off55_inb : ∀ k0_t5 : Fin k0_t5_loop.trips, ∀ a, (k0_off55 k0_t5) a + S1x16.size a ≤ S128x64.size a
  k0_off56_inb : ∀ k0_t5 : Fin k0_t5_loop.trips, ∀ a, (k0_off56 k0_t5) a + S1x16.size a ≤ S128x128.size a
  k0_off57_inb : ∀ k0_t5 : Fin k0_t5_loop.trips, ∀ a, (k0_off57 k0_t5) a + S1x16.size a ≤ S128x128.size a
  k0_off58_inb : ∀ k0_t5 : Fin k0_t5_loop.trips, ∀ a, (k0_off58 k0_t5) a + S1x16.size a ≤ S128x64.size a
  k0_off59_inb : ∀ k0_t5 : Fin k0_t5_loop.trips, ∀ a, (k0_off59 k0_t5) a + S1x16.size a ≤ S128x128.size a
  k0_off60_inb : ∀ k0_t5 : Fin k0_t5_loop.trips, ∀ a, (k0_off60 k0_t5) a + S1x16.size a ≤ S128x128.size a
  k0_off61_inb : ∀ k0_t5 : Fin k0_t5_loop.trips, ∀ a, (k0_off61 k0_t5) a + S1x16.size a ≤ S128x64.size a
  k0_off62_inb : ∀ k0_t5 : Fin k0_t5_loop.trips, ∀ a, (k0_off62 k0_t5) a + S1x16.size a ≤ S128x128.size a
  k0_t6_ok : k0_t6_loop.OK
  k0_off63_inb : ∀ k0_t6 : Fin k0_t6_loop.trips, ∀ a, (k0_off63 k0_t6) a + S1x16.size a ≤ S128x128.size a
  k0_off64_inb : ∀ k0_t6 : Fin k0_t6_loop.trips, ∀ a, (k0_off64 k0_t6) a + S1x16.size a ≤ S128x64.size a
  k0_off65_inb : ∀ k0_t6 : Fin k0_t6_loop.trips, ∀ a, (k0_off65 k0_t6) a + S1x16.size a ≤ S128x128.size a
  k0_off66_inb : ∀ k0_t6 : Fin k0_t6_loop.trips, ∀ a, (k0_off66 k0_t6) a + S1x16.size a ≤ S128x128.size a
  k0_off67_inb : ∀ k0_t6 : Fin k0_t6_loop.trips, ∀ a, (k0_off67 k0_t6) a + S1x16.size a ≤ S128x64.size a
  k0_off68_inb : ∀ k0_t6 : Fin k0_t6_loop.trips, ∀ a, (k0_off68 k0_t6) a + S1x16.size a ≤ S128x128.size a
  k0_off69_inb : ∀ k0_t6 : Fin k0_t6_loop.trips, ∀ a, (k0_off69 k0_t6) a + S1x16.size a ≤ S128x128.size a
  k0_off70_inb : ∀ k0_t6 : Fin k0_t6_loop.trips, ∀ a, (k0_off70 k0_t6) a + S1x16.size a ≤ S128x64.size a
  k0_off71_inb : ∀ k0_t6 : Fin k0_t6_loop.trips, ∀ a, (k0_off71 k0_t6) a + S1x16.size a ≤ S128x128.size a
  k0_off72_inb : ∀ k0_t6 : Fin k0_t6_loop.trips, ∀ a, (k0_off72 k0_t6) a + S1x16.size a ≤ S128x128.size a
  k0_off73_inb : ∀ k0_t6 : Fin k0_t6_loop.trips, ∀ a, (k0_off73 k0_t6) a + S1x16.size a ≤ S128x64.size a
  k0_off74_inb : ∀ k0_t6 : Fin k0_t6_loop.trips, ∀ a, (k0_off74 k0_t6) a + S1x16.size a ≤ S128x128.size a
  k0_t7_ok : k0_t7_loop.OK
  k0_off75_inb : ∀ k0_t7 : Fin k0_t7_loop.trips, ∀ a, (k0_off75 k0_t7) a + S1x16.size a ≤ S128x128.size a
  k0_off76_inb : ∀ k0_t7 : Fin k0_t7_loop.trips, ∀ a, (k0_off76 k0_t7) a + S1x16.size a ≤ S128x64.size a
  k0_off77_inb : ∀ k0_t7 : Fin k0_t7_loop.trips, ∀ a, (k0_off77 k0_t7) a + S1x16.size a ≤ S128x128.size a
  k0_off78_inb : ∀ k0_t7 : Fin k0_t7_loop.trips, ∀ a, (k0_off78 k0_t7) a + S1x16.size a ≤ S128x128.size a
  k0_off79_inb : ∀ k0_t7 : Fin k0_t7_loop.trips, ∀ a, (k0_off79 k0_t7) a + S1x16.size a ≤ S128x64.size a
  k0_off80_inb : ∀ k0_t7 : Fin k0_t7_loop.trips, ∀ a, (k0_off80 k0_t7) a + S1x16.size a ≤ S128x128.size a
  k0_off81_inb : ∀ k0_t7 : Fin k0_t7_loop.trips, ∀ a, (k0_off81 k0_t7) a + S1x16.size a ≤ S128x128.size a
  k0_off82_inb : ∀ k0_t7 : Fin k0_t7_loop.trips, ∀ a, (k0_off82 k0_t7) a + S1x16.size a ≤ S128x64.size a
  k0_off83_inb : ∀ k0_t7 : Fin k0_t7_loop.trips, ∀ a, (k0_off83 k0_t7) a + S1x16.size a ≤ S128x128.size a
  k0_off84_inb : ∀ k0_t7 : Fin k0_t7_loop.trips, ∀ a, (k0_off84 k0_t7) a + S1x16.size a ≤ S128x128.size a
  k0_off85_inb : ∀ k0_t7 : Fin k0_t7_loop.trips, ∀ a, (k0_off85 k0_t7) a + S1x16.size a ≤ S128x64.size a
  k0_off86_inb : ∀ k0_t7 : Fin k0_t7_loop.trips, ∀ a, (k0_off86 k0_t7) a + S1x16.size a ≤ S128x128.size a
  k0_t8_ok : k0_t8_loop.OK
  k0_off87_inb : ∀ k0_t8 : Fin k0_t8_loop.trips, ∀ a, (k0_off87 k0_t8) a + S1x16.size a ≤ S128x128.size a
  k0_off88_inb : ∀ k0_t8 : Fin k0_t8_loop.trips, ∀ a, (k0_off88 k0_t8) a + S1x16.size a ≤ S128x64.size a
  k0_off89_inb : ∀ k0_t8 : Fin k0_t8_loop.trips, ∀ a, (k0_off89 k0_t8) a + S1x16.size a ≤ S128x128.size a
  k0_off90_inb : ∀ k0_t8 : Fin k0_t8_loop.trips, ∀ a, (k0_off90 k0_t8) a + S1x16.size a ≤ S128x128.size a
  k0_off91_inb : ∀ k0_t8 : Fin k0_t8_loop.trips, ∀ a, (k0_off91 k0_t8) a + S1x16.size a ≤ S128x64.size a
  k0_off92_inb : ∀ k0_t8 : Fin k0_t8_loop.trips, ∀ a, (k0_off92 k0_t8) a + S1x16.size a ≤ S128x128.size a
  k0_off93_inb : ∀ k0_t8 : Fin k0_t8_loop.trips, ∀ a, (k0_off93 k0_t8) a + S1x16.size a ≤ S128x128.size a
  k0_off94_inb : ∀ k0_t8 : Fin k0_t8_loop.trips, ∀ a, (k0_off94 k0_t8) a + S1x16.size a ≤ S128x64.size a
  k0_off95_inb : ∀ k0_t8 : Fin k0_t8_loop.trips, ∀ a, (k0_off95 k0_t8) a + S1x16.size a ≤ S128x128.size a
  k0_off96_inb : ∀ k0_t8 : Fin k0_t8_loop.trips, ∀ a, (k0_off96 k0_t8) a + S1x16.size a ≤ S128x128.size a
  k0_off97_inb : ∀ k0_t8 : Fin k0_t8_loop.trips, ∀ a, (k0_off97 k0_t8) a + S1x16.size a ≤ S128x64.size a
  k0_off98_inb : ∀ k0_t8 : Fin k0_t8_loop.trips, ∀ a, (k0_off98 k0_t8) a + S1x16.size a ≤ S128x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scoped0 : DmaSems sig S_ := SemArray.consecutive 6 S_ hcc0_scoped0

class Facts : Prop extends Facts₀ where

variable [Facts]
-- ==== ReferenceIdeal.lean ====
abbrev S4x8192 : Shape := ⟨2, ![4, 8192]⟩
abbrev S32768x64 : Shape := ⟨2, ![32768, 64]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x64 : Shape := ⟨3, ![4, 8192, 64]⟩

abbrev nBuf : Space → Nat
  | .hbm => 49
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S32768x64, .f32⟩
  | .hbm, ⟨2, _⟩ => ⟨S32768x64, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S1, .i32⟩
  | .hbm, ⟨12, _⟩ => ⟨S_, .i32⟩
  | .hbm, ⟨13, _⟩ => ⟨S4x8192x1, .i32⟩
  | .hbm, ⟨14, _⟩ => ⟨S4x8192x1, .i1⟩
  | .hbm, ⟨15, _⟩ => ⟨S1x1x1, .i32⟩
  | .hbm, ⟨16, _⟩ => ⟨S4x8192x1, .i32⟩
  | .hbm, ⟨17, _⟩ => ⟨S4x8192x1, .i1⟩
  | .hbm, ⟨18, _⟩ => ⟨S4x8192x1, .i1⟩
  | .hbm, ⟨19, _⟩ => ⟨S_, .i1⟩
  | .hbm, ⟨20, _⟩ => ⟨S4x8192, .i1⟩
  | .hbm, ⟨21, _⟩ => ⟨S4x8192x64, .f32⟩
  | .hbm, ⟨22, _⟩ => ⟨S4x8192x64, .i1⟩
  | .hbm, ⟨23, _⟩ => ⟨S_, .f32⟩
  | .hbm, ⟨24, _⟩ => ⟨S4x8192x64, .f32⟩
  | .hbm, ⟨25, _⟩ => ⟨S4x8192x64, .f32⟩
  | .hbm, ⟨26, _⟩ => ⟨S_, .i32⟩
  | .hbm, ⟨27, _⟩ => ⟨S4x8192, .i32⟩
  | .hbm, ⟨28, _⟩ => ⟨S4x8192, .i1⟩
  | .hbm, ⟨29, _⟩ => ⟨S_, .i32⟩
  | .hbm, ⟨30, _⟩ => ⟨S4x8192, .i32⟩
  | .hbm, ⟨31, _⟩ => ⟨S4x8192, .i32⟩
  | .hbm, ⟨32, _⟩ => ⟨S4x8192, .i32⟩
  | .hbm, ⟨33, _⟩ => ⟨S4x8192x1, .i32⟩
  | .hbm, ⟨34, _⟩ => ⟨S1, .i32⟩
  | .hbm, ⟨35, _⟩ => ⟨S_, .i32⟩
  | .hbm, ⟨36, _⟩ => ⟨S4x8192x1, .i32⟩
  | .hbm, ⟨37, _⟩ => ⟨S4x8192x1, .i1⟩
  | .hbm, ⟨38, _⟩ => ⟨S1x1x1, .i32⟩
  | .hbm, ⟨39, _⟩ => ⟨S4x8192x1, .i32⟩
  | .hbm, ⟨40, _⟩ => ⟨S4x8192x1, .i1⟩
  | .hbm, ⟨41, _⟩ => ⟨S4x8192x1, .i1⟩
  | .hbm, ⟨42, _⟩ => ⟨S_, .i1⟩
  | .hbm, ⟨43, _⟩ => ⟨S4x8192, .i1⟩
  | .hbm, ⟨44, _⟩ => ⟨S4x8192x64, .f32⟩
  | .hbm, ⟨45, _⟩ => ⟨S4x8192x64, .i1⟩
  | .hbm, ⟨46, _⟩ => ⟨S_, .f32⟩
  | .hbm, ⟨47, _⟩ => ⟨S4x8192x64, .f32⟩
  | .hbm, ⟨48, _⟩ => ⟨S4x8192x64, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x64_0_1 : S4x8192.BroadcastsInDim S4x8192x64 (![0, 1] : Fin 2 → Fin S4x8192x64.rank)
  bcast_S_S4x8192x64 : S_.BroadcastsInDim S4x8192x64 (![] : Fin 0 → Fin S4x8192x64.rank)
  gather_S32768x64_S4x8192x1_S4x8192x64_2_0_n_n_0_2_164_wf : GatherDims.WF S32768x64 S4x8192x1 S4x8192x64 [2] [0] [] [0] [] 2 ![1, 64]

variable [Facts₀]

def gather_S32768x64_S4x8192x1_S4x8192x64_2_0_n_n_0_2_164 : GatherDims S32768x64 S4x8192x1 S4x8192x64 where
  offsetDims := [2]
  collapsedSliceDims := [0]
  operandBatchingDims := []
  startIndicesBatchingDims := []
  startIndexMap := [0]
  indexVectorDim := 2
  sliceSizes := ![1, 64]
  wf := gather_S32768x64_S4x8192x1_S4x8192x64_2_0_n_n_0_2_164_wf

class Facts : Prop extends Facts₀ where

variable [Facts]
-- ==== Proof.Spec.lean ====
/-
  The specification both programs meet: a lookup of whole rows. `position_ids` is a 4 × 8192 array of 32-bit words, each of
  the two caches a 32768 × 64 array; the result at (b, s, k) is entry k of the cache's row number `position_ids[b, s]`.
  The row number is read as a natural number below 32768 (for a word in the stated range 0 … 32767 that is the word's
  own value, signed or unsigned).
-/
import Idealize.ShloMosaic.PureOps
import Idealize.ShloMosaic.Lib.ValueIdx

noncomputable section

namespace Cert.Rope

open Idealize.ShloMosaic Idealize.ShloMosaic.ValueIdx

abbrev SPos : Shape := ⟨2, ![4, 8192]⟩
abbrev STab : Shape := ⟨2, ![32768, 64]⟩
abbrev SOut : Shape := ⟨3, ![4, 8192, 64]⟩

/-- Every position is a row number of the caches: between 0 and 32767 as a signed word. -/
def InRange (pos : IVec SPos 32) : Prop :=
  ∀ (b : Fin 4) (s : Fin 8192), 0 ≤ (pos (ix2 b s)).toInt ∧ (pos (ix2 b s)).toInt ≤ 32767

/-- The row the position at (b, s) names. -/
def rowOf (pos : IVec SPos 32) (b : Fin 4) (s : Fin 8192) : Fin 32768 :=
  ⟨(pos (ix2 b s)).toNat % 32768, Nat.mod_lt _ (by decide)⟩

/-- The looked-up rows: entry (b, s, k) is entry k of row `pos[b, s]` of the table. -/
def takeRows {α : Type} (tab : STab.Idx → α) (pos : IVec SPos 32) : SOut.Idx → α :=
  fun i => tab (ix2 (rowOf pos (i 0) (i 1)) (i 2))

theorem takeRows_apply {α : Type} (tab : STab.Idx → α) (pos : IVec SPos 32) (b : Fin 4) (s : Fin 8192) (k : Fin 64) :
    takeRows tab pos (ix3 b s k) = tab (ix2 (rowOf pos b s) k) := rfl

/-- In range, the row number is the word's unsigned value. -/
theorem rowOf_val {pos : IVec SPos 32} (h : InRange pos) (b : Fin 4) (s : Fin 8192) :
    (rowOf pos b s).val = (pos (ix2 b s)).toNat := by
  have h1 := (h b s).1
  have h2 := (h b s).2
  have hlt : (pos (ix2 b s)).toNat < 32768 := by
    have := BitVec.toInt_eq_toNat_cond (pos (ix2 b s))
    have hb := (pos (ix2 b s)).isLt
    split_ifs at this <;> omega
  show (pos (ix2 b s)).toNat % 32768 = _
  exact Nat.mod_eq_of_lt hlt

/-- In range, the signed and the unsigned reading of a position agree, and both are below 32768. -/
theorem toInt_eq_toNat {pos : IVec SPos 32} (h : InRange pos) (b : Fin 4) (s : Fin 8192) :
    (pos (ix2 b s)).toInt = ((pos (ix2 b s)).toNat : Int) ∧ (pos (ix2 b s)).toNat < 32768 := by
  have h1 := (h b s).1
  have h2 := (h b s).2
  have := BitVec.toInt_eq_toNat_cond (pos (ix2 b s))
  have hb := (pos (ix2 b s)).isLt
  split_ifs at this <;> omega

end Cert.Rope

end
-- ==== Proof.KI.Setup.lean ====
/-
  The idealized kernel's program as a launch of 32 independent workers, and what each worker is handed.

  The 2 × 16 vector subcores are numbered w = 2·s + c (subcore s of SparseCore c). Worker w owns rows 8w … 8w+7 of the
  256 × 128 array of positions (1024 positions), reads the whole 32768 × 128 table (the two caches side by side) through
  a read share, and owns rows 1024w … 1024w+1023 of each of the two 32768 × 64 results, as 8 chunks of 128 rows.
  Result row p holds columns 0…63 (first result) and 64…127 (second result) of the table's row number
  `positions[p / 128, p % 128]`.
-/
import proofs.«205335_g28930899706033_cont_9to1_1924_12_alg».proof.Proof.Gen.KernelIdeal
import proofs.«205335_g28930899706033_cont_9to1_1924_12_alg».proof.Proof.Gen.KernelIdeal.Skeleton
import proofs.«205335_g28930899706033_cont_9to1_1924_12_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev psLoc (d : Dev nD) : Loc nD τ sig := (SparseCore.T d).loc main_v0
abbrev tbLoc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1
abbrev r0Loc (d : Dev nD) : Loc nD τ sig := (SparseCore.T d).loc main_v3
abbrev r1Loc (d : Dev nD) : Loc nD τ sig := (SparseCore.T d).loc main_v4

-- the kernel's memrefs, spelt as the body table passes them
abbrev psV : Memref sig .scVector .hbm S256x128 .i32 := Memref.whole main_v0_scv
abbrev tbV : Memref sig .scVector .hbm S32768x128 .f32 := Memref.whole main_v1_scv
abbrev o0V : Memref sig .scVector .hbm S32768x64 .f32 := Memref.whole main_v2_0_scv
abbrev o1V : Memref sig .scVector .hbm S32768x64 .f32 := Memref.whole main_v2_1_scv
abbrev sIx : Memref sig .scVector .vmem S8x128 .i32 := Memref.whole cc0_scratch0
abbrev sG0 : Memref sig .scVector .vmem S128x128 .f32 := Memref.whole cc0_scratch1
abbrev sG1 : Memref sig .scVector .vmem S128x128 .f32 := Memref.whole cc0_scratch2
abbrev sC0 : Memref sig .scVector .vmem S128x64 .f32 := Memref.whole cc0_scratch3
abbrev sC1 : Memref sig .scVector .vmem S128x64 .f32 := Memref.whole cc0_scratch4
abbrev sS0 : Memref sig .scVector .vmem S128x64 .f32 := Memref.whole cc0_scratch5
abbrev sS1 : Memref sig .scVector .vmem S128x64 .f32 := Memref.whole cc0_scratch6

/-! ## Workers, their rows and chunks -/

/-- Worker number of subcore `i` of SparseCore `c`. -/
def wid (c : Fin 2) (i : Fin 16) : Fin 32 := ⟨i.val * 2 + c.val, by omega⟩
/-- Chunk number `j` of worker `w`, among the 256 chunks of 128 rows. -/
def chunkOf (w : Fin 32) (j : Fin 8) : Fin 256 := ⟨w.val * 8 + j.val, by omega⟩

theorem hdiv32 : 32 ∣ S256x128.size 0 := ⟨8, rfl⟩
theorem hdiv256 : 256 ∣ S32768x64.size 0 := ⟨128, rfl⟩

/-- The 8 rows of positions of worker `w`. -/
abbrev posRect (w : Fin 32) : Rect S256x128 := Rect.part (s := S256x128) (a₀ := 0) hdiv32 w
abbrev posSet (w : Fin 32) : Finset S256x128.Idx := ((psV : Memref sig .scVector .hbm S256x128 .i32).view.slice (posRect w)).set
/-- Chunk `p`: rows 128p … 128p+127 of a result. -/
abbrev chunkRect (p : Fin 256) : Rect S32768x64 := Rect.part (s := S32768x64) (a₀ := 0) hdiv256 p
abbrev chunkSet (p : Fin 256) : Finset S32768x64.Idx := ((o0V : Memref sig .scVector .hbm S32768x64 .f32).view.slice (chunkRect p)).set

/-! ## The values -/

section Values

variable (d : Dev nD) (ps : Buf (Elt F) (psLoc d)) (tb : Buf (Elt F) (tbLoc d))

/-- The table's row that result row `p` is a copy of. -/
def srcRow (p : Fin 32768) : Fin 32768 :=
  ⟨(show BitVec 32 from ps (ix2 (⟨p.val / 128, by omega⟩ : Fin 256) (⟨p.val % 128, Nat.mod_lt _ (by decide)⟩ : Fin 128))).toNat % 32768, Nat.mod_lt _ (by decide)⟩

/-- The first result, whole: row p is columns 0…63 of the table's row `srcRow p`. -/
def G0 : Buf (Elt F) (o0Loc d) := fun (i : S32768x64.Idx) =>
  tb (ix2 (srcRow d ps (i 0)) (⟨(i 1).val, by have := idx2_lt1 i; omega⟩ : Fin 128))
/-- The second result, whole: row p is columns 64…127 of the table's row `srcRow p`. -/
def G1 : Buf (Elt F) (o1Loc d) := fun (i : S32768x64.Idx) =>
  tb (ix2 (srcRow d ps (i 0)) (⟨64 + (i 1).val, by have := idx2_lt1 i; omega⟩ : Fin 128))

end Values

end Cert.KernelIdeal.Run

end
-- ==== Proof.KI.Tile.lean ====
/-
  One worker: its thread, its number, the slices of the arrays it addresses (spelt as the kernel slices them) and
  which rows of the arrays those are; what a worker is handed and what it hands back.
-/
import proofs.«205335_g28930899706033_cont_9to1_1924_12_alg».proof.Proof.KI.Setup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## A worker's thread and number -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number: 2·subcore + core. -/
abbrev wL (L : grid0.Coords) : Fin 32 := wid (cL L) (jL L)

/-! ## The slices, as the kernel makes them -/

/-- The worker's 8 rows of positions. -/
abbrev psK (L : grid0.Coords) : Memref sig .scVector .hbm S8x128 .i32 :=
  (psV : Memref sig .scVector .hbm S256x128 .i32).slice (Rect.unit (s := S256x128) (k0_off1 L) S8x128.size (k0_off1_inb L)) (fun _ => rfl)
abbrev out0K0 (L : grid0.Coords) : Memref sig .scVector .hbm S128x64 .f32 :=
  (o0V : Memref sig .scVector .hbm S32768x64 .f32).slice (Rect.unit (s := S32768x64) (k0_off14 L 0#32) S128x64.size (k0_off14_inb L 0)) (fun _ => rfl)
abbrev out1K0 (L : grid0.Coords) : Memref sig .scVector .hbm S128x64 .f32 :=
  (o1V : Memref sig .scVector .hbm S32768x64 .f32).slice (Rect.unit (s := S32768x64) (k0_off14 L 0#32) S128x64.size (k0_off14_inb L 0)) (fun _ => rfl)
abbrev out0K1 (L : grid0.Coords) : Memref sig .scVector .hbm S128x64 .f32 :=
  (o0V : Memref sig .scVector .hbm S32768x64 .f32).slice (Rect.unit (s := S32768x64) (k0_off14 L 128#32) S128x64.size (k0_off14_inb L 1)) (fun _ => rfl)
abbrev out1K1 (L : grid0.Coords) : Memref sig .scVector .hbm S128x64 .f32 :=
  (o1V : Memref sig .scVector .hbm S32768x64 .f32).slice (Rect.unit (s := S32768x64) (k0_off14 L 128#32) S128x64.size (k0_off14_inb L 1)) (fun _ => rfl)
abbrev out0K2 (L : grid0.Coords) : Memref sig .scVector .hbm S128x64 .f32 :=
  (o0V : Memref sig .scVector .hbm S32768x64 .f32).slice (Rect.unit (s := S32768x64) (k0_off14 L 256#32) S128x64.size (k0_off14_inb L 2)) (fun _ => rfl)
abbrev out1K2 (L : grid0.Coords) : Memref sig .scVector .hbm S128x64 .f32 :=
  (o1V : Memref sig .scVector .hbm S32768x64 .f32).slice (Rect.unit (s := S32768x64) (k0_off14 L 256#32) S128x64.size (k0_off14_inb L 2)) (fun _ => rfl)
abbrev out0K3 (L : grid0.Coords) : Memref sig .scVector .hbm S128x64 .f32 :=
  (o0V : Memref sig .scVector .hbm S32768x64 .f32).slice (Rect.unit (s := S32768x64) (k0_off14 L 384#32) S128x64.size (k0_off14_inb L 3)) (fun _ => rfl)
abbrev out1K3 (L : grid0.Coords) : Memref sig .scVector .hbm S128x64 .f32 :=
  (o1V : Memref sig .scVector .hbm S32768x64 .f32).slice (Rect.unit (s := S32768x64) (k0_off14 L 384#32) S128x64.size (k0_off14_inb L 3)) (fun _ => rfl)
abbrev out0K4 (L : grid0.Coords) : Memref sig .scVector .hbm S128x64 .f32 :=
  (o0V : Memref sig .scVector .hbm S32768x64 .f32).slice (Rect.unit (s := S32768x64) (k0_off14 L 512#32) S128x64.size (k0_off14_inb L 4)) (fun _ => rfl)
abbrev out1K4 (L : grid0.Coords) : Memref sig .scVector .hbm S128x64 .f32 :=
  (o1V : Memref sig .scVector .hbm S32768x64 .f32).slice (Rect.unit (s := S32768x64) (k0_off14 L 512#32) S128x64.size (k0_off14_inb L 4)) (fun _ => rfl)
abbrev out0K5 (L : grid0.Coords) : Memref sig .scVector .hbm S128x64 .f32 :=
  (o0V : Memref sig .scVector .hbm S32768x64 .f32).slice (Rect.unit (s := S32768x64) (k0_off14 L 640#32) S128x64.size (k0_off14_inb L 5)) (fun _ => rfl)
abbrev out1K5 (L : grid0.Coords) : Memref sig .scVector .hbm S128x64 .f32 :=
  (o1V : Memref sig .scVector .hbm S32768x64 .f32).slice (Rect.unit (s := S32768x64) (k0_off14 L 640#32) S128x64.size (k0_off14_inb L 5)) (fun _ => rfl)
abbrev out0K6 (L : grid0.Coords) : Memref sig .scVector .hbm S128x64 .f32 :=
  (o0V : Memref sig .scVector .hbm S32768x64 .f32).slice (Rect.unit (s := S32768x64) (k0_off14 L 768#32) S128x64.size (k0_off14_inb L 6)) (fun _ => rfl)
abbrev out1K6 (L : grid0.Coords) : Memref sig .scVector .hbm S128x64 .f32 :=
  (o1V : Memref sig .scVector .hbm S32768x64 .f32).slice (Rect.unit (s := S32768x64) (k0_off14 L 768#32) S128x64.size (k0_off14_inb L 6)) (fun _ => rfl)
abbrev out0K7 (L : grid0.Coords) : Memref sig .scVector .hbm S128x64 .f32 :=
  (o0V : Memref sig .scVector .hbm S32768x64 .f32).slice (Rect.unit (s := S32768x64) (k0_off14 L 896#32) S128x64.size (k0_off14_inb L 7)) (fun _ => rfl)
abbrev out1K7 (L : grid0.Coords) : Memref sig .scVector .hbm S128x64 .f32 :=
  (o1V : Memref sig .scVector .hbm S32768x64 .f32).slice (Rect.unit (s := S32768x64) (k0_off14 L 896#32) S128x64.size (k0_off14_inb L 7)) (fun _ => rfl)

/-- The kernel's rectangle of positions is the worker's part of the 32. -/
theorem psRect_eq (L : grid0.Coords) : Rect.unit (s := S256x128) (k0_off1 L) S8x128.size (k0_off1_inb L) = posRect (wL L) := by
  unfold posRect Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]

theorem set_psK (L : grid0.Coords) : (psK L).view.set = posSet (wL L) := by
  show ((psV : Memref sig .scVector .hbm S256x128 .i32).view.slice (Rect.unit (s := S256x128) (k0_off1 L) S8x128.size (k0_off1_inb L))).set = _
  rw [psRect_eq]

/-- The kernel's rectangle of chunk `r` of a result is chunk `8w + r` of the 256. -/
theorem outRect_eq (L : grid0.Coords) (r : Fin 8) :
    Rect.unit (s := S32768x64) (k0_off14 L (BitVec.ofNat 32 (128 * r.val))) S128x64.size (k0_off14_inb L r) = chunkRect (chunkOf (wL L) r) := by
  unfold chunkRect Rect.part Rect.block
  congr 1 <;> funext a
  · rw [k0_off14_eq]
    match a with
    | 0 => simp [Shape.partIx, Shape.partSize, wid, chunkOf]; omega
    | 1 => simp [Shape.partIx, Shape.partSize]
  · match a with
    | 0 => simp [Shape.partSize]
    | 1 => simp [Shape.partSize]
theorem set_out0K0 (L : grid0.Coords) : (out0K0 L).view.set = chunkSet (chunkOf (wL L) 0) := by
  show ((o0V : Memref sig .scVector .hbm S32768x64 .f32).view.slice (Rect.unit (s := S32768x64) (k0_off14 L (BitVec.ofNat 32 (128 * (0 : Fin 8).val))) S128x64.size (k0_off14_inb L 0))).set = _
  rw [outRect_eq]
theorem set_out1K0 (L : grid0.Coords) : (out1K0 L).view.set = chunkSet (chunkOf (wL L) 0) := by
  show ((o1V : Memref sig .scVector .hbm S32768x64 .f32).view.slice (Rect.unit (s := S32768x64) (k0_off14 L (BitVec.ofNat 32 (128 * (0 : Fin 8).val))) S128x64.size (k0_off14_inb L 0))).set = _
  rw [outRect_eq]; rfl
theorem set_out0K1 (L : grid0.Coords) : (out0K1 L).view.set = chunkSet (chunkOf (wL L) 1) := by
  show ((o0V : Memref sig .scVector .hbm S32768x64 .f32).view.slice (Rect.unit (s := S32768x64) (k0_off14 L (BitVec.ofNat 32 (128 * (1 : Fin 8).val))) S128x64.size (k0_off14_inb L 1))).set = _
  rw [outRect_eq]
theorem set_out1K1 (L : grid0.Coords) : (out1K1 L).view.set = chunkSet (chunkOf (wL L) 1) := by
  show ((o1V : Memref sig .scVector .hbm S32768x64 .f32).view.slice (Rect.unit (s := S32768x64) (k0_off14 L (BitVec.ofNat 32 (128 * (1 : Fin 8).val))) S128x64.size (k0_off14_inb L 1))).set = _
  rw [outRect_eq]; rfl
theorem set_out0K2 (L : grid0.Coords) : (out0K2 L).view.set = chunkSet (chunkOf (wL L) 2) := by
  show ((o0V : Memref sig .scVector .hbm S32768x64 .f32).view.slice (Rect.unit (s := S32768x64) (k0_off14 L (BitVec.ofNat 32 (128 * (2 : Fin 8).val))) S128x64.size (k0_off14_inb L 2))).set = _
  rw [outRect_eq]
theorem set_out1K2 (L : grid0.Coords) : (out1K2 L).view.set = chunkSet (chunkOf (wL L) 2) := by
  show ((o1V : Memref sig .scVector .hbm S32768x64 .f32).view.slice (Rect.unit (s := S32768x64) (k0_off14 L (BitVec.ofNat 32 (128 * (2 : Fin 8).val))) S128x64.size (k0_off14_inb L 2))).set = _
  rw [outRect_eq]; rfl
theorem set_out0K3 (L : grid0.Coords) : (out0K3 L).view.set = chunkSet (chunkOf (wL L) 3) := by
  show ((o0V : Memref sig .scVector .hbm S32768x64 .f32).view.slice (Rect.unit (s := S32768x64) (k0_off14 L (BitVec.ofNat 32 (128 * (3 : Fin 8).val))) S128x64.size (k0_off14_inb L 3))).set = _
  rw [outRect_eq]
theorem set_out1K3 (L : grid0.Coords) : (out1K3 L).view.set = chunkSet (chunkOf (wL L) 3) := by
  show ((o1V : Memref sig .scVector .hbm S32768x64 .f32).view.slice (Rect.unit (s := S32768x64) (k0_off14 L (BitVec.ofNat 32 (128 * (3 : Fin 8).val))) S128x64.size (k0_off14_inb L 3))).set = _
  rw [outRect_eq]; rfl
theorem set_out0K4 (L : grid0.Coords) : (out0K4 L).view.set = chunkSet (chunkOf (wL L) 4) := by
  show ((o0V : Memref sig .scVector .hbm S32768x64 .f32).view.slice (Rect.unit (s := S32768x64) (k0_off14 L (BitVec.ofNat 32 (128 * (4 : Fin 8).val))) S128x64.size (k0_off14_inb L 4))).set = _
  rw [outRect_eq]
theorem set_out1K4 (L : grid0.Coords) : (out1K4 L).view.set = chunkSet (chunkOf (wL L) 4) := by
  show ((o1V : Memref sig .scVector .hbm S32768x64 .f32).view.slice (Rect.unit (s := S32768x64) (k0_off14 L (BitVec.ofNat 32 (128 * (4 : Fin 8).val))) S128x64.size (k0_off14_inb L 4))).set = _
  rw [outRect_eq]; rfl
theorem set_out0K5 (L : grid0.Coords) : (out0K5 L).view.set = chunkSet (chunkOf (wL L) 5) := by
  show ((o0V : Memref sig .scVector .hbm S32768x64 .f32).view.slice (Rect.unit (s := S32768x64) (k0_off14 L (BitVec.ofNat 32 (128 * (5 : Fin 8).val))) S128x64.size (k0_off14_inb L 5))).set = _
  rw [outRect_eq]
theorem set_out1K5 (L : grid0.Coords) : (out1K5 L).view.set = chunkSet (chunkOf (wL L) 5) := by
  show ((o1V : Memref sig .scVector .hbm S32768x64 .f32).view.slice (Rect.unit (s := S32768x64) (k0_off14 L (BitVec.ofNat 32 (128 * (5 : Fin 8).val))) S128x64.size (k0_off14_inb L 5))).set = _
  rw [outRect_eq]; rfl
theorem set_out0K6 (L : grid0.Coords) : (out0K6 L).view.set = chunkSet (chunkOf (wL L) 6) := by
  show ((o0V : Memref sig .scVector .hbm S32768x64 .f32).view.slice (Rect.unit (s := S32768x64) (k0_off14 L (BitVec.ofNat 32 (128 * (6 : Fin 8).val))) S128x64.size (k0_off14_inb L 6))).set = _
  rw [outRect_eq]
theorem set_out1K6 (L : grid0.Coords) : (out1K6 L).view.set = chunkSet (chunkOf (wL L) 6) := by
  show ((o1V : Memref sig .scVector .hbm S32768x64 .f32).view.slice (Rect.unit (s := S32768x64) (k0_off14 L (BitVec.ofNat 32 (128 * (6 : Fin 8).val))) S128x64.size (k0_off14_inb L 6))).set = _
  rw [outRect_eq]; rfl
theorem set_out0K7 (L : grid0.Coords) : (out0K7 L).view.set = chunkSet (chunkOf (wL L) 7) := by
  show ((o0V : Memref sig .scVector .hbm S32768x64 .f32).view.slice (Rect.unit (s := S32768x64) (k0_off14 L (BitVec.ofNat 32 (128 * (7 : Fin 8).val))) S128x64.size (k0_off14_inb L 7))).set = _
  rw [outRect_eq]
theorem set_out1K7 (L : grid0.Coords) : (out1K7 L).view.set = chunkSet (chunkOf (wL L) 7) := by
  show ((o1V : Memref sig .scVector .hbm S32768x64 .f32).view.slice (Rect.unit (s := S32768x64) (k0_off14 L (BitVec.ofNat 32 (128 * (7 : Fin 8).val))) S128x64.size (k0_off14_inb L 7))).set = _
  rw [outRect_eq]; rfl

/-! ## What a worker is handed, and hands back -/

section Pay

variable [FloatOps F]
variable (ps : (d : Dev nD) → Buf (Elt F) (psLoc d)) (tb : (d : Dev nD) → Buf (Elt F) (tbLoc d))

/-- Eight things side by side. -/
def sep8 (Φ : Fin 8 → sProp 𝕄) : sProp 𝕄 := iprop(Φ 0 ∗ Φ 1 ∗ Φ 2 ∗ Φ 3 ∗ Φ 4 ∗ Φ 5 ∗ Φ 6 ∗ Φ 7)

/-- Worker `w` is handed its rows of positions, a read share of the table, and its 8 chunks of each result at whatever
    they hold. -/
def goW (d : Dev nD) (w : Fin 32) : sProp 𝕄 :=
  iprop((psLoc d ↦[posSet w]{fullShare} ps d) ∗ (tbLoc d ↦{Transfers.shareTok fullShare 32 w} tb d)
    ∗ sep8 (fun j => iprop(∃ f, o0Loc d ↦[chunkSet (chunkOf w j)]{fullShare} f))
    ∗ sep8 (fun j => iprop(∃ f, o1Loc d ↦[chunkSet (chunkOf w j)]{fullShare} f)))

/-- It hands back the same, the chunks now holding the looked-up rows. -/
def tdW (d : Dev nD) (w : Fin 32) : sProp 𝕄 :=
  iprop((psLoc d ↦[posSet w]{fullShare} ps d) ∗ (tbLoc d ↦{Transfers.shareTok fullShare 32 w} tb d)
    ∗ sep8 (fun j => iprop(o0Loc d ↦[chunkSet (chunkOf w j)]{fullShare} G0 d (ps d) (tb d)))
    ∗ sep8 (fun j => iprop(o1Loc d ↦[chunkSet (chunkOf w j)]{fullShare} G1 d (ps d) (tb d))))

set_option synthInstance.maxSize 8192 in
set_option synthInstance.maxHeartbeats 400000 in
instance goW_storable (d : Dev nD) (w : Fin 32) : BI.Storable (upEmb : UEmb _ 𝕄) (goW ps tb d w) := by
  unfold goW sep8; dsimp only; infer_instance
set_option synthInstance.maxSize 8192 in
set_option synthInstance.maxHeartbeats 400000 in
instance tdW_storable (d : Dev nD) (w : Fin 32) : BI.Storable (upEmb : UEmb _ 𝕄) (tdW ps tb d w) := by
  unfold tdW sep8; dsimp only; infer_instance

/-- The one call: a SparseCore is handed what its 16 workers are handed, and hands back what they hand back. -/
def P : (K (F := F)).Pay (nD := nD) (Val := Elt F) (Name := ℕ) (U := UU) where
  st := fun q d c => match q with | 0 => bigSep Finset.univ fun i : Fin 16 => goW ps tb d (wid (Fin.cast nCore_zero c) i)
  dn := fun q d c => match q with | 0 => bigSep Finset.univ fun i : Fin 16 => tdW ps tb d (wid (Fin.cast nCore_zero c) i)
  go := fun q d c i => match q with | 0 => goW ps tb d (wid (Fin.cast nCore_zero c) (Fin.cast nSub_zero i))
  td := fun q d c i => match q with | 0 => tdW ps tb d (wid (Fin.cast nCore_zero c) (Fin.cast nSub_zero i))
  x := fun _ _ => iprop(emp)

instance P_storable : (P (F := F) ps tb).IsStorable where
  st q d c := match q with | 0 => by unfold P; infer_instance
  dn q d c := match q with | 0 => by unfold P; infer_instance
  go q d c i := match q with | 0 => by unfold P; infer_instance
  td q d c i := match q with | 0 => by unfold P; infer_instance

end Pay

end Cert.KernelIdeal.Run

end
-- ==== Proof.KI.Value.lean ====
/-
  The values around the SparseCore kernel. The program reshapes the 4 × 8192 positions to 256 rows of 128 and puts
  the two 32768 × 64 caches side by side as one 32768 × 128 table; the kernel leaves, in row p of each result, one half
  of the table's row named by the reshaped positions at (p / 128, p % 128); the program then reshapes each 32768 × 64
  result to 4 × 8192 × 64. Read at a result index (b, s, k), with p = 8192·b + s: both reshapes keep row-major
  positions, so the reshaped positions at (p / 128, p % 128) are the position at (b, s), and result row p at column k
  is entry (b, s, k); column k of the table is column k of the first cache, column 64 + k is column k of the second.
  Hence each result is the lookup of whole rows of its cache.
-/
import proofs.«205335_g28930899706033_cont_9to1_1924_12_alg».proof.Proof.KI.Setup
import Idealize.ShloMosaic.Lib.Pipeline.Value
import Idealize.ShloMosaic.Lib.ValueIdx

noncomputable section

namespace Cert.KernelIdeal.Run

open Cert.KernelIdeal Cert.KernelIdeal.Gen Idealize.ShloMosaic Idealize.ShloMosaic.ValueIdx

variable {F : FTy → Type} [FloatOps F]

/-- The positions as the kernel sees them: the 4 × 8192 array read as 256 rows of 128. -/
def psOf (pos : IVec S4x8192 32) : IVec S256x128 32 := shapeCast S256x128 pos shapeCasts_S4x8192_S256x128

/-- The table: the two caches side by side. -/
def tbOf (a b : FVec F S32768x64 .f32) : FVec F S32768x128 .f32 :=
  concatenate S32768x128 1 [⟨S32768x64, a⟩, ⟨S32768x64, b⟩] concatenates_S32768x64_S32768x64_S32768x128_d1

/-- The reshaped positions at (r, c) are the position at (b, s) whenever 128·r + c = 8192·b + s: a reshape keeps
    row-major positions. -/
theorem psOf_apply (pos : IVec S4x8192 32) (r : Fin 256) (c : Fin 128) (b : Fin 4) (s : Fin 8192)
    (h : r.val * 128 + c.val = b.val * 8192 + s.val) : psOf pos (ix2 r c) = pos (ix2 b s) := by
  unfold psOf
  refine shapeCast_apply pos _ (ix2 r c) (ix2 b s) ?_
  rw [Shape.rowMajor_val_two, Shape.rowMajor_val_two]
  show b.val * 8192 + s.val = r.val * 128 + c.val
  omega

/-- Column k' < 64 of the table is column k' of the first cache. -/
theorem tbOf_left (a b : FVec F S32768x64 .f32) (row : Fin 32768) (k : Fin 64) (k' : Fin 128) (hk : k'.val = k.val) :
    tbOf a b (ix2 row k') = a (ix2 row k) := by
  unfold tbOf
  refine concatenate_pair_apply_left 1 a b _ (ix2 row k') rfl (ix2 row k) ?_
  intro c
  match c with
  | ⟨0, _⟩ => rfl
  | ⟨1, _⟩ => exact hk.symm

/-- Column 64 + k of the table is column k of the second cache. -/
theorem tbOf_right (a b : FVec F S32768x64 .f32) (row : Fin 32768) (k : Fin 64) (k' : Fin 128) (hk : k'.val = 64 + k.val) :
    tbOf a b (ix2 row k') = b (ix2 row k) := by
  unfold tbOf
  refine concatenate_pair_apply_right 1 a b _ (ix2 row k') rfl rfl (ix2 row k) ?_ ?_
  · intro c hc
    match c, hc with
    | ⟨0, _⟩, _ => rfl
    | ⟨1, _⟩, hc => exact absurd rfl hc
  · show k.val + 64 = k'.val
    omega

theorem psOf_lt (pos : IVec S4x8192 32) (h : Cert.Rope.InRange pos) (j : S256x128.Idx) : (psOf pos j).toNat < 32768 := by
  obtain ⟨r, c, rfl⟩ : ∃ (r : Fin 256) (c : Fin 128), j = ix2 r c := ⟨_, _, eq_ix2 j⟩
  have hr := r.isLt
  have hc := c.isLt
  rw [psOf_apply pos r c (⟨(r.val * 128 + c.val) / 8192, by omega⟩ : Fin 4)
    (⟨(r.val * 128 + c.val) % 8192, Nat.mod_lt _ (by decide)⟩ : Fin 8192) (by show _ = _ / 8192 * 8192 + _ % 8192; omega)]
  exact (Cert.Rope.toInt_eq_toNat h _ _).2

/-- The table's row copied into result row 8192·b + s is the row the position at (b, s) names. -/
theorem srcRow_eq (d : Dev nD) (pos : IVec S4x8192 32) (b : Fin 4) (s : Fin 8192) (p : Fin 32768)
    (hp : p.val = b.val * 8192 + s.val) : srcRow (F := F) d (psOf pos) p = Cert.Rope.rowOf pos b s := by
  refine Fin.ext ?_
  show (psOf pos (ix2 (⟨p.val / 128, _⟩ : Fin 256) (⟨p.val % 128, _⟩ : Fin 128))).toNat % 32768
    = (pos (ix2 b s)).toNat % 32768
  rw [psOf_apply pos _ _ b s (by show p.val / 128 * 128 + p.val % 128 = _; omega)]

theorem res0_eq (d : Dev nD) (pos : IVec S4x8192 32) (a b : FVec F S32768x64 .f32) (h : Cert.Rope.InRange pos) :
    shapeCast S4x8192x64 (G0 d (psOf pos) (tbOf a b)) shapeCasts_S32768x64_S4x8192x64 = Cert.Rope.takeRows a pos := by
  funext i
  obtain ⟨bb, s, k, rfl⟩ : ∃ (bb : Fin 4) (s : Fin 8192) (k : Fin 64), i = ix3 bb s k := ⟨_, _, _, eq_ix3 i⟩
  have hb := bb.isLt
  have hs := s.isLt
  rw [Cert.Rope.takeRows_apply]
  rw [shapeCast_apply _ shapeCasts_S32768x64_S4x8192x64 (ix3 bb s k) (ix2 (⟨bb.val * 8192 + s.val, by omega⟩ : Fin 32768) k)
    (by rw [Shape.rowMajor_val_two, Shape.rowMajor_val_three]; rfl)]
  show tbOf a b (ix2 (srcRow (F := F) d (psOf pos) (⟨bb.val * 8192 + s.val, _⟩ : Fin 32768)) (⟨k.val, _⟩ : Fin 128)) = _
  rw [srcRow_eq d pos bb s _ rfl]
  exact tbOf_left a b _ k _ rfl

theorem res1_eq (d : Dev nD) (pos : IVec S4x8192 32) (a b : FVec F S32768x64 .f32) (h : Cert.Rope.InRange pos) :
    shapeCast S4x8192x64 (G1 d (psOf pos) (tbOf a b)) shapeCasts_S32768x64_S4x8192x64 = Cert.Rope.takeRows b pos := by
  funext i
  obtain ⟨bb, s, k, rfl⟩ : ∃ (bb : Fin 4) (s : Fin 8192) (k : Fin 64), i = ix3 bb s k := ⟨_, _, _, eq_ix3 i⟩
  have hb := bb.isLt
  have hs := s.isLt
  rw [Cert.Rope.takeRows_apply]
  rw [shapeCast_apply _ shapeCasts_S32768x64_S4x8192x64 (ix3 bb s k) (ix2 (⟨bb.val * 8192 + s.val, by omega⟩ : Fin 32768) k)
    (by rw [Shape.rowMajor_val_two, Shape.rowMajor_val_three]; rfl)]
  show tbOf a b (ix2 (srcRow (F := F) d (psOf pos) (⟨bb.val * 8192 + s.val, _⟩ : Fin 32768)) (⟨64 + k.val, _⟩ : Fin 128)) = _
  rw [srcRow_eq d pos bb s _ rfl]
  exact tbOf_right a b _ k _ rfl

end Cert.KernelIdeal.Run

end
-- ==== Proof.KI.Split.lean ====
/-
  How the program's four whole arrays split into what the 32 workers are handed, and join back from what they hand back.

  The 256 × 128 positions cut along rows into 32 parts of 8 rows, and each 32768 × 64 result into 256 chunks of 128 rows:
  the parts of an axis cut evenly are pairwise disjoint and cover the array, so a whole array held at some contents is
  the separating conjunction of its parts held at those contents (an equation, read in either direction). The table is
  not cut: it is read through 32 read shares, the full share being the remainder and the 32 shares together. Worker
  numbers are w = 2·i + c (subcore i of core c), a bijection of 2 × 16 with 32, and chunk numbers p = 8·w + j (chunk j
  of worker w), a bijection of 32 × 8 with 256, so a conjunction over workers or chunks can be taken core by core and
  subcore by subcore, resp. worker by worker and eight at a time.
-/
import proofs.«205335_g28930899706033_cont_9to1_1924_12_alg».proof.Proof.KI.Tile

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The rows of positions and the chunks of a result: disjoint, and covering -/

theorem posSet_eq (w : Fin 32) : posSet w = (posRect w).set := by
  show ((View.whole (main_v0_scv : Ref sig .scVector)).slice (posRect w)).set = _
  rw [View.set_slice]; exact Finset.map_refl
theorem pos_disjoint : ∀ i ∈ (Finset.univ : Finset (Fin 32)), ∀ j ∈ (Finset.univ : Finset (Fin 32)), i ≠ j → Disjoint (posSet i) (posSet j) :=
  fun i _ j _ h => by rw [posSet_eq, posSet_eq]; exact Rect.part_disjoint hdiv32 h
theorem pos_cover : (Finset.univ : Finset (Fin 32)).biUnion posSet = Finset.univ :=
  (Finset.biUnion_congr rfl fun i _ => posSet_eq i).trans (Rect.biUnion_part hdiv32)

theorem chunkSet_eq (p : Fin 256) : chunkSet p = (chunkRect p).set := by
  show ((View.whole (main_v2_0_scv : Ref sig .scVector)).slice (chunkRect p)).set = _
  rw [View.set_slice]; exact Finset.map_refl
theorem chunk_disjoint : ∀ i ∈ (Finset.univ : Finset (Fin 256)), ∀ j ∈ (Finset.univ : Finset (Fin 256)), i ≠ j → Disjoint (chunkSet i) (chunkSet j) :=
  fun i _ j _ h => by rw [chunkSet_eq, chunkSet_eq]; exact Rect.part_disjoint hdiv256 h
theorem chunk_cover : (Finset.univ : Finset (Fin 256)).biUnion chunkSet = Finset.univ :=
  (Finset.biUnion_congr rfl fun i _ => chunkSet_eq i).trans (Rect.biUnion_part hdiv256)

section Split

variable [FloatOps F] (d : Dev nD)

/-- The positions, whole, are the 32 workers' rows of them. -/
theorem ps_split (f : Buf (Elt F) (psLoc d)) :
    (psLoc d ↦{fullShare} f : sProp 𝕄) = bigSep Finset.univ fun w : Fin 32 => psLoc d ↦[posSet w]{fullShare} f := by
  rw [← pointsTo_biUnion Finset.univ (ℓ := psLoc d) posSet pos_disjoint, pos_cover]; try rfl
/-- A result, whole, is its 256 chunks. -/
theorem o0_split (f : Buf (Elt F) (o0Loc d)) :
    (o0Loc d ↦{fullShare} f : sProp 𝕄) = bigSep Finset.univ fun p : Fin 256 => o0Loc d ↦[chunkSet p]{fullShare} f := by
  rw [← pointsTo_biUnion Finset.univ (ℓ := o0Loc d) chunkSet chunk_disjoint, chunk_cover]; try rfl
theorem o1_split (f : Buf (Elt F) (o1Loc d)) :
    (o1Loc d ↦{fullShare} f : sProp 𝕄) = bigSep Finset.univ fun p : Fin 256 => o1Loc d ↦[chunkSet p]{fullShare} f := by
  rw [← pointsTo_biUnion Finset.univ (ℓ := o1Loc d) chunkSet chunk_disjoint, chunk_cover]; try rfl

end Split

/-! ## Re-indexing: workers by core and subcore, chunks by worker and number -/

/-- A worker is one subcore of one core: w = 2·i + c. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (i.val * 2 + c.val) % 2 = c.val
      omega
    · show (i.val * 2 + c.val) / 2 = i.val
      omega
  right_inv w := by
    refine Fin.ext ?_
    show w.val / 2 * 2 + w.val % 2 = w.val
    omega

/-- A chunk is one of the 8 of one worker: p = 8·w + j. -/
def chunkEquiv : Fin 32 × Fin 8 ≃ Fin 256 where
  toFun p := chunkOf p.1 p.2
  invFun q := (⟨q.val / 8, by omega⟩, ⟨q.val % 8, Nat.mod_lt _ (by decide)⟩)
  left_inv p := by
    obtain ⟨w, j⟩ := p
    refine Prod.ext (Fin.ext ?_) (Fin.ext ?_)
    · show (w.val * 8 + j.val) / 8 = w.val
      omega
    · show (w.val * 8 + j.val) % 8 = j.val
      omega
  right_inv q := by
    refine Fin.ext ?_
    show q.val / 8 * 8 + q.val % 8 = q.val
    omega

/-- Eight things side by side are the iterated conjunction over the eight. -/
theorem sep8_eq (Φ : Fin 8 → sProp 𝕄) : sep8 Φ = bigSep Finset.univ Φ := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

theorem bigSep_chunks (Φ : Fin 256 → sProp 𝕄) :
    bigSep Finset.univ Φ = bigSep Finset.univ fun w : Fin 32 => sep8 fun j => Φ (chunkOf w j) := by
  rw [bigSep_univ_equiv chunkEquiv Φ, bigSep_univ_prod]
  exact bigSep_congr fun w _ => (sep8_eq fun j => Φ (chunkOf w j)).symm

/-! ## All the workers' shares together -/

section All

variable [FloatOps F] (d : Dev nD)

/-- What the 32 workers are handed, regrouped by array. -/
theorem goW_all (ps : (d : Dev nD) → Buf (Elt F) (psLoc d)) (tb : (d : Dev nD) → Buf (Elt F) (tbLoc d)) :
    (bigSep Finset.univ fun c : Fin 2 => bigSep Finset.univ fun i : Fin 16 => goW ps tb d (wid c i))
      = (iprop((psLoc d ↦{fullShare} ps d)
          ∗ (bigSep Finset.univ fun w : Fin 32 => tbLoc d ↦{Transfers.shareTok fullShare 32 w} tb d)
          ∗ (bigSep Finset.univ fun p : Fin 256 => iprop(∃ f, o0Loc d ↦[chunkSet p]{fullShare} f))
          ∗ (bigSep Finset.univ fun p : Fin 256 => iprop(∃ f, o1Loc d ↦[chunkSet p]{fullShare} f))) : sProp 𝕄) := by
  rw [← bigSep_workers (fun w => goW ps tb d w)]
  unfold goW
  rw [bigSep_sep', bigSep_sep', bigSep_sep', ← ps_split,
    ← bigSep_chunks (fun p => iprop(∃ f, o0Loc d ↦[chunkSet p]{fullShare} f)),
    ← bigSep_chunks (fun p => iprop(∃ f, o1Loc d ↦[chunkSet p]{fullShare} f))]

/-- What the 32 workers hand back, regrouped by array. -/
theorem tdW_all (ps : (d : Dev nD) → Buf (Elt F) (psLoc d)) (tb : (d : Dev nD) → Buf (Elt F) (tbLoc d)) :
    (bigSep Finset.univ fun c : Fin 2 => bigSep Finset.univ fun i : Fin 16 => tdW ps tb d (wid c i))
      = (iprop((psLoc d ↦{fullShare} ps d)
          ∗ (bigSep Finset.univ fun w : Fin 32 => tbLoc d ↦{Transfers.shareTok fullShare 32 w} tb d)
          ∗ (o0Loc d ↦{fullShare} G0 d (ps d) (tb d))
          ∗ (o1Loc d ↦{fullShare} G1 d (ps d) (tb d))) : sProp 𝕄) := by
  rw [← bigSep_workers (fun w => tdW ps tb d w)]
  unfold tdW
  rw [bigSep_sep', bigSep_sep', bigSep_sep', ← ps_split,
    ← bigSep_chunks (fun p => o0Loc d ↦[chunkSet p]{fullShare} G0 d (ps d) (tb d)), ← o0_split,
    ← bigSep_chunks (fun p => o1Loc d ↦[chunkSet p]{fullShare} G1 d (ps d) (tb d)), ← o1_split]

/-- Chunks held at known contents are chunks held at some contents. -/
theorem chunks_ex0 (f : Buf (Elt F) (o0Loc d)) :
    (bigSep Finset.univ fun p : Fin 256 => o0Loc d ↦[chunkSet p]{fullShare} f)
      ⊢ (bigSep Finset.univ fun p : Fin 256 => iprop(∃ f, o0Loc d ↦[chunkSet p]{fullShare} f) : sProp 𝕄) := by
  refine bigSep_mono fun p _ => ?_
  show (o0Loc d ↦[chunkSet p]{fullShare} f : sProp 𝕄) ⊢ iprop(∃ f, o0Loc d ↦[chunkSet p]{fullShare} f)
  iintro H; iexists f; iexact H
theorem chunks_ex1 (f : Buf (Elt F) (o1Loc d)) :
    (bigSep Finset.univ fun p : Fin 256 => o1Loc d ↦[chunkSet p]{fullShare} f)
      ⊢ (bigSep Finset.univ fun p : Fin 256 => iprop(∃ f, o1Loc d ↦[chunkSet p]{fullShare} f) : sProp 𝕄) := by
  refine bigSep_mono fun p _ => ?_
  show (o1Loc d ↦[chunkSet p]{fullShare} f : sProp 𝕄) ⊢ iprop(∃ f, o1Loc d ↦[chunkSet p]{fullShare} f)
  iintro H; iexists f; iexact H

/-- @main's four arrays, whole, are the remainder of the table's read shares and what the 32 workers are handed. -/
theorem split_all (ps : (d : Dev nD) → Buf (Elt F) (psLoc d)) (tb : (d : Dev nD) → Buf (Elt F) (tbLoc d))
    (f0 : Buf (Elt F) (o0Loc d)) (f1 : Buf (Elt F) (o1Loc d)) :
    iprop((psLoc d ↦{fullShare} ps d) ∗ (tbLoc d ↦{fullShare} tb d) ∗ (o0Loc d ↦{fullShare} f0) ∗ (o1Loc d ↦{fullShare} f1))
      ⊢ (iprop((tbLoc d ↦{Transfers.shareDrop fullShare 32} tb d)
          ∗ bigSep Finset.univ fun c : Fin 2 => bigSep Finset.univ fun i : Fin 16 => goW ps tb d (wid c i)) : sProp 𝕄) := by
  rw [goW_all, o0_split, o1_split]
  iintro ⟨Hps, Htb, H0, H1⟩
  ihave Htb' := (Transfers.pointsTo_toks_split fullShare 32) $$ Htb
  icases Htb' with ⟨Hd, Ht⟩
  isplitl [Hd]; · iexact Hd
  isplitl [Hps]; · iexact Hps
  isplitl [Ht]; · iexact Ht
  isplitl [H0]
  · iapply (chunks_ex0 d f0); iexact H0
  · iapply (chunks_ex1 d f1); iexact H1

/-- … and what they hand back, with that remainder, is the four arrays whole, the results at the looked-up rows. -/
theorem join_all (ps : (d : Dev nD) → Buf (Elt F) (psLoc d)) (tb : (d : Dev nD) → Buf (Elt F) (tbLoc d)) :
    iprop((tbLoc d ↦{Transfers.shareDrop fullShare 32} tb d)
        ∗ bigSep Finset.univ fun c : Fin 2 => bigSep Finset.univ fun i : Fin 16 => tdW ps tb d (wid c i))
      ⊢ (iprop((psLoc d ↦{fullShare} ps d) ∗ (tbLoc d ↦{fullShare} tb d)
          ∗ (o0Loc d ↦{fullShare} G0 d (ps d) (tb d)) ∗ (o1Loc d ↦{fullShare} G1 d (ps d) (tb d))) : sProp 𝕄) := by
  rw [tdW_all]
  iintro ⟨Hd, Hps, Ht, H0, H1⟩
  isplitl [Hps]; · iexact Hps
  isplitl [Hd Ht]
  · iapply (Transfers.pointsTo_toks_join fullShare 32)
    isplitl [Hd]; · iexact Hd
    iexact Ht
  isplitl [H0]; · iexact H0
  iexact H1

end All

end Cert.KernelIdeal.Run

end
-- ==== Proof.KI.Launch.lean ====
/-
  The idealized kernel's launch: from one worker's task (taken as a hypothesis, stated once for a symbolic worker) to
  the run of the whole program. The program reshapes the positions and puts the two caches side by side, starts the
  two SparseCores, each of which deals its sixteen workers their rows, and after they are done reshapes the two results.
  Every weakly fair execution of the device's 35 threads terminates; the two results then hold the lookup of whole rows
  of each cache, and the three arguments are unchanged.
-/
import proofs.«205335_g28930899706033_cont_9to1_1924_12_alg».proof.Proof.KI.Tile
import proofs.«205335_g28930899706033_cont_9to1_1924_12_alg».proof.Proof.KI.Value
import proofs.«205335_g28930899706033_cont_9to1_1924_12_alg».proof.Proof.KI.Split

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## One worker's task, as a statement -/

/-- What is asked of one worker's task, for a symbolic worker: handed its rows of positions, a read share of the table
    and its chunks of the two results, it terminates and hands them back with the chunks holding the looked-up rows. -/
def TileBodyStmt [FloatOps F] : Prop :=
  ∀ (ps : (d : Dev nD) → Buf (Elt F) (psLoc d)) (tb : (d : Dev nD) → Buf (Elt F) (tbLoc d)) (d : Dev nD) (L : grid0.Coords)
    (hF : (K (F := F)).Facts) (hps : ∀ j, (show BitVec 32 from ps d j).toNat < 32768)
    (O : CellTallies nD τ sig (HIx 1)) (W : Waits sig (HIx 1)) (hO : ∀ g, O g none = 0),
    iprop(levAts (K (F := F)).L (K (F := F)).lev ∗ emp ∗ goW ps tb d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__rope_kernel L psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0)
          fun _ => iprop(tdW ps tb d (wL L) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__rope_kernel (coordsV c s)
          psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Launch

variable [FloatOps F]
variable (ps : (d : Dev nD) → Buf (Elt F) (psLoc d)) (tb : (d : Dev nD) → Buf (Elt F) (tbLoc d))

/-- Every worker's task, in the launch theorem's spelling of thread and program, from the one statement. -/
theorem tileObl (hb : TileBodyStmt (F := F)) (hF : (K (F := F)).Facts)
    (hps : ∀ d j, (show BitVec 32 from ps d j).toNat < 32768) : (K (F := F)).TileObl (D (F := F)) 𝒱 (P ps tb) v₀ 0 := by
  intro d c i O W hO _ _
  -- the kernel owes nothing for a protocol of its own
  simp only [show (P ps tb).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb ps tb d (coordsV ⟨_, hc.1⟩ ⟨_, hc.2⟩) hF (hps d) O W hO).trans (wp_mono frame _ _ fun _ => obl_post)

/-! ## What the call hands over, as equations -/

theorem P_st (d : Dev nD) (c : Fin ((K (F := F)).nCore 0)) :
    (P ps tb).st 0 d c = bigSep Finset.univ fun i : Fin 16 => goW ps tb d (wid (Fin.cast nCore_zero c) i) := rfl
theorem P_dn (d : Dev nD) (c : Fin ((K (F := F)).nCore 0)) :
    (P ps tb).dn 0 d c = bigSep Finset.univ fun i : Fin 16 => tdW ps tb d (wid (Fin.cast nCore_zero c) i) := rfl
theorem P_go (d : Dev nD) (c : Fin ((K (F := F)).nCore 0)) (i : Fin ((K (F := F)).nSub 0)) :
    (P ps tb).go 0 d c i = goW ps tb d (wid (Fin.cast nCore_zero c) (Fin.cast nSub_zero i)) := rfl
theorem P_td (d : Dev nD) (c : Fin ((K (F := F)).nCore 0)) (i : Fin ((K (F := F)).nSub 0)) :
    (P ps tb).td 0 d c i = tdW ps tb d (wid (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen workers', and its results theirs. -/
theorem vecSplit : (K (F := F)).VecSplit' (P ps tb) 0 := by
  intro d c
  rw [P_st, P_dn]
  simp only [P_go, P_td]
  rw [bigSep_tasks (F := F) (fun i => goW ps tb d (wid (Fin.cast nCore_zero c) i)),
    bigSep_tasks (F := F) (fun i => tdW ps tb d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ps tb).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P ps tb).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (psLoc d ↦{fullShare} W main_v0) ∗ (tbLoc d ↦{fullShare} W main_v1) ∗ (o0Loc d ↦{fullShare} W main_v2_0) ∗ (o1Loc d ↦{fullShare} W main_v2_1)
      ∗ (r0Loc d ↦{fullShare} W main_v3) ∗ (r1Loc d ↦{fullShare} W main_v4)) := by
  unfold unscopedBufs
  rw [show (Finset.univ.filter fun b : Ref sig .tc => ¬ b.isScoped) = {main_arg0, main_arg1, main_arg2, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- What the call takes for the two SparseCores, and what it hands back: every worker's. -/
theorem st0_eq (d : Dev nD) : (bigSep Finset.univ fun c : Fin ((K (F := F)).nCore 0) => (P ps tb).st 0 d c)
    = bigSep Finset.univ fun c : Fin 2 => bigSep Finset.univ fun i : Fin 16 => goW ps tb d (wid c i) := by
  simp only [P_st]
  exact bigSep_cores (F := F) (fun c => bigSep Finset.univ fun i : Fin 16 => goW ps tb d (wid c i))
theorem dn0_eq (d : Dev nD) : (bigSep Finset.univ fun c : Fin ((K (F := F)).nCore 0) => (P ps tb).dn 0 d c)
    = bigSep Finset.univ fun c : Fin 2 => bigSep Finset.univ fun i : Fin 16 => tdW ps tb d (wid c i) := by
  simp only [P_dn]
  exact bigSep_cores (F := F) (fun c => bigSep Finset.univ fun i : Fin 16 => tdW ps tb d (wid c i))

end Launch

/-! ## The values around the call, and the launch memory -/

section Main

variable [FloatOps F]
variable (m : (ℓ : Loc nD τ sig) → Buf (Elt F) ℓ) (ρ : Dev nD → PrngReg)

/-- The positions as the kernel is handed them: the argument, reshaped. -/
def psM (d : Dev nD) : Buf (Elt F) (psLoc d) := psOf (m (a0Loc d))
/-- The table as the kernel is handed it: the two caches side by side. -/
def tbM (d : Dev nD) : Buf (Elt F) (tbLoc d) := tbOf (m (a1Loc d)) (m (a2Loc d))

theorem psM_lt (hr : ∀ d : Dev nD, Cert.Rope.InRange (m (a0Loc d))) (d : Dev nD) (j) :
    (show BitVec 32 from psM m d j).toNat < 32768 := psOf_lt _ (hr d) j

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)
abbrev r0' : DevRef τ sig := Proc.devRef .tc (main_v3 : Ref sig .tc)
abbrev r1' : DevRef τ sig := Proc.devRef .tc (main_v4 : Ref sig .tc)

/-- The four host operations of @main. -/
abbrev opPs : HloOp τ sig (Elt F) := StableHlo.reshape main_arg0 main_v0 rfl shapeCasts_S4x8192_S256x128
abbrev opTb : HloOp τ sig (Elt F) :=
  StableHlo.binary main_arg1 main_arg2 main_v1 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F))
abbrev opR0 : HloOp τ sig (Elt F) := StableHlo.reshape main_v2_0 main_v3 rfl shapeCasts_S32768x64_S4x8192x64
abbrev opR1 : HloOp τ sig (Elt F) := StableHlo.reshape main_v2_1 main_v4 rfl shapeCasts_S32768x64_S4x8192x64

omit [FloatOps F] in
theorem held2 (d : Dev nD) (x y : DevRef τ sig) (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by rw [Finset.mem_singleton]; exact h), bigSep_singleton]

omit [FloatOps F] in
theorem held3 (d : Dev nD) (x y z : DevRef τ sig) (hxy : x ≠ y) (hxz : x ≠ z) (hyz : y ≠ z) (W : Valuation τ sig (Elt F)) :
    (held (T d) {x, y, z} W : sProp 𝕄)
      = iprop((((d, x) : Loc nD τ sig) ↦{fullShare} W x) ∗ (((d, y) : Loc nD τ sig) ↦{fullShare} W y) ∗ (((d, z) : Loc nD τ sig) ↦{fullShare} W z)) := by
  unfold held
  rw [SparseCore.bigSep_insert' (by rw [Finset.mem_insert, Finset.mem_singleton]; exact fun e => e.elim hxy hxz),
    SparseCore.bigSep_insert' (by rw [Finset.mem_singleton]; exact hyz), bigSep_singleton]

/-- The launch valuation; after the call, a result array at what the kernel left. -/
def V0 (d : Dev nD) : Valuation τ sig (Elt F) := fun b => m (d, b)
def V3 (d : Dev nD) : Valuation τ sig (Elt F) := Function.update (V0 m d) o0' (G0 d (psM m d) (tbM m d))
def V4 (d : Dev nD) : Valuation τ sig (Elt F) := Function.update (V0 m d) o1' (G1 d (psM m d) (tbM m d))

theorem V3_o0 (d : Dev nD) : V3 m d o0' = G0 d (psM m d) (tbM m d) := Function.update_self _ _ _
theorem V3_r0 (d : Dev nD) : V3 m d r0' = m (r0Loc d) := Function.update_of_ne (show r0' ≠ o0' by decide) _ _
theorem V4_o1 (d : Dev nD) : V4 m d o1' = G1 d (psM m d) (tbM m d) := Function.update_self _ _ _
theorem V4_r1 (d : Dev nD) : V4 m d r1' = m (r1Loc d) := Function.update_of_ne (show r1' ≠ o1' by decide) _ _

/-- After the reshape of the positions: the argument as it was, the kernel's positions. -/
theorem held_opPs (d : Dev nD) :
    (held (T d) {a0', v0'} ((opPs (F := F)).result (V0 m d)) : sProp 𝕄)
      = iprop((a0Loc d ↦{fullShare} m (a0Loc d)) ∗ (psLoc d ↦{fullShare} psM m d)) := by
  rw [held2 d a0' v0' (by decide), (opPs (F := F)).result_of_not_mem (V0 m d) (b := a0') (show a0' ∉ ({v0'} : Finset (DevRef τ sig)) by decide)]
  rw [show (opPs (F := F)).result (V0 m d) v0' = psM m d from StableHlo.reshape_result _ _ _ _ _ _ _]
  rfl

/-- After the concatenation: the two caches as they were, the kernel's table. -/
theorem held_opTb (d : Dev nD) :
    (held (T d) {a1', a2', v1'} ((opTb (F := F)).result (V0 m d)) : sProp 𝕄)
      = iprop((a1Loc d ↦{fullShare} m (a1Loc d)) ∗ (a2Loc d ↦{fullShare} m (a2Loc d)) ∗ (tbLoc d ↦{fullShare} tbM m d)) := by
  rw [held3 d a1' a2' v1' (by decide) (by decide) (by decide),
    (opTb (F := F)).result_of_not_mem (V0 m d) (b := a1') (show a1' ∉ ({v1'} : Finset (DevRef τ sig)) by decide),
    (opTb (F := F)).result_of_not_mem (V0 m d) (b := a2') (show a2' ∉ ({v1'} : Finset (DevRef τ sig)) by decide)]
  rw [show (opTb (F := F)).result (V0 m d) v1' = tbM m d from StableHlo.binary_result _ _ _ _ _ _ _ _]
  rfl

/-- After the reshape of the first result: the kernel's array as it left it, the result the lookup of rows. -/
theorem held_opR0 (d : Dev nD) (hr : Cert.Rope.InRange (m (a0Loc d))) :
    (held (T d) {o0', r0'} ((opR0 (F := F)).result (V3 m d)) : sProp 𝕄)
      = iprop((o0Loc d ↦{fullShare} G0 d (psM m d) (tbM m d)) ∗ (r0Loc d ↦{fullShare} Cert.Rope.takeRows (m (a1Loc d)) (m (a0Loc d)))) := by
  rw [held2 d o0' r0' (by decide), (opR0 (F := F)).result_of_not_mem (V3 m d) (b := o0') (show o0' ∉ ({r0'} : Finset (DevRef τ sig)) by decide), V3_o0]
  rw [show (opR0 (F := F)).result (V3 m d) r0' = Cert.Rope.takeRows (m (a1Loc d)) (m (a0Loc d)) from
    (StableHlo.reshape_result _ _ _ _ _ _ _).trans (by rw [V3_o0]; exact res0_eq d (m (a0Loc d)) (m (a1Loc d)) (m (a2Loc d)) hr)]

theorem held_opR1 (d : Dev nD) (hr : Cert.Rope.InRange (m (a0Loc d))) :
    (held (T d) {o1', r1'} ((opR1 (F := F)).result (V4 m d)) : sProp 𝕄)
      = iprop((o1Loc d ↦{fullShare} G1 d (psM m d) (tbM m d)) ∗ (r1Loc d ↦{fullShare} Cert.Rope.takeRows (m (a2Loc d)) (m (a0Loc d)))) := by
  rw [held2 d o1' r1' (by decide), (opR1 (F := F)).result_of_not_mem (V4 m d) (b := o1') (show o1' ∉ ({r1'} : Finset (DevRef τ sig)) by decide), V4_o1]
  rw [show (opR1 (F := F)).result (V4 m d) r1' = Cert.Rope.takeRows (m (a2Loc d)) (m (a0Loc d)) from
    (StableHlo.reshape_result _ _ _ _ _ _ _).trans (by rw [V4_o1]; exact res1_eq d (m (a0Loc d)) (m (a1Loc d)) (m (a2Loc d)) hr)]

/-- What @main leaves the claim: the two results at the lookup of rows, the three arguments at their launch contents. -/
abbrev FIN (d : Dev nD) : sProp 𝕄 :=
  iprop((r0Loc d ↦{fullShare} Cert.Rope.takeRows (m (a1Loc d)) (m (a0Loc d))) ∗ (r1Loc d ↦{fullShare} Cert.Rope.takeRows (m (a2Loc d)) (m (a0Loc d)))
    ∗ (a0Loc d ↦{fullShare} m (a0Loc d)) ∗ (a1Loc d ↦{fullShare} m (a1Loc d)) ∗ (a2Loc d ↦{fullShare} m (a2Loc d)))

/-- @main on device `d`'s TensorCore: the two host operations before the call, the call (every worker's share out, and
    back), the two reshapes after it. -/
theorem hmain (hr : ∀ d : Dev nD, Cert.Rope.InRange (m (a0Loc d)))
    (κ : GSem nD τ sig → ℕ) (d : Dev nD) :
    iprop((K (F := F)).ctx EH (P (psM m) (tbM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Ho0, Ho1, Hr0, Hr1⟩, -, -⟩, -⟩
  -- the positions, reshaped
  iapply (wp_hlo_within 𝒱 (SparseCore.T d) none Set.univ (op := opPs (F := F)) (S := {a0', v0'}) (Finset.Subset.refl _) (V := V0 m d)) $$ [Hb Ha0 Hv0]
  · isplitl [Hb]; · iexact Hb
    rw [held2 d a0' v0' (by decide)]
    isplitl [Ha0]; · iexact Ha0
    iexact Hv0
  iintro ⟨Hb, Hh⟩
  ihave Hh' := (Entails.of_eq (held_opPs m d)) $$ Hh
  icases Hh' with ⟨Ha0, Hps⟩
  rw [wp_ret]; imodintro
  -- the two caches side by side
  iapply (wp_hlo_within 𝒱 (SparseCore.T d) none Set.univ (op := opTb (F := F)) (S := {a1', a2', v1'}) (Finset.Subset.refl _) (V := V0 m d)) $$ [Hb Ha1 Ha2 Hv1]
  · isplitl [Hb]; · iexact Hb
    rw [held3 d a1' a2' v1' (by decide) (by decide) (by decide)]
    isplitl [Ha1]; · iexact Ha1
    isplitl [Ha2]; · iexact Ha2
    iexact Hv1
  iintro ⟨Hb, Hh⟩
  ihave Hh' := (Entails.of_eq (held_opTb m d)) $$ Hh
  icases Hh' with ⟨Ha1, Ha2, Htb⟩
  rw [wp_ret]; imodintro
  -- the call: every worker's share out, and back
  ihave Hsp := (split_all d (psM m) (tbM m) _ _) $$ [Hps Htb Ho0 Ho1]
  · isplitl [Hps]; · iexact Hps
    isplitl [Htb]; · iexact Htb
    isplitl [Ho0]; · iexact Ho0
    iexact Ho1
  icases Hsp with ⟨Htbr, Hgo⟩
  iapply ((K (F := F)).wp_run (D (F := F)) 𝒱 (EH := EH) (P := P (psM m) (tbM m)) κ d 0) $$ [Hst Hgo Hb Htbr Ha0 Ha1 Ha2 Hr0 Hr1]
  isplitr; · iexact Hctx
  isplitl [Hst]; · iexact Hst
  isplitl [Hgo]
  · rw [st0_eq]; iexact Hgo
  iintro ⟨Hst, Hdn⟩
  ihave Hdn' := (Entails.of_eq (dn0_eq (psM m) (tbM m) d)) $$ Hdn
  ihave Hj := (join_all d (psM m) (tbM m)) $$ [Htbr Hdn']
  · isplitl [Htbr]; · iexact Htbr
    iexact Hdn'
  icases Hj with ⟨-, -, Ho0, Ho1⟩
  -- the first result, reshaped
  iapply (wp_hlo_within 𝒱 (SparseCore.T d) none Set.univ (op := opR0 (F := F)) (S := {o0', r0'}) (Finset.Subset.refl _) (V := V3 m d)) $$ [Hb Ho0 Hr0]
  · isplitl [Hb]; · iexact Hb
    rw [held2 d o0' r0' (by decide), V3_o0, V3_r0]
    isplitl [Ho0]; · iexact Ho0
    iexact Hr0
  iintro ⟨Hb, Hh⟩
  ihave Hh' := (Entails.of_eq (held_opR0 m d (hr d))) $$ Hh
  icases Hh' with ⟨-, Hr0⟩
  rw [wp_ret]; imodintro
  -- the second
  iapply (wp_hlo_within 𝒱 (SparseCore.T d) none Set.univ (op := opR1 (F := F)) (S := {o1', r1'}) (Finset.Subset.refl _) (V := V4 m d)) $$ [Hb Ho1 Hr1]
  · isplitl [Hb]; · iexact Hb
    rw [held2 d o1' r1' (by decide), V4_o1, V4_r1]
    isplitl [Ho1]; · iexact Ho1
    iexact Hr1
  iintro ⟨Hb, Hh⟩
  ihave Hh' := (Entails.of_eq (held_opR1 m d (hr d))) $$ Hh
  icases Hh' with ⟨-, Hr1⟩
  rw [wp_ret]; imodintro; imodintro
  isplitl [Hst]; · iexact Hst
  isplitl [Hr0]; · iexact Hr0
  isplitl [Hr1]; · iexact Hr1
  isplitl [Ha0]; · iexact Ha0
  isplitl [Ha1]; · iexact Ha1
  iexact Ha2

/-! ## The final memory reads the claim -/

def fq (d : Dev nD) (s' : Phys nD τ sig (Elt F)) : Prop :=
  s'.mem.mem (r0Loc d) = Cert.Rope.takeRows (m (a1Loc d)) (m (a0Loc d)) ∧ s'.mem.mem (r1Loc d) = Cert.Rope.takeRows (m (a2Loc d)) (m (a0Loc d))
    ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr0, Hr1, Ha0, Ha1, Ha2⟩, HSI⟩
  ihave H := (persistent_entails_right (SI_pointsTo_agree (st := s') (ℓ := r0Loc d) (I := Finset.univ) (q := fullShare) (f := Cert.Rope.takeRows (m (a1Loc d)) (m (a0Loc d))))) $$ [HSI Hr0]
  · isplitl [HSI] <;> iassumption
  icases H with ⟨%h1, HSI, -⟩
  ihave H := (persistent_entails_right (SI_pointsTo_agree (st := s') (ℓ := r1Loc d) (I := Finset.univ) (q := fullShare) (f := Cert.Rope.takeRows (m (a2Loc d)) (m (a0Loc d))))) $$ [HSI Hr1]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h3, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h4, HSI, -⟩
  ihave H := (SI_pointsTo_agree (st := s') (ℓ := a2Loc d) (I := Finset.univ) (q := fullShare) (f := m (a2Loc d))) $$ [HSI Ha2]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (r0Loc c) = Cert.Rope.takeRows (m (a1Loc c)) (m (a0Loc c)) ∧ r.2.mem (r1Loc c) = Cert.Rope.takeRows (m (a2Loc c)) (m (a0Loc c))
    ∧ r.2.mem (a0Loc c) = m (a0Loc c) ∧ r.2.mem (a1Loc c) = m (a1Loc c) ∧ r.2.mem (a2Loc c) = m (a2Loc c)

theorem run_value_of [∀ e, Nonempty (Elt F e)] (hb : TileBodyStmt (F := F)) (hr : ∀ d : Dev nD, Cert.Rope.InRange (m (a0Loc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (psM m) (tbM m)) facts v₀
    (fun q hq => match q with | 0 => nomatch hq)
    (fun q _ => match q with | 0 => tileObl (psM m) (tbM m) hb facts (psM_lt m hr))
    (fun q _ => match q with | 0 => SparseCore.Cfg.VecSplit.of_plain (vecSplit (psM m) (tbM m)))
    m ρ main (fun _ => iprop(emp)) (FIN m) (u₀ (F := F)) (sep_elim_left.trans (hu₀ (psM m) (tbM m))) (hmain m ρ hr) (fq m) (hfin m) (QC m) (fun _ h => h)

end Main

/-- From any memory whose positions are row numbers, semaphores zero, given one worker's task: every weakly fair
    execution of the device's threads terminates, the two results hold the lookup of whole rows of each cache, and the
    three arguments are unchanged. -/
theorem run_value [FloatOps F] [∀ e, Nonempty (Elt F e)] (hb : TileBodyStmt (F := F)) (m : (ℓ : Loc nD τ sig) → Buf (Elt F) ℓ) (ρ : Dev nD → PrngReg)
    (hr : ∀ d : Dev nD, Cert.Rope.InRange (m (a0Loc d))) :
    θ_run (Cert.KernelIdeal.defs (F := F)) (Cert.KernelIdeal.threads (F := F)) ⟨m, fun _ => 0, ρ⟩ (fun r => ∀ c : Dev nD,
      r.2.mem (r0Loc c) = Cert.Rope.takeRows (m (a1Loc c)) (m (a0Loc c)) ∧ r.2.mem (r1Loc c) = Cert.Rope.takeRows (m (a2Loc c)) (m (a0Loc c))
      ∧ r.2.mem (a0Loc c) = m (a0Loc c) ∧ r.2.mem (a1Loc c) = m (a1Loc c) ∧ r.2.mem (a2Loc c) = m (a2Loc c)) :=
  run_value_of m ρ hb hr

end Cert.KernelIdeal.Run

end
-- ==== Proof.KB.Setup.lean ====
/-
  The kernel's program as a launch of 32 independent workers, and what each worker is handed.

  The 2 × 16 vector subcores are numbered w = 2·s + c (subcore s of SparseCore c). Worker w owns rows 8w … 8w+7 of the
  256 × 128 array of positions (1024 positions), reads the whole 32768 × 128 table (the two caches side by side) through
  a read share, and owns rows 1024w … 1024w+1023 of each of the two 32768 × 64 results, as 8 chunks of 128 rows.
  Result row p holds columns 0…63 (first result) and 64…127 (second result) of the table's row number
  `positions[p / 128, p % 128]`.
-/
import proofs.«205335_g28930899706033_cont_9to1_1924_12_alg».proof.Proof.Gen.Kernel
import proofs.«205335_g28930899706033_cont_9to1_1924_12_alg».proof.Proof.Gen.Kernel.Skeleton
import proofs.«205335_g28930899706033_cont_9to1_1924_12_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev psLoc (d : Dev nD) : Loc nD τ sig := (SparseCore.T d).loc main_v0
abbrev tbLoc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1
abbrev r0Loc (d : Dev nD) : Loc nD τ sig := (SparseCore.T d).loc main_v3
abbrev r1Loc (d : Dev nD) : Loc nD τ sig := (SparseCore.T d).loc main_v4

-- the kernel's memrefs, spelt as the body table passes them
abbrev psV : Memref sig .scVector .hbm S256x128 .i32 := Memref.whole main_v0_scv
abbrev tbV : Memref sig .scVector .hbm S32768x128 .f32 := Memref.whole main_v1_scv
abbrev o0V : Memref sig .scVector .hbm S32768x64 .f32 := Memref.whole main_v2_0_scv
abbrev o1V : Memref sig .scVector .hbm S32768x64 .f32 := Memref.whole main_v2_1_scv
abbrev sIx : Memref sig .scVector .vmem S8x128 .i32 := Memref.whole cc0_scratch0
abbrev sG0 : Memref sig .scVector .vmem S128x128 .f32 := Memref.whole cc0_scratch1
abbrev sG1 : Memref sig .scVector .vmem S128x128 .f32 := Memref.whole cc0_scratch2
abbrev sC0 : Memref sig .scVector .vmem S128x64 .f32 := Memref.whole cc0_scratch3
abbrev sC1 : Memref sig .scVector .vmem S128x64 .f32 := Memref.whole cc0_scratch4
abbrev sS0 : Memref sig .scVector .vmem S128x64 .f32 := Memref.whole cc0_scratch5
abbrev sS1 : Memref sig .scVector .vmem S128x64 .f32 := Memref.whole cc0_scratch6

/-! ## Workers, their rows and chunks -/

/-- Worker number of subcore `i` of SparseCore `c`. -/
def wid (c : Fin 2) (i : Fin 16) : Fin 32 := ⟨i.val * 2 + c.val, by omega⟩
/-- Chunk number `j` of worker `w`, among the 256 chunks of 128 rows. -/
def chunkOf (w : Fin 32) (j : Fin 8) : Fin 256 := ⟨w.val * 8 + j.val, by omega⟩

theorem hdiv32 : 32 ∣ S256x128.size 0 := ⟨8, rfl⟩
theorem hdiv256 : 256 ∣ S32768x64.size 0 := ⟨128, rfl⟩

/-- The 8 rows of positions of worker `w`. -/
abbrev posRect (w : Fin 32) : Rect S256x128 := Rect.part (s := S256x128) (a₀ := 0) hdiv32 w
abbrev posSet (w : Fin 32) : Finset S256x128.Idx := ((psV : Memref sig .scVector .hbm S256x128 .i32).view.slice (posRect w)).set
/-- Chunk `p`: rows 128p … 128p+127 of a result. -/
abbrev chunkRect (p : Fin 256) : Rect S32768x64 := Rect.part (s := S32768x64) (a₀ := 0) hdiv256 p
abbrev chunkSet (p : Fin 256) : Finset S32768x64.Idx := ((o0V : Memref sig .scVector .hbm S32768x64 .f32).view.slice (chunkRect p)).set

/-! ## The values -/

section Values

variable (d : Dev nD) (ps : Buf (Elt F) (psLoc d)) (tb : Buf (Elt F) (tbLoc d))

/-- The table's row that result row `p` is a copy of. -/
def srcRow (p : Fin 32768) : Fin 32768 :=
  ⟨(show BitVec 32 from ps (ix2 (⟨p.val / 128, by omega⟩ : Fin 256) (⟨p.val % 128, Nat.mod_lt _ (by decide)⟩ : Fin 128))).toNat % 32768, Nat.mod_lt _ (by decide)⟩

/-- The first result, whole: row p is columns 0…63 of the table's row `srcRow p`. -/
def G0 : Buf (Elt F) (o0Loc d) := fun (i : S32768x64.Idx) =>
  tb (ix2 (srcRow d ps (i 0)) (⟨(i 1).val, by have := idx2_lt1 i; omega⟩ : Fin 128))
/-- The second result, whole: row p is columns 64…127 of the table's row `srcRow p`. -/
def G1 : Buf (Elt F) (o1Loc d) := fun (i : S32768x64.Idx) =>
  tb (ix2 (srcRow d ps (i 0)) (⟨64 + (i 1).val, by have := idx2_lt1 i; omega⟩ : Fin 128))

end Values

end Cert.Kernel.Run

end
-- ==== Proof.KB.Tile.lean ====
/-
  One worker: its thread, its number, the slices of the arrays it addresses (spelt as the kernel slices them) and
  which rows of the arrays those are; what a worker is handed and what it hands back.
-/
import proofs.«205335_g28930899706033_cont_9to1_1924_12_alg».proof.Proof.KB.Setup

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## A worker's thread and number -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number: 2·subcore + core. -/
abbrev wL (L : grid0.Coords) : Fin 32 := wid (cL L) (jL L)

/-! ## The slices, as the kernel makes them -/

/-- The worker's 8 rows of positions. -/
abbrev psK (L : grid0.Coords) : Memref sig .scVector .hbm S8x128 .i32 :=
  (psV : Memref sig .scVector .hbm S256x128 .i32).slice (Rect.unit (s := S256x128) (k0_off1 L) S8x128.size (k0_off1_inb L)) (fun _ => rfl)
abbrev out0K0 (L : grid0.Coords) : Memref sig .scVector .hbm S128x64 .f32 :=
  (o0V : Memref sig .scVector .hbm S32768x64 .f32).slice (Rect.unit (s := S32768x64) (k0_off14 L 0#32) S128x64.size (k0_off14_inb L 0)) (fun _ => rfl)
abbrev out1K0 (L : grid0.Coords) : Memref sig .scVector .hbm S128x64 .f32 :=
  (o1V : Memref sig .scVector .hbm S32768x64 .f32).slice (Rect.unit (s := S32768x64) (k0_off14 L 0#32) S128x64.size (k0_off14_inb L 0)) (fun _ => rfl)
abbrev out0K1 (L : grid0.Coords) : Memref sig .scVector .hbm S128x64 .f32 :=
  (o0V : Memref sig .scVector .hbm S32768x64 .f32).slice (Rect.unit (s := S32768x64) (k0_off14 L 128#32) S128x64.size (k0_off14_inb L 1)) (fun _ => rfl)
abbrev out1K1 (L : grid0.Coords) : Memref sig .scVector .hbm S128x64 .f32 :=
  (o1V : Memref sig .scVector .hbm S32768x64 .f32).slice (Rect.unit (s := S32768x64) (k0_off14 L 128#32) S128x64.size (k0_off14_inb L 1)) (fun _ => rfl)
abbrev out0K2 (L : grid0.Coords) : Memref sig .scVector .hbm S128x64 .f32 :=
  (o0V : Memref sig .scVector .hbm S32768x64 .f32).slice (Rect.unit (s := S32768x64) (k0_off14 L 256#32) S128x64.size (k0_off14_inb L 2)) (fun _ => rfl)
abbrev out1K2 (L : grid0.Coords) : Memref sig .scVector .hbm S128x64 .f32 :=
  (o1V : Memref sig .scVector .hbm S32768x64 .f32).slice (Rect.unit (s := S32768x64) (k0_off14 L 256#32) S128x64.size (k0_off14_inb L 2)) (fun _ => rfl)
abbrev out0K3 (L : grid0.Coords) : Memref sig .scVector .hbm S128x64 .f32 :=
  (o0V : Memref sig .scVector .hbm S32768x64 .f32).slice (Rect.unit (s := S32768x64) (k0_off14 L 384#32) S128x64.size (k0_off14_inb L 3)) (fun _ => rfl)
abbrev out1K3 (L : grid0.Coords) : Memref sig .scVector .hbm S128x64 .f32 :=
  (o1V : Memref sig .scVector .hbm S32768x64 .f32).slice (Rect.unit (s := S32768x64) (k0_off14 L 384#32) S128x64.size (k0_off14_inb L 3)) (fun _ => rfl)
abbrev out0K4 (L : grid0.Coords) : Memref sig .scVector .hbm S128x64 .f32 :=
  (o0V : Memref sig .scVector .hbm S32768x64 .f32).slice (Rect.unit (s := S32768x64) (k0_off14 L 512#32) S128x64.size (k0_off14_inb L 4)) (fun _ => rfl)
abbrev out1K4 (L : grid0.Coords) : Memref sig .scVector .hbm S128x64 .f32 :=
  (o1V : Memref sig .scVector .hbm S32768x64 .f32).slice (Rect.unit (s := S32768x64) (k0_off14 L 512#32) S128x64.size (k0_off14_inb L 4)) (fun _ => rfl)
abbrev out0K5 (L : grid0.Coords) : Memref sig .scVector .hbm S128x64 .f32 :=
  (o0V : Memref sig .scVector .hbm S32768x64 .f32).slice (Rect.unit (s := S32768x64) (k0_off14 L 640#32) S128x64.size (k0_off14_inb L 5)) (fun _ => rfl)
abbrev out1K5 (L : grid0.Coords) : Memref sig .scVector .hbm S128x64 .f32 :=
  (o1V : Memref sig .scVector .hbm S32768x64 .f32).slice (Rect.unit (s := S32768x64) (k0_off14 L 640#32) S128x64.size (k0_off14_inb L 5)) (fun _ => rfl)
abbrev out0K6 (L : grid0.Coords) : Memref sig .scVector .hbm S128x64 .f32 :=
  (o0V : Memref sig .scVector .hbm S32768x64 .f32).slice (Rect.unit (s := S32768x64) (k0_off14 L 768#32) S128x64.size (k0_off14_inb L 6)) (fun _ => rfl)
abbrev out1K6 (L : grid0.Coords) : Memref sig .scVector .hbm S128x64 .f32 :=
  (o1V : Memref sig .scVector .hbm S32768x64 .f32).slice (Rect.unit (s := S32768x64) (k0_off14 L 768#32) S128x64.size (k0_off14_inb L 6)) (fun _ => rfl)
abbrev out0K7 (L : grid0.Coords) : Memref sig .scVector .hbm S128x64 .f32 :=
  (o0V : Memref sig .scVector .hbm S32768x64 .f32).slice (Rect.unit (s := S32768x64) (k0_off14 L 896#32) S128x64.size (k0_off14_inb L 7)) (fun _ => rfl)
abbrev out1K7 (L : grid0.Coords) : Memref sig .scVector .hbm S128x64 .f32 :=
  (o1V : Memref sig .scVector .hbm S32768x64 .f32).slice (Rect.unit (s := S32768x64) (k0_off14 L 896#32) S128x64.size (k0_off14_inb L 7)) (fun _ => rfl)

/-- The kernel's rectangle of positions is the worker's part of the 32. -/
theorem psRect_eq (L : grid0.Coords) : Rect.unit (s := S256x128) (k0_off1 L) S8x128.size (k0_off1_inb L) = posRect (wL L) := by
  unfold posRect Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]

theorem set_psK (L : grid0.Coords) : (psK L).view.set = posSet (wL L) := by
  show ((psV : Memref sig .scVector .hbm S256x128 .i32).view.slice (Rect.unit (s := S256x128) (k0_off1 L) S8x128.size (k0_off1_inb L))).set = _
  rw [psRect_eq]

/-- The kernel's rectangle of chunk `r` of a result is chunk `8w + r` of the 256. -/
theorem outRect_eq (L : grid0.Coords) (r : Fin 8) :
    Rect.unit (s := S32768x64) (k0_off14 L (BitVec.ofNat 32 (128 * r.val))) S128x64.size (k0_off14_inb L r) = chunkRect (chunkOf (wL L) r) := by
  unfold chunkRect Rect.part Rect.block
  congr 1 <;> funext a
  · rw [k0_off14_eq]
    match a with
    | 0 => simp [Shape.partIx, Shape.partSize, wid, chunkOf]; omega
    | 1 => simp [Shape.partIx, Shape.partSize]
  · match a with
    | 0 => simp [Shape.partSize]
    | 1 => simp [Shape.partSize]
theorem set_out0K0 (L : grid0.Coords) : (out0K0 L).view.set = chunkSet (chunkOf (wL L) 0) := by
  show ((o0V : Memref sig .scVector .hbm S32768x64 .f32).view.slice (Rect.unit (s := S32768x64) (k0_off14 L (BitVec.ofNat 32 (128 * (0 : Fin 8).val))) S128x64.size (k0_off14_inb L 0))).set = _
  rw [outRect_eq]
theorem set_out1K0 (L : grid0.Coords) : (out1K0 L).view.set = chunkSet (chunkOf (wL L) 0) := by
  show ((o1V : Memref sig .scVector .hbm S32768x64 .f32).view.slice (Rect.unit (s := S32768x64) (k0_off14 L (BitVec.ofNat 32 (128 * (0 : Fin 8).val))) S128x64.size (k0_off14_inb L 0))).set = _
  rw [outRect_eq]; rfl
theorem set_out0K1 (L : grid0.Coords) : (out0K1 L).view.set = chunkSet (chunkOf (wL L) 1) := by
  show ((o0V : Memref sig .scVector .hbm S32768x64 .f32).view.slice (Rect.unit (s := S32768x64) (k0_off14 L (BitVec.ofNat 32 (128 * (1 : Fin 8).val))) S128x64.size (k0_off14_inb L 1))).set = _
  rw [outRect_eq]
theorem set_out1K1 (L : grid0.Coords) : (out1K1 L).view.set = chunkSet (chunkOf (wL L) 1) := by
  show ((o1V : Memref sig .scVector .hbm S32768x64 .f32).view.slice (Rect.unit (s := S32768x64) (k0_off14 L (BitVec.ofNat 32 (128 * (1 : Fin 8).val))) S128x64.size (k0_off14_inb L 1))).set = _
  rw [outRect_eq]; rfl
theorem set_out0K2 (L : grid0.Coords) : (out0K2 L).view.set = chunkSet (chunkOf (wL L) 2) := by
  show ((o0V : Memref sig .scVector .hbm S32768x64 .f32).view.slice (Rect.unit (s := S32768x64) (k0_off14 L (BitVec.ofNat 32 (128 * (2 : Fin 8).val))) S128x64.size (k0_off14_inb L 2))).set = _
  rw [outRect_eq]
theorem set_out1K2 (L : grid0.Coords) : (out1K2 L).view.set = chunkSet (chunkOf (wL L) 2) := by
  show ((o1V : Memref sig .scVector .hbm S32768x64 .f32).view.slice (Rect.unit (s := S32768x64) (k0_off14 L (BitVec.ofNat 32 (128 * (2 : Fin 8).val))) S128x64.size (k0_off14_inb L 2))).set = _
  rw [outRect_eq]; rfl
theorem set_out0K3 (L : grid0.Coords) : (out0K3 L).view.set = chunkSet (chunkOf (wL L) 3) := by
  show ((o0V : Memref sig .scVector .hbm S32768x64 .f32).view.slice (Rect.unit (s := S32768x64) (k0_off14 L (BitVec.ofNat 32 (128 * (3 : Fin 8).val))) S128x64.size (k0_off14_inb L 3))).set = _
  rw [outRect_eq]
theorem set_out1K3 (L : grid0.Coords) : (out1K3 L).view.set = chunkSet (chunkOf (wL L) 3) := by
  show ((o1V : Memref sig .scVector .hbm S32768x64 .f32).view.slice (Rect.unit (s := S32768x64) (k0_off14 L (BitVec.ofNat 32 (128 * (3 : Fin 8).val))) S128x64.size (k0_off14_inb L 3))).set = _
  rw [outRect_eq]; rfl
theorem set_out0K4 (L : grid0.Coords) : (out0K4 L).view.set = chunkSet (chunkOf (wL L) 4) := by
  show ((o0V : Memref sig .scVector .hbm S32768x64 .f32).view.slice (Rect.unit (s := S32768x64) (k0_off14 L (BitVec.ofNat 32 (128 * (4 : Fin 8).val))) S128x64.size (k0_off14_inb L 4))).set = _
  rw [outRect_eq]
theorem set_out1K4 (L : grid0.Coords) : (out1K4 L).view.set = chunkSet (chunkOf (wL L) 4) := by
  show ((o1V : Memref sig .scVector .hbm S32768x64 .f32).view.slice (Rect.unit (s := S32768x64) (k0_off14 L (BitVec.ofNat 32 (128 * (4 : Fin 8).val))) S128x64.size (k0_off14_inb L 4))).set = _
  rw [outRect_eq]; rfl
theorem set_out0K5 (L : grid0.Coords) : (out0K5 L).view.set = chunkSet (chunkOf (wL L) 5) := by
  show ((o0V : Memref sig .scVector .hbm S32768x64 .f32).view.slice (Rect.unit (s := S32768x64) (k0_off14 L (BitVec.ofNat 32 (128 * (5 : Fin 8).val))) S128x64.size (k0_off14_inb L 5))).set = _
  rw [outRect_eq]
theorem set_out1K5 (L : grid0.Coords) : (out1K5 L).view.set = chunkSet (chunkOf (wL L) 5) := by
  show ((o1V : Memref sig .scVector .hbm S32768x64 .f32).view.slice (Rect.unit (s := S32768x64) (k0_off14 L (BitVec.ofNat 32 (128 * (5 : Fin 8).val))) S128x64.size (k0_off14_inb L 5))).set = _
  rw [outRect_eq]; rfl
theorem set_out0K6 (L : grid0.Coords) : (out0K6 L).view.set = chunkSet (chunkOf (wL L) 6) := by
  show ((o0V : Memref sig .scVector .hbm S32768x64 .f32).view.slice (Rect.unit (s := S32768x64) (k0_off14 L (BitVec.ofNat 32 (128 * (6 : Fin 8).val))) S128x64.size (k0_off14_inb L 6))).set = _
  rw [outRect_eq]
theorem set_out1K6 (L : grid0.Coords) : (out1K6 L).view.set = chunkSet (chunkOf (wL L) 6) := by
  show ((o1V : Memref sig .scVector .hbm S32768x64 .f32).view.slice (Rect.unit (s := S32768x64) (k0_off14 L (BitVec.ofNat 32 (128 * (6 : Fin 8).val))) S128x64.size (k0_off14_inb L 6))).set = _
  rw [outRect_eq]; rfl
theorem set_out0K7 (L : grid0.Coords) : (out0K7 L).view.set = chunkSet (chunkOf (wL L) 7) := by
  show ((o0V : Memref sig .scVector .hbm S32768x64 .f32).view.slice (Rect.unit (s := S32768x64) (k0_off14 L (BitVec.ofNat 32 (128 * (7 : Fin 8).val))) S128x64.size (k0_off14_inb L 7))).set = _
  rw [outRect_eq]
theorem set_out1K7 (L : grid0.Coords) : (out1K7 L).view.set = chunkSet (chunkOf (wL L) 7) := by
  show ((o1V : Memref sig .scVector .hbm S32768x64 .f32).view.slice (Rect.unit (s := S32768x64) (k0_off14 L (BitVec.ofNat 32 (128 * (7 : Fin 8).val))) S128x64.size (k0_off14_inb L 7))).set = _
  rw [outRect_eq]; rfl

/-! ## What a worker is handed, and hands back -/

section Pay

variable [FloatOps F]
variable (ps : (d : Dev nD) → Buf (Elt F) (psLoc d)) (tb : (d : Dev nD) → Buf (Elt F) (tbLoc d))

/-- Eight things side by side. -/
def sep8 (Φ : Fin 8 → sProp 𝕄) : sProp 𝕄 := iprop(Φ 0 ∗ Φ 1 ∗ Φ 2 ∗ Φ 3 ∗ Φ 4 ∗ Φ 5 ∗ Φ 6 ∗ Φ 7)

/-- Worker `w` is handed its rows of positions, a read share of the table, and its 8 chunks of each result at whatever
    they hold. -/
def goW (d : Dev nD) (w : Fin 32) : sProp 𝕄 :=
  iprop((psLoc d ↦[posSet w]{fullShare} ps d) ∗ (tbLoc d ↦{Transfers.shareTok fullShare 32 w} tb d)
    ∗ sep8 (fun j => iprop(∃ f, o0Loc d ↦[chunkSet (chunkOf w j)]{fullShare} f))
    ∗ sep8 (fun j => iprop(∃ f, o1Loc d ↦[chunkSet (chunkOf w j)]{fullShare} f)))

/-- It hands back the same, the chunks now holding the looked-up rows. -/
def tdW (d : Dev nD) (w : Fin 32) : sProp 𝕄 :=
  iprop((psLoc d ↦[posSet w]{fullShare} ps d) ∗ (tbLoc d ↦{Transfers.shareTok fullShare 32 w} tb d)
    ∗ sep8 (fun j => iprop(o0Loc d ↦[chunkSet (chunkOf w j)]{fullShare} G0 d (ps d) (tb d)))
    ∗ sep8 (fun j => iprop(o1Loc d ↦[chunkSet (chunkOf w j)]{fullShare} G1 d (ps d) (tb d))))

set_option synthInstance.maxSize 8192 in
set_option synthInstance.maxHeartbeats 400000 in
instance goW_storable (d : Dev nD) (w : Fin 32) : BI.Storable (upEmb : UEmb _ 𝕄) (goW ps tb d w) := by
  unfold goW sep8; dsimp only; infer_instance
set_option synthInstance.maxSize 8192 in
set_option synthInstance.maxHeartbeats 400000 in
instance tdW_storable (d : Dev nD) (w : Fin 32) : BI.Storable (upEmb : UEmb _ 𝕄) (tdW ps tb d w) := by
  unfold tdW sep8; dsimp only; infer_instance

/-- The one call: a SparseCore is handed what its 16 workers are handed, and hands back what they hand back. -/
def P : (K (F := F)).Pay (nD := nD) (Val := Elt F) (Name := ℕ) (U := UU) where
  st := fun q d c => match q with | 0 => bigSep Finset.univ fun i : Fin 16 => goW ps tb d (wid (Fin.cast nCore_zero c) i)
  dn := fun q d c => match q with | 0 => bigSep Finset.univ fun i : Fin 16 => tdW ps tb d (wid (Fin.cast nCore_zero c) i)
  go := fun q d c i => match q with | 0 => goW ps tb d (wid (Fin.cast nCore_zero c) (Fin.cast nSub_zero i))
  td := fun q d c i => match q with | 0 => tdW ps tb d (wid (Fin.cast nCore_zero c) (Fin.cast nSub_zero i))
  x := fun _ _ => iprop(emp)

instance P_storable : (P (F := F) ps tb).IsStorable where
  st q d c := match q with | 0 => by unfold P; infer_instance
  dn q d c := match q with | 0 => by unfold P; infer_instance
  go q d c i := match q with | 0 => by unfold P; infer_instance
  td q d c i := match q with | 0 => by unfold P; infer_instance

end Pay

end Cert.Kernel.Run

end
-- ==== Proof.KB.Value.lean ====
/-
  The values around the SparseCore kernel. The program reshapes the 4 × 8192 positions to 256 rows of 128 and puts
  the two 32768 × 64 caches side by side as one 32768 × 128 table; the kernel leaves, in row p of each result, one half
  of the table's row named by the reshaped positions at (p / 128, p % 128); the program then reshapes each 32768 × 64
  result to 4 × 8192 × 64. Read at a result index (b, s, k), with p = 8192·b + s: both reshapes keep row-major
  positions, so the reshaped positions at (p / 128, p % 128) are the position at (b, s), and result row p at column k
  is entry (b, s, k); column k of the table is column k of the first cache, column 64 + k is column k of the second.
  Hence each result is the lookup of whole rows of its cache.
-/
import proofs.«205335_g28930899706033_cont_9to1_1924_12_alg».proof.Proof.KB.Setup
import Idealize.ShloMosaic.Lib.Pipeline.Value
import Idealize.ShloMosaic.Lib.ValueIdx

noncomputable section

namespace Cert.Kernel.Run

open Cert.Kernel Cert.Kernel.Gen Idealize.ShloMosaic Idealize.ShloMosaic.ValueIdx

variable {F : FTy → Type} [FloatOps F]

/-- The positions as the kernel sees them: the 4 × 8192 array read as 256 rows of 128. -/
def psOf (pos : IVec S4x8192 32) : IVec S256x128 32 := shapeCast S256x128 pos shapeCasts_S4x8192_S256x128

/-- The table: the two caches side by side. -/
def tbOf (a b : FVec F S32768x64 .f32) : FVec F S32768x128 .f32 :=
  concatenate S32768x128 1 [⟨S32768x64, a⟩, ⟨S32768x64, b⟩] concatenates_S32768x64_S32768x64_S32768x128_d1

/-- The reshaped positions at (r, c) are the position at (b, s) whenever 128·r + c = 8192·b + s: a reshape keeps
    row-major positions. -/
theorem psOf_apply (pos : IVec S4x8192 32) (r : Fin 256) (c : Fin 128) (b : Fin 4) (s : Fin 8192)
    (h : r.val * 128 + c.val = b.val * 8192 + s.val) : psOf pos (ix2 r c) = pos (ix2 b s) := by
  unfold psOf
  refine shapeCast_apply pos _ (ix2 r c) (ix2 b s) ?_
  rw [Shape.rowMajor_val_two, Shape.rowMajor_val_two]
  show b.val * 8192 + s.val = r.val * 128 + c.val
  omega

/-- Column k' < 64 of the table is column k' of the first cache. -/
theorem tbOf_left (a b : FVec F S32768x64 .f32) (row : Fin 32768) (k : Fin 64) (k' : Fin 128) (hk : k'.val = k.val) :
    tbOf a b (ix2 row k') = a (ix2 row k) := by
  unfold tbOf
  refine concatenate_pair_apply_left 1 a b _ (ix2 row k') rfl (ix2 row k) ?_
  intro c
  match c with
  | ⟨0, _⟩ => rfl
  | ⟨1, _⟩ => exact hk.symm

/-- Column 64 + k of the table is column k of the second cache. -/
theorem tbOf_right (a b : FVec F S32768x64 .f32) (row : Fin 32768) (k : Fin 64) (k' : Fin 128) (hk : k'.val = 64 + k.val) :
    tbOf a b (ix2 row k') = b (ix2 row k) := by
  unfold tbOf
  refine concatenate_pair_apply_right 1 a b _ (ix2 row k') rfl rfl (ix2 row k) ?_ ?_
  · intro c hc
    match c, hc with
    | ⟨0, _⟩, _ => rfl
    | ⟨1, _⟩, hc => exact absurd rfl hc
  · show k.val + 64 = k'.val
    omega

theorem psOf_lt (pos : IVec S4x8192 32) (h : Cert.Rope.InRange pos) (j : S256x128.Idx) : (psOf pos j).toNat < 32768 := by
  obtain ⟨r, c, rfl⟩ : ∃ (r : Fin 256) (c : Fin 128), j = ix2 r c := ⟨_, _, eq_ix2 j⟩
  have hr := r.isLt
  have hc := c.isLt
  rw [psOf_apply pos r c (⟨(r.val * 128 + c.val) / 8192, by omega⟩ : Fin 4)
    (⟨(r.val * 128 + c.val) % 8192, Nat.mod_lt _ (by decide)⟩ : Fin 8192) (by show _ = _ / 8192 * 8192 + _ % 8192; omega)]
  exact (Cert.Rope.toInt_eq_toNat h _ _).2

/-- The table's row copied into result row 8192·b + s is the row the position at (b, s) names. -/
theorem srcRow_eq (d : Dev nD) (pos : IVec S4x8192 32) (b : Fin 4) (s : Fin 8192) (p : Fin 32768)
    (hp : p.val = b.val * 8192 + s.val) : srcRow (F := F) d (psOf pos) p = Cert.Rope.rowOf pos b s := by
  refine Fin.ext ?_
  show (psOf pos (ix2 (⟨p.val / 128, _⟩ : Fin 256) (⟨p.val % 128, _⟩ : Fin 128))).toNat % 32768
    = (pos (ix2 b s)).toNat % 32768
  rw [psOf_apply pos _ _ b s (by show p.val / 128 * 128 + p.val % 128 = _; omega)]

theorem res0_eq (d : Dev nD) (pos : IVec S4x8192 32) (a b : FVec F S32768x64 .f32) (h : Cert.Rope.InRange pos) :
    shapeCast S4x8192x64 (G0 d (psOf pos) (tbOf a b)) shapeCasts_S32768x64_S4x8192x64 = Cert.Rope.takeRows a pos := by
  funext i
  obtain ⟨bb, s, k, rfl⟩ : ∃ (bb : Fin 4) (s : Fin 8192) (k : Fin 64), i = ix3 bb s k := ⟨_, _, _, eq_ix3 i⟩
  have hb := bb.isLt
  have hs := s.isLt
  rw [Cert.Rope.takeRows_apply]
  rw [shapeCast_apply _ shapeCasts_S32768x64_S4x8192x64 (ix3 bb s k) (ix2 (⟨bb.val * 8192 + s.val, by omega⟩ : Fin 32768) k)
    (by rw [Shape.rowMajor_val_two, Shape.rowMajor_val_three]; rfl)]
  show tbOf a b (ix2 (srcRow (F := F) d (psOf pos) (⟨bb.val * 8192 + s.val, _⟩ : Fin 32768)) (⟨k.val, _⟩ : Fin 128)) = _
  rw [srcRow_eq d pos bb s _ rfl]
  exact tbOf_left a b _ k _ rfl

theorem res1_eq (d : Dev nD) (pos : IVec S4x8192 32) (a b : FVec F S32768x64 .f32) (h : Cert.Rope.InRange pos) :
    shapeCast S4x8192x64 (G1 d (psOf pos) (tbOf a b)) shapeCasts_S32768x64_S4x8192x64 = Cert.Rope.takeRows b pos := by
  funext i
  obtain ⟨bb, s, k, rfl⟩ : ∃ (bb : Fin 4) (s : Fin 8192) (k : Fin 64), i = ix3 bb s k := ⟨_, _, _, eq_ix3 i⟩
  have hb := bb.isLt
  have hs := s.isLt
  rw [Cert.Rope.takeRows_apply]
  rw [shapeCast_apply _ shapeCasts_S32768x64_S4x8192x64 (ix3 bb s k) (ix2 (⟨bb.val * 8192 + s.val, by omega⟩ : Fin 32768) k)
    (by rw [Shape.rowMajor_val_two, Shape.rowMajor_val_three]; rfl)]
  show tbOf a b (ix2 (srcRow (F := F) d (psOf pos) (⟨bb.val * 8192 + s.val, _⟩ : Fin 32768)) (⟨64 + k.val, _⟩ : Fin 128)) = _
  rw [srcRow_eq d pos bb s _ rfl]
  exact tbOf_right a b _ k _ rfl

end Cert.Kernel.Run

end
-- ==== Proof.KB.Split.lean ====
/-
  How the program's four whole arrays split into what the 32 workers are handed, and join back from what they hand back.

  The 256 × 128 positions cut along rows into 32 parts of 8 rows, and each 32768 × 64 result into 256 chunks of 128 rows:
  the parts of an axis cut evenly are pairwise disjoint and cover the array, so a whole array held at some contents is
  the separating conjunction of its parts held at those contents (an equation, read in either direction). The table is
  not cut: it is read through 32 read shares, the full share being the remainder and the 32 shares together. Worker
  numbers are w = 2·i + c (subcore i of core c), a bijection of 2 × 16 with 32, and chunk numbers p = 8·w + j (chunk j
  of worker w), a bijection of 32 × 8 with 256, so a conjunction over workers or chunks can be taken core by core and
  subcore by subcore, resp. worker by worker and eight at a time.
-/
import proofs.«205335_g28930899706033_cont_9to1_1924_12_alg».proof.Proof.KB.Tile

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The rows of positions and the chunks of a result: disjoint, and covering -/

theorem posSet_eq (w : Fin 32) : posSet w = (posRect w).set := by
  show ((View.whole (main_v0_scv : Ref sig .scVector)).slice (posRect w)).set = _
  rw [View.set_slice]; exact Finset.map_refl
theorem pos_disjoint : ∀ i ∈ (Finset.univ : Finset (Fin 32)), ∀ j ∈ (Finset.univ : Finset (Fin 32)), i ≠ j → Disjoint (posSet i) (posSet j) :=
  fun i _ j _ h => by rw [posSet_eq, posSet_eq]; exact Rect.part_disjoint hdiv32 h
theorem pos_cover : (Finset.univ : Finset (Fin 32)).biUnion posSet = Finset.univ :=
  (Finset.biUnion_congr rfl fun i _ => posSet_eq i).trans (Rect.biUnion_part hdiv32)

theorem chunkSet_eq (p : Fin 256) : chunkSet p = (chunkRect p).set := by
  show ((View.whole (main_v2_0_scv : Ref sig .scVector)).slice (chunkRect p)).set = _
  rw [View.set_slice]; exact Finset.map_refl
theorem chunk_disjoint : ∀ i ∈ (Finset.univ : Finset (Fin 256)), ∀ j ∈ (Finset.univ : Finset (Fin 256)), i ≠ j → Disjoint (chunkSet i) (chunkSet j) :=
  fun i _ j _ h => by rw [chunkSet_eq, chunkSet_eq]; exact Rect.part_disjoint hdiv256 h
theorem chunk_cover : (Finset.univ : Finset (Fin 256)).biUnion chunkSet = Finset.univ :=
  (Finset.biUnion_congr rfl fun i _ => chunkSet_eq i).trans (Rect.biUnion_part hdiv256)

section Split

variable [FloatOps F] (d : Dev nD)

/-- The positions, whole, are the 32 workers' rows of them. -/
theorem ps_split (f : Buf (Elt F) (psLoc d)) :
    (psLoc d ↦{fullShare} f : sProp 𝕄) = bigSep Finset.univ fun w : Fin 32 => psLoc d ↦[posSet w]{fullShare} f := by
  rw [← pointsTo_biUnion Finset.univ (ℓ := psLoc d) posSet pos_disjoint, pos_cover]; try rfl
/-- A result, whole, is its 256 chunks. -/
theorem o0_split (f : Buf (Elt F) (o0Loc d)) :
    (o0Loc d ↦{fullShare} f : sProp 𝕄) = bigSep Finset.univ fun p : Fin 256 => o0Loc d ↦[chunkSet p]{fullShare} f := by
  rw [← pointsTo_biUnion Finset.univ (ℓ := o0Loc d) chunkSet chunk_disjoint, chunk_cover]; try rfl
theorem o1_split (f : Buf (Elt F) (o1Loc d)) :
    (o1Loc d ↦{fullShare} f : sProp 𝕄) = bigSep Finset.univ fun p : Fin 256 => o1Loc d ↦[chunkSet p]{fullShare} f := by
  rw [← pointsTo_biUnion Finset.univ (ℓ := o1Loc d) chunkSet chunk_disjoint, chunk_cover]; try rfl

end Split

/-! ## Re-indexing: workers by core and subcore, chunks by worker and number -/

/-- A worker is one subcore of one core: w = 2·i + c. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_)
    · show (i.val * 2 + c.val) % 2 = c.val
      omega
    · show (i.val * 2 + c.val) / 2 = i.val
      omega
  right_inv w := by
    refine Fin.ext ?_
    show w.val / 2 * 2 + w.val % 2 = w.val
    omega

/-- A chunk is one of the 8 of one worker: p = 8·w + j. -/
def chunkEquiv : Fin 32 × Fin 8 ≃ Fin 256 where
  toFun p := chunkOf p.1 p.2
  invFun q := (⟨q.val / 8, by omega⟩, ⟨q.val % 8, Nat.mod_lt _ (by decide)⟩)
  left_inv p := by
    obtain ⟨w, j⟩ := p
    refine Prod.ext (Fin.ext ?_) (Fin.ext ?_)
    · show (w.val * 8 + j.val) / 8 = w.val
      omega
    · show (w.val * 8 + j.val) % 8 = j.val
      omega
  right_inv q := by
    refine Fin.ext ?_
    show q.val / 8 * 8 + q.val % 8 = q.val
    omega

/-- Eight things side by side are the iterated conjunction over the eight. -/
theorem sep8_eq (Φ : Fin 8 → sProp 𝕄) : sep8 Φ = bigSep Finset.univ Φ := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

theorem bigSep_chunks (Φ : Fin 256 → sProp 𝕄) :
    bigSep Finset.univ Φ = bigSep Finset.univ fun w : Fin 32 => sep8 fun j => Φ (chunkOf w j) := by
  rw [bigSep_univ_equiv chunkEquiv Φ, bigSep_univ_prod]
  exact bigSep_congr fun w _ => (sep8_eq fun j => Φ (chunkOf w j)).symm

/-! ## All the workers' shares together -/

section All

variable [FloatOps F] (d : Dev nD)

/-- What the 32 workers are handed, regrouped by array. -/
theorem goW_all (ps : (d : Dev nD) → Buf (Elt F) (psLoc d)) (tb : (d : Dev nD) → Buf (Elt F) (tbLoc d)) :
    (bigSep Finset.univ fun c : Fin 2 => bigSep Finset.univ fun i : Fin 16 => goW ps tb d (wid c i))
      = (iprop((psLoc d ↦{fullShare} ps d)
          ∗ (bigSep Finset.univ fun w : Fin 32 => tbLoc d ↦{Transfers.shareTok fullShare 32 w} tb d)
          ∗ (bigSep Finset.univ fun p : Fin 256 => iprop(∃ f, o0Loc d ↦[chunkSet p]{fullShare} f))
          ∗ (bigSep Finset.univ fun p : Fin 256 => iprop(∃ f, o1Loc d ↦[chunkSet p]{fullShare} f))) : sProp 𝕄) := by
  rw [← bigSep_workers (fun w => goW ps tb d w)]
  unfold goW
  rw [bigSep_sep', bigSep_sep', bigSep_sep', ← ps_split,
    ← bigSep_chunks (fun p => iprop(∃ f, o0Loc d ↦[chunkSet p]{fullShare} f)),
    ← bigSep_chunks (fun p => iprop(∃ f, o1Loc d ↦[chunkSet p]{fullShare} f))]

/-- What the 32 workers hand back, regrouped by array. -/
theorem tdW_all (ps : (d : Dev nD) → Buf (Elt F) (psLoc d)) (tb : (d : Dev nD) → Buf (Elt F) (tbLoc d)) :
    (bigSep Finset.univ fun c : Fin 2 => bigSep Finset.univ fun i : Fin 16 => tdW ps tb d (wid c i))
      = (iprop((psLoc d ↦{fullShare} ps d)
          ∗ (bigSep Finset.univ fun w : Fin 32 => tbLoc d ↦{Transfers.shareTok fullShare 32 w} tb d)
          ∗ (o0Loc d ↦{fullShare} G0 d (ps d) (tb d))
          ∗ (o1Loc d ↦{fullShare} G1 d (ps d) (tb d))) : sProp 𝕄) := by
  rw [← bigSep_workers (fun w => tdW ps tb d w)]
  unfold tdW
  rw [bigSep_sep', bigSep_sep', bigSep_sep', ← ps_split,
    ← bigSep_chunks (fun p => o0Loc d ↦[chunkSet p]{fullShare} G0 d (ps d) (tb d)), ← o0_split,
    ← bigSep_chunks (fun p => o1Loc d ↦[chunkSet p]{fullShare} G1 d (ps d) (tb d)), ← o1_split]

/-- Chunks held at known contents are chunks held at some contents. -/
theorem chunks_ex0 (f : Buf (Elt F) (o0Loc d)) :
    (bigSep Finset.univ fun p : Fin 256 => o0Loc d ↦[chunkSet p]{fullShare} f)
      ⊢ (bigSep Finset.univ fun p : Fin 256 => iprop(∃ f, o0Loc d ↦[chunkSet p]{fullShare} f) : sProp 𝕄) := by
  refine bigSep_mono fun p _ => ?_
  show (o0Loc d ↦[chunkSet p]{fullShare} f : sProp 𝕄) ⊢ iprop(∃ f, o0Loc d ↦[chunkSet p]{fullShare} f)
  iintro H; iexists f; iexact H
theorem chunks_ex1 (f : Buf (Elt F) (o1Loc d)) :
    (bigSep Finset.univ fun p : Fin 256 => o1Loc d ↦[chunkSet p]{fullShare} f)
      ⊢ (bigSep Finset.univ fun p : Fin 256 => iprop(∃ f, o1Loc d ↦[chunkSet p]{fullShare} f) : sProp 𝕄) := by
  refine bigSep_mono fun p _ => ?_
  show (o1Loc d ↦[chunkSet p]{fullShare} f : sProp 𝕄) ⊢ iprop(∃ f, o1Loc d ↦[chunkSet p]{fullShare} f)
  iintro H; iexists f; iexact H

/-- @main's four arrays, whole, are the remainder of the table's read shares and what the 32 workers are handed. -/
theorem split_all (ps : (d : Dev nD) → Buf (Elt F) (psLoc d)) (tb : (d : Dev nD) → Buf (Elt F) (tbLoc d))
    (f0 : Buf (Elt F) (o0Loc d)) (f1 : Buf (Elt F) (o1Loc d)) :
    iprop((psLoc d ↦{fullShare} ps d) ∗ (tbLoc d ↦{fullShare} tb d) ∗ (o0Loc d ↦{fullShare} f0) ∗ (o1Loc d ↦{fullShare} f1))
      ⊢ (iprop((tbLoc d ↦{Transfers.shareDrop fullShare 32} tb d)
          ∗ bigSep Finset.univ fun c : Fin 2 => bigSep Finset.univ fun i : Fin 16 => goW ps tb d (wid c i)) : sProp 𝕄) := by
  rw [goW_all, o0_split, o1_split]
  iintro ⟨Hps, Htb, H0, H1⟩
  ihave Htb' := (Transfers.pointsTo_toks_split fullShare 32) $$ Htb
  icases Htb' with ⟨Hd, Ht⟩
  isplitl [Hd]; · iexact Hd
  isplitl [Hps]; · iexact Hps
  isplitl [Ht]; · iexact Ht
  isplitl [H0]
  · iapply (chunks_ex0 d f0); iexact H0
  · iapply (chunks_ex1 d f1); iexact H1

/-- … and what they hand back, with that remainder, is the four arrays whole, the results at the looked-up rows. -/
theorem join_all (ps : (d : Dev nD) → Buf (Elt F) (psLoc d)) (tb : (d : Dev nD) → Buf (Elt F) (tbLoc d)) :
    iprop((tbLoc d ↦{Transfers.shareDrop fullShare 32} tb d)
        ∗ bigSep Finset.univ fun c : Fin 2 => bigSep Finset.univ fun i : Fin 16 => tdW ps tb d (wid c i))
      ⊢ (iprop((psLoc d ↦{fullShare} ps d) ∗ (tbLoc d ↦{fullShare} tb d)
          ∗ (o0Loc d ↦{fullShare} G0 d (ps d) (tb d)) ∗ (o1Loc d ↦{fullShare} G1 d (ps d) (tb d))) : sProp 𝕄) := by
  rw [tdW_all]
  iintro ⟨Hd, Hps, Ht, H0, H1⟩
  isplitl [Hps]; · iexact Hps
  isplitl [Hd Ht]
  · iapply (Transfers.pointsTo_toks_join fullShare 32)
    isplitl [Hd]; · iexact Hd
    iexact Ht
  isplitl [H0]; · iexact H0
  iexact H1

end All

end Cert.Kernel.Run

end
-- ==== Proof.KB.Launch.lean ====
/-
  The kernel's launch: from one worker's task (taken as a hypothesis, stated once for a symbolic worker) to
  the run of the whole program. The program reshapes the positions and puts the two caches side by side, starts the
  two SparseCores, each of which deals its sixteen workers their rows, and after they are done reshapes the two results.
  Every weakly fair execution of the device's 35 threads terminates; the two results then hold the lookup of whole rows
  of each cache, and the three arguments are unchanged.
-/
import proofs.«205335_g28930899706033_cont_9to1_1924_12_alg».proof.Proof.KB.Tile
import proofs.«205335_g28930899706033_cont_9to1_1924_12_alg».proof.Proof.KB.Value
import proofs.«205335_g28930899706033_cont_9to1_1924_12_alg».proof.Proof.KB.Split

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## One worker's task, as a statement -/

/-- What is asked of one worker's task, for a symbolic worker: handed its rows of positions, a read share of the table
    and its chunks of the two results, it terminates and hands them back with the chunks holding the looked-up rows. -/
def TileBodyStmt [FloatOps F] : Prop :=
  ∀ (ps : (d : Dev nD) → Buf (Elt F) (psLoc d)) (tb : (d : Dev nD) → Buf (Elt F) (tbLoc d)) (d : Dev nD) (L : grid0.Coords)
    (hF : (K (F := F)).Facts) (hps : ∀ j, (show BitVec 32 from ps d j).toNat < 32768)
    (O : CellTallies nD τ sig (HIx 1)) (W : Waits sig (HIx 1)) (hO : ∀ g, O g none = 0),
    iprop(levAts (K (F := F)).L (K (F := F)).lev ∗ emp ∗ goW ps tb d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__rope_kernel L psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0)
          fun _ => iprop(tdW ps tb d (wL L) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__rope_kernel (coordsV c s)
          psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Launch

variable [FloatOps F]
variable (ps : (d : Dev nD) → Buf (Elt F) (psLoc d)) (tb : (d : Dev nD) → Buf (Elt F) (tbLoc d))

/-- Every worker's task, in the launch theorem's spelling of thread and program, from the one statement. -/
theorem tileObl (hb : TileBodyStmt (F := F)) (hF : (K (F := F)).Facts)
    (hps : ∀ d j, (show BitVec 32 from ps d j).toNat < 32768) : (K (F := F)).TileObl (D (F := F)) 𝒱 (P ps tb) v₀ 0 := by
  intro d c i O W hO _ _
  -- the kernel owes nothing for a protocol of its own
  simp only [show (P ps tb).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb ps tb d (coordsV ⟨_, hc.1⟩ ⟨_, hc.2⟩) hF (hps d) O W hO).trans (wp_mono frame _ _ fun _ => obl_post)

/-! ## What the call hands over, as equations -/

theorem P_st (d : Dev nD) (c : Fin ((K (F := F)).nCore 0)) :
    (P ps tb).st 0 d c = bigSep Finset.univ fun i : Fin 16 => goW ps tb d (wid (Fin.cast nCore_zero c) i) := rfl
theorem P_dn (d : Dev nD) (c : Fin ((K (F := F)).nCore 0)) :
    (P ps tb).dn 0 d c = bigSep Finset.univ fun i : Fin 16 => tdW ps tb d (wid (Fin.cast nCore_zero c) i) := rfl
theorem P_go (d : Dev nD) (c : Fin ((K (F := F)).nCore 0)) (i : Fin ((K (F := F)).nSub 0)) :
    (P ps tb).go 0 d c i = goW ps tb d (wid (Fin.cast nCore_zero c) (Fin.cast nSub_zero i)) := rfl
theorem P_td (d : Dev nD) (c : Fin ((K (F := F)).nCore 0)) (i : Fin ((K (F := F)).nSub 0)) :
    (P ps tb).td 0 d c i = tdW ps tb d (wid (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen workers', and its results theirs. -/
theorem vecSplit : (K (F := F)).VecSplit' (P ps tb) 0 := by
  intro d c
  rw [P_st, P_dn]
  simp only [P_go, P_td]
  rw [bigSep_tasks (F := F) (fun i => goW ps tb d (wid (Fin.cast nCore_zero c) i)),
    bigSep_tasks (F := F) (fun i => tdW ps tb d (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ps tb).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P ps tb).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (psLoc d ↦{fullShare} W main_v0) ∗ (tbLoc d ↦{fullShare} W main_v1) ∗ (o0Loc d ↦{fullShare} W main_v2_0) ∗ (o1Loc d ↦{fullShare} W main_v2_1)
      ∗ (r0Loc d ↦{fullShare} W main_v3) ∗ (r1Loc d ↦{fullShare} W main_v4)) := by
  unfold unscopedBufs
  rw [show (Finset.univ.filter fun b : Ref sig .tc => ¬ b.isScoped) = {main_arg0, main_arg1, main_arg2, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- What the call takes for the two SparseCores, and what it hands back: every worker's. -/
theorem st0_eq (d : Dev nD) : (bigSep Finset.univ fun c : Fin ((K (F := F)).nCore 0) => (P ps tb).st 0 d c)
    = bigSep Finset.univ fun c : Fin 2 => bigSep Finset.univ fun i : Fin 16 => goW ps tb d (wid c i) := by
  simp only [P_st]
  exact bigSep_cores (F := F) (fun c => bigSep Finset.univ fun i : Fin 16 => goW ps tb d (wid c i))
theorem dn0_eq (d : Dev nD) : (bigSep Finset.univ fun c : Fin ((K (F := F)).nCore 0) => (P ps tb).dn 0 d c)
    = bigSep Finset.univ fun c : Fin 2 => bigSep Finset.univ fun i : Fin 16 => tdW ps tb d (wid c i) := by
  simp only [P_dn]
  exact bigSep_cores (F := F) (fun c => bigSep Finset.univ fun i : Fin 16 => tdW ps tb d (wid c i))

end Launch

/-! ## The values around the call, and the launch memory -/

section Main

variable [FloatOps F]
variable (m : (ℓ : Loc nD τ sig) → Buf (Elt F) ℓ) (ρ : Dev nD → PrngReg)

/-- The positions as the kernel is handed them: the argument, reshaped. -/
def psM (d : Dev nD) : Buf (Elt F) (psLoc d) := psOf (m (a0Loc d))
/-- The table as the kernel is handed it: the two caches side by side. -/
def tbM (d : Dev nD) : Buf (Elt F) (tbLoc d) := tbOf (m (a1Loc d)) (m (a2Loc d))

theorem psM_lt (hr : ∀ d : Dev nD, Cert.Rope.InRange (m (a0Loc d))) (d : Dev nD) (j) :
    (show BitVec 32 from psM m d j).toNat < 32768 := psOf_lt _ (hr d) j

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)
abbrev r0' : DevRef τ sig := Proc.devRef .tc (main_v3 : Ref sig .tc)
abbrev r1' : DevRef τ sig := Proc.devRef .tc (main_v4 : Ref sig .tc)

/-- The four host operations of @main. -/
abbrev opPs : HloOp τ sig (Elt F) := StableHlo.reshape main_arg0 main_v0 rfl shapeCasts_S4x8192_S256x128
abbrev opTb : HloOp τ sig (Elt F) :=
  StableHlo.binary main_arg1 main_arg2 main_v1 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F))
abbrev opR0 : HloOp τ sig (Elt F) := StableHlo.reshape main_v2_0 main_v3 rfl shapeCasts_S32768x64_S4x8192x64
abbrev opR1 : HloOp τ sig (Elt F) := StableHlo.reshape main_v2_1 main_v4 rfl shapeCasts_S32768x64_S4x8192x64

omit [FloatOps F] in
theorem held2 (d : Dev nD) (x y : DevRef τ sig) (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by rw [Finset.mem_singleton]; exact h), bigSep_singleton]

omit [FloatOps F] in
theorem held3 (d : Dev nD) (x y z : DevRef τ sig) (hxy : x ≠ y) (hxz : x ≠ z) (hyz : y ≠ z) (W : Valuation τ sig (Elt F)) :
    (held (T d) {x, y, z} W : sProp 𝕄)
      = iprop((((d, x) : Loc nD τ sig) ↦{fullShare} W x) ∗ (((d, y) : Loc nD τ sig) ↦{fullShare} W y) ∗ (((d, z) : Loc nD τ sig) ↦{fullShare} W z)) := by
  unfold held
  rw [SparseCore.bigSep_insert' (by rw [Finset.mem_insert, Finset.mem_singleton]; exact fun e => e.elim hxy hxz),
    SparseCore.bigSep_insert' (by rw [Finset.mem_singleton]; exact hyz), bigSep_singleton]

/-- The launch valuation; after the call, a result array at what the kernel left. -/
def V0 (d : Dev nD) : Valuation τ sig (Elt F) := fun b => m (d, b)
def V3 (d : Dev nD) : Valuation τ sig (Elt F) := Function.update (V0 m d) o0' (G0 d (psM m d) (tbM m d))
def V4 (d : Dev nD) : Valuation τ sig (Elt F) := Function.update (V0 m d) o1' (G1 d (psM m d) (tbM m d))

theorem V3_o0 (d : Dev nD) : V3 m d o0' = G0 d (psM m d) (tbM m d) := Function.update_self _ _ _
theorem V3_r0 (d : Dev nD) : V3 m d r0' = m (r0Loc d) := Function.update_of_ne (show r0' ≠ o0' by decide) _ _
theorem V4_o1 (d : Dev nD) : V4 m d o1' = G1 d (psM m d) (tbM m d) := Function.update_self _ _ _
theorem V4_r1 (d : Dev nD) : V4 m d r1' = m (r1Loc d) := Function.update_of_ne (show r1' ≠ o1' by decide) _ _

/-- After the reshape of the positions: the argument as it was, the kernel's positions. -/
theorem held_opPs (d : Dev nD) :
    (held (T d) {a0', v0'} ((opPs (F := F)).result (V0 m d)) : sProp 𝕄)
      = iprop((a0Loc d ↦{fullShare} m (a0Loc d)) ∗ (psLoc d ↦{fullShare} psM m d)) := by
  rw [held2 d a0' v0' (by decide), (opPs (F := F)).result_of_not_mem (V0 m d) (b := a0') (show a0' ∉ ({v0'} : Finset (DevRef τ sig)) by decide)]
  rw [show (opPs (F := F)).result (V0 m d) v0' = psM m d from StableHlo.reshape_result _ _ _ _ _ _ _]
  rfl

/-- After the concatenation: the two caches as they were, the kernel's table. -/
theorem held_opTb (d : Dev nD) :
    (held (T d) {a1', a2', v1'} ((opTb (F := F)).result (V0 m d)) : sProp 𝕄)
      = iprop((a1Loc d ↦{fullShare} m (a1Loc d)) ∗ (a2Loc d ↦{fullShare} m (a2Loc d)) ∗ (tbLoc d ↦{fullShare} tbM m d)) := by
  rw [held3 d a1' a2' v1' (by decide) (by decide) (by decide),
    (opTb (F := F)).result_of_not_mem (V0 m d) (b := a1') (show a1' ∉ ({v1'} : Finset (DevRef τ sig)) by decide),
    (opTb (F := F)).result_of_not_mem (V0 m d) (b := a2') (show a2' ∉ ({v1'} : Finset (DevRef τ sig)) by decide)]
  rw [show (opTb (F := F)).result (V0 m d) v1' = tbM m d from StableHlo.binary_result _ _ _ _ _ _ _ _]
  rfl

/-- After the reshape of the first result: the kernel's array as it left it, the result the lookup of rows. -/
theorem held_opR0 (d : Dev nD) (hr : Cert.Rope.InRange (m (a0Loc d))) :
    (held (T d) {o0', r0'} ((opR0 (F := F)).result (V3 m d)) : sProp 𝕄)
      = iprop((o0Loc d ↦{fullShare} G0 d (psM m d) (tbM m d)) ∗ (r0Loc d ↦{fullShare} Cert.Rope.takeRows (m (a1Loc d)) (m (a0Loc d)))) := by
  rw [held2 d o0' r0' (by decide), (opR0 (F := F)).result_of_not_mem (V3 m d) (b := o0') (show o0' ∉ ({r0'} : Finset (DevRef τ sig)) by decide), V3_o0]
  rw [show (opR0 (F := F)).result (V3 m d) r0' = Cert.Rope.takeRows (m (a1Loc d)) (m (a0Loc d)) from
    (StableHlo.reshape_result _ _ _ _ _ _ _).trans (by rw [V3_o0]; exact res0_eq d (m (a0Loc d)) (m (a1Loc d)) (m (a2Loc d)) hr)]

theorem held_opR1 (d : Dev nD) (hr : Cert.Rope.InRange (m (a0Loc d))) :
    (held (T d) {o1', r1'} ((opR1 (F := F)).result (V4 m d)) : sProp 𝕄)
      = iprop((o1Loc d ↦{fullShare} G1 d (psM m d) (tbM m d)) ∗ (r1Loc d ↦{fullShare} Cert.Rope.takeRows (m (a2Loc d)) (m (a0Loc d)))) := by
  rw [held2 d o1' r1' (by decide), (opR1 (F := F)).result_of_not_mem (V4 m d) (b := o1') (show o1' ∉ ({r1'} : Finset (DevRef τ sig)) by decide), V4_o1]
  rw [show (opR1 (F := F)).result (V4 m d) r1' = Cert.Rope.takeRows (m (a2Loc d)) (m (a0Loc d)) from
    (StableHlo.reshape_result _ _ _ _ _ _ _).trans (by rw [V4_o1]; exact res1_eq d (m (a0Loc d)) (m (a1Loc d)) (m (a2Loc d)) hr)]

/-- What @main leaves the claim: the two results at the lookup of rows, the three arguments at their launch contents. -/
abbrev FIN (d : Dev nD) : sProp 𝕄 :=
  iprop((r0Loc d ↦{fullShare} Cert.Rope.takeRows (m (a1Loc d)) (m (a0Loc d))) ∗ (r1Loc d ↦{fullShare} Cert.Rope.takeRows (m (a2Loc d)) (m (a0Loc d)))
    ∗ (a0Loc d ↦{fullShare} m (a0Loc d)) ∗ (a1Loc d ↦{fullShare} m (a1Loc d)) ∗ (a2Loc d ↦{fullShare} m (a2Loc d)))

/-- @main on device `d`'s TensorCore: the two host operations before the call, the call (every worker's share out, and
    back), the two reshapes after it. -/
theorem hmain (hr : ∀ d : Dev nD, Cert.Rope.InRange (m (a0Loc d)))
    (κ : GSem nD τ sig → ℕ) (d : Dev nD) :
    iprop((K (F := F)).ctx EH (P (psM m) (tbM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Ho0, Ho1, Hr0, Hr1⟩, -, -⟩, -⟩
  -- the positions, reshaped
  iapply (wp_hlo_within 𝒱 (SparseCore.T d) none Set.univ (op := opPs (F := F)) (S := {a0', v0'}) (Finset.Subset.refl _) (V := V0 m d)) $$ [Hb Ha0 Hv0]
  · isplitl [Hb]; · iexact Hb
    rw [held2 d a0' v0' (by decide)]
    isplitl [Ha0]; · iexact Ha0
    iexact Hv0
  iintro ⟨Hb, Hh⟩
  ihave Hh' := (Entails.of_eq (held_opPs m d)) $$ Hh
  icases Hh' with ⟨Ha0, Hps⟩
  rw [wp_ret]; imodintro
  -- the two caches side by side
  iapply (wp_hlo_within 𝒱 (SparseCore.T d) none Set.univ (op := opTb (F := F)) (S := {a1', a2', v1'}) (Finset.Subset.refl _) (V := V0 m d)) $$ [Hb Ha1 Ha2 Hv1]
  · isplitl [Hb]; · iexact Hb
    rw [held3 d a1' a2' v1' (by decide) (by decide) (by decide)]
    isplitl [Ha1]; · iexact Ha1
    isplitl [Ha2]; · iexact Ha2
    iexact Hv1
  iintro ⟨Hb, Hh⟩
  ihave Hh' := (Entails.of_eq (held_opTb m d)) $$ Hh
  icases Hh' with ⟨Ha1, Ha2, Htb⟩
  rw [wp_ret]; imodintro
  -- the call: every worker's share out, and back
  ihave Hsp := (split_all d (psM m) (tbM m) _ _) $$ [Hps Htb Ho0 Ho1]
  · isplitl [Hps]; · iexact Hps
    isplitl [Htb]; · iexact Htb
    isplitl [Ho0]; · iexact Ho0
    iexact Ho1
  icases Hsp with ⟨Htbr, Hgo⟩
  iapply ((K (F := F)).wp_run (D (F := F)) 𝒱 (EH := EH) (P := P (psM m) (tbM m)) κ d 0) $$ [Hst Hgo Hb Htbr Ha0 Ha1 Ha2 Hr0 Hr1]
  isplitr; · iexact Hctx
  isplitl [Hst]; · iexact Hst
  isplitl [Hgo]
  · rw [st0_eq]; iexact Hgo
  iintro ⟨Hst, Hdn⟩
  ihave Hdn' := (Entails.of_eq (dn0_eq (psM m) (tbM m) d)) $$ Hdn
  ihave Hj := (join_all d (psM m) (tbM m)) $$ [Htbr Hdn']
  · isplitl [Htbr]; · iexact Htbr
    iexact Hdn'
  icases Hj with ⟨-, -, Ho0, Ho1⟩
  -- the first result, reshaped
  iapply (wp_hlo_within 𝒱 (SparseCore.T d) none Set.univ (op := opR0 (F := F)) (S := {o0', r0'}) (Finset.Subset.refl _) (V := V3 m d)) $$ [Hb Ho0 Hr0]
  · isplitl [Hb]; · iexact Hb
    rw [held2 d o0' r0' (by decide), V3_o0, V3_r0]
    isplitl [Ho0]; · iexact Ho0
    iexact Hr0
  iintro ⟨Hb, Hh⟩
  ihave Hh' := (Entails.of_eq (held_opR0 m d (hr d))) $$ Hh
  icases Hh' with ⟨-, Hr0⟩
  rw [wp_ret]; imodintro
  -- the second
  iapply (wp_hlo_within 𝒱 (SparseCore.T d) none Set.univ (op := opR1 (F := F)) (S := {o1', r1'}) (Finset.Subset.refl _) (V := V4 m d)) $$ [Hb Ho1 Hr1]
  · isplitl [Hb]; · iexact Hb
    rw [held2 d o1' r1' (by decide), V4_o1, V4_r1]
    isplitl [Ho1]; · iexact Ho1
    iexact Hr1
  iintro ⟨Hb, Hh⟩
  ihave Hh' := (Entails.of_eq (held_opR1 m d (hr d))) $$ Hh
  icases Hh' with ⟨-, Hr1⟩
  rw [wp_ret]; imodintro; imodintro
  isplitl [Hst]; · iexact Hst
  isplitl [Hr0]; · iexact Hr0
  isplitl [Hr1]; · iexact Hr1
  isplitl [Ha0]; · iexact Ha0
  isplitl [Ha1]; · iexact Ha1
  iexact Ha2

/-! ## The final memory reads the claim -/

def fq (d : Dev nD) (s' : Phys nD τ sig (Elt F)) : Prop :=
  s'.mem.mem (r0Loc d) = Cert.Rope.takeRows (m (a1Loc d)) (m (a0Loc d)) ∧ s'.mem.mem (r1Loc d) = Cert.Rope.takeRows (m (a2Loc d)) (m (a0Loc d))
    ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr0, Hr1, Ha0, Ha1, Ha2⟩, HSI⟩
  ihave H := (persistent_entails_right (SI_pointsTo_agree (st := s') (ℓ := r0Loc d) (I := Finset.univ) (q := fullShare) (f := Cert.Rope.takeRows (m (a1Loc d)) (m (a0Loc d))))) $$ [HSI Hr0]
  · isplitl [HSI] <;> iassumption
  icases H with ⟨%h1, HSI, -⟩
  ihave H := (persistent_entails_right (SI_pointsTo_agree (st := s') (ℓ := r1Loc d) (I := Finset.univ) (q := fullShare) (f := Cert.Rope.takeRows (m (a2Loc d)) (m (a0Loc d))))) $$ [HSI Hr1]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h3, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h4, HSI, -⟩
  ihave H := (SI_pointsTo_agree (st := s') (ℓ := a2Loc d) (I := Finset.univ) (q := fullShare) (f := m (a2Loc d))) $$ [HSI Ha2]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

/-! ## The program's run -/

def QC : PUnit × MemSt nD τ sig (Elt F) → Prop := fun r => ∀ c : Dev nD,
  r.2.mem (r0Loc c) = Cert.Rope.takeRows (m (a1Loc c)) (m (a0Loc c)) ∧ r.2.mem (r1Loc c) = Cert.Rope.takeRows (m (a2Loc c)) (m (a0Loc c))
    ∧ r.2.mem (a0Loc c) = m (a0Loc c) ∧ r.2.mem (a1Loc c) = m (a1Loc c) ∧ r.2.mem (a2Loc c) = m (a2Loc c)

theorem run_value_of [∀ e, Nonempty (Elt F e)] (hb : TileBodyStmt (F := F)) (hr : ∀ d : Dev nD, Cert.Rope.InRange (m (a0Loc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (psM m) (tbM m)) facts v₀
    (fun q hq => match q with | 0 => nomatch hq)
    (fun q _ => match q with | 0 => tileObl (psM m) (tbM m) hb facts (psM_lt m hr))
    (fun q _ => match q with | 0 => SparseCore.Cfg.VecSplit.of_plain (vecSplit (psM m) (tbM m)))
    m ρ main (fun _ => iprop(emp)) (FIN m) (u₀ (F := F)) (sep_elim_left.trans (hu₀ (psM m) (tbM m))) (hmain m ρ hr) (fq m) (hfin m) (QC m) (fun _ h => h)

end Main

/-- From any memory whose positions are row numbers, semaphores zero, given one worker's task: every weakly fair
    execution of the device's threads terminates, the two results hold the lookup of whole rows of each cache, and the
    three arguments are unchanged. -/
theorem run_value [FloatOps F] [∀ e, Nonempty (Elt F e)] (hb : TileBodyStmt (F := F)) (m : (ℓ : Loc nD τ sig) → Buf (Elt F) ℓ) (ρ : Dev nD → PrngReg)
    (hr : ∀ d : Dev nD, Cert.Rope.InRange (m (a0Loc d))) :
    θ_run (Cert.Kernel.defs (F := F)) (Cert.Kernel.threads (F := F)) ⟨m, fun _ => 0, ρ⟩ (fun r => ∀ c : Dev nD,
      r.2.mem (r0Loc c) = Cert.Rope.takeRows (m (a1Loc c)) (m (a0Loc c)) ∧ r.2.mem (r1Loc c) = Cert.Rope.takeRows (m (a2Loc c)) (m (a0Loc c))
      ∧ r.2.mem (a0Loc c) = m (a0Loc c) ∧ r.2.mem (a1Loc c) = m (a1Loc c) ∧ r.2.mem (a2Loc c) = m (a2Loc c)) :=
  run_value_of m ρ hb hr

end Cert.Kernel.Run

end
-- ==== Proof.PreRange.lean ====
/-
  From the stated precondition to the range of the positions. The precondition is a conjunction, reduced by `and` to a
  single bit: both caches finite, and every position between 0 and 32767 as a signed word. Only the last conjunct is read
  here: a reduction by `and` that is 1 met only 1s, and a comparison word that is 1 says the inequality of the signed
  readings of its operands, here a position against the broadcast constants 0 and 32767.
-/
import proofs.«205335_g28930899706033_cont_9to1_1924_12_alg».proof.Pre_input_domain
import proofs.«205335_g28930899706033_cont_9to1_1924_12_alg».proof.Proof.Spec
import Idealize.ShloMosaic.Lib.ReduceAll

namespace Cert.Rope

open Idealize.ShloMosaic Idealize.ShloMosaic.ValueIdx

/-- The scalar shape has one index. -/
instance subsingleton_scalarIdx : Subsingleton Cert.Pre_input_domain.S_.Idx := ⟨fun _ _ => funext fun d => d.elim0⟩

/-- When the precondition's bit is 1, every position is a row number: between 0 and 32767 read signed. -/
theorem inRange_of_pre {F : FTy → Type} [FloatOps F] [Cert.Pre_input_domain.Facts]
    (a0 : IVec Cert.Pre_input_domain.S4x8192 32) (a1 a2 : FVec F Cert.Pre_input_domain.S32768x64 .f32)
    (h : Cert.Pre_input_domain.fn (F := F) a0 a1 a2 = fun _ => 1#1) : InRange a0 := by
  have h0 := congrFun h ix0
  dsimp only [Cert.Pre_input_domain.fn] at h0
  -- the outer conjunction: (caches finite) ∧ (all positions in range)
  obtain ⟨-, h14⟩ := IntOp.andi_eq_one.1 h0
  intro b s
  -- the reduction by `and` over both axes is 1, so the bit at (b, s) is
  have hbs := Host.reduce_andi_all _ _ _ _ _ h14 (ix2 b s)
  obtain ⟨hge, hle⟩ := IntOp.andi_eq_one.1 hbs
  have h1 : (0#32 : BitVec 32).toInt ≤ (a0 (ix2 b s)).toInt := IntOp.cmpi_sge.1 hge
  have h2 : (a0 (ix2 b s)).toInt ≤ (32767#32 : BitVec 32).toInt := IntOp.cmpi_sle.1 hle
  have e0 : (0#32 : BitVec 32).toInt = 0 := by decide
  have e1 : (32767#32 : BitVec 32).toInt = 32767 := by decide
  rw [e0] at h1
  rw [e1] at h2
  exact ⟨h1, h2⟩

end Cert.Rope
-- ==== Proof.RefTerm.lean ====
/-
  The reference's value as one pure term. The reference looks a cache up by positions the way a bounds-checked row
  lookup is composed: a negative position is shifted up by the number of rows (32768); the positions get a trailing unit
  axis; a position is in bounds when it lies between 0 and 32767 read signed (the two comparisons conjoined, then
  and-reduced over the unit axis); the rows are gathered at the positions (the gather clamps a start index into the
  table); and where the position is out of bounds the gathered row is replaced by NaN.
-/
import proofs.«205335_g28930899706033_cont_9to1_1924_12_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- A negative position shifted up by the number of rows, any other position as it is. -/
def normPos (pos : IVec S4x8192 32) : IVec S4x8192 32 :=
  select (cmpi .slt pos (broadcastInDim S4x8192 ![] bcast_S_S4x8192 (constantI S_ 32 0#32)))
    (addi pos (broadcastInDim S4x8192 ![] bcast_S_S4x8192 (constantI S_ 32 32768#32))) pos

/-- The normalised positions with a trailing unit axis: the gather's start indices. -/
def startIdx (pos : IVec S4x8192 32) : IVec S4x8192x1 32 :=
  broadcastInDim S4x8192x1 ![0, 1] bcast_S4x8192_S4x8192x1_0_1 (normPos pos)

/-- Per position, whether the start index lies between 0 and 32767 read signed. -/
def inBounds (pos : IVec S4x8192 32) : IVec S4x8192 1 :=
  Host.reduce IntOp.andi
    (andi
      (cmpi .sge (startIdx pos) (broadcastInDim S4x8192x1 ![] bcast_S_S4x8192x1 (constantI S_ 32 0#32)))
      (cmpi .sle (startIdx pos)
        (broadcastInDim S4x8192x1 ![0, 1, 2] bcast_S1x1x1_S4x8192x1_0_1_2
          (broadcastInDim S1x1x1 ![2] bcast_S1_S1x1x1_2 (constantI S1 32 32767#32)))))
    (constantI S_ 1 1#1) reducesTo_S4x8192x1_S4x8192_d2 h_S_

/-- The bounds-checked row lookup as the reference composes it: the pure term of (table, positions). -/
def take (tab : FVec Ideal S32768x64 .f32) (pos : IVec S4x8192 32) : FVec Ideal S4x8192x64 .f32 :=
  select (broadcastInDim S4x8192x64 ![0, 1] bcast_S4x8192_S4x8192x64_0_1 (inBounds pos))
    (Host.gather gather_S32768x64_S4x8192x1_S4x8192x64_2_0_n_n_0_2_164 tab (startIdx pos))
    (broadcastInDim S4x8192x64 ![] bcast_S_S4x8192x64 (constant (F := Ideal) S_ .f32 0x7FC00000#32))

end Cert.ReferenceIdeal.RefValue

end
-- ==== Proof.RefRun.lean ====
/-
  The reference's run. Its @main is a straight line of host operations: the bounds-checked row lookup is called twice,
  once per cache, each call twenty-three operations over buffers of its own (its select on the sign of the position is
  a call in turn, one operation). Listed in order they are forty-six operations; every weakly fair execution runs them
  to the end, each result buffer then holds the composed pure term of the two arguments it reads, and the three
  argument buffers are written by none of them.
-/
import proofs.«205335_g28930899706033_cont_9to1_1924_12_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- @main's forty-six operations in order, the two calls of the lookup unfolded over their own buffers (and within each,
    the call of the select on the position's sign). -/
abbrev ops : List (HloOp τ sig (Elt Ideal)) :=
  [ TRef.nullary main_call0.c (constantI S_ 32 0#32),
    TRef.unary main_call0.c main_call0.v0 (broadcastInDim S4x8192 ![] bcast_S_S4x8192),
    TRef.binary (.of main_arg0) main_call0.v0 main_call0.v1 (cmpi .slt),
    TRef.nullary main_call0.c_0 (constantI S_ 32 32768#32),
    TRef.unary main_call0.c_0 main_call0.v2 (broadcastInDim S4x8192 ![] bcast_S_S4x8192),
    TRef.binary (.of main_arg0) main_call0.v2 main_call0.v3 addi,
    TRef.ternary main_call0.v1 main_call0.v3 (.of main_arg0) main_call0.call0.v0 select,
    TRef.unary main_call0.call0.v0 main_call0.v5 (broadcastInDim S4x8192x1 ![0, 1] bcast_S4x8192_S4x8192x1_0_1),
    TRef.nullary main_call0.c_1 (constantI S1 32 32767#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S32768x64_S4x8192x1_S4x8192x64_2_0_n_n_0_2_164 x i),
    TRef.unary main_call0.v12 main_call0.v14 (broadcastInDim S4x8192x64 ![0, 1] bcast_S4x8192_S4x8192x64_0_1),
    TRef.nullary main_call0.cst (constant (F := Ideal) S_ .f32 0x7FC00000#32),
    TRef.unary main_call0.cst main_call0.v15 (broadcastInDim S4x8192x64 ![] bcast_S_S4x8192x64),
    TRef.ternary main_call0.v14 main_call0.v13 main_call0.v15 main_call0.v16 select,
    TRef.nullary main_call1.c (constantI S_ 32 0#32),
    TRef.unary main_call1.c main_call1.v0 (broadcastInDim S4x8192 ![] bcast_S_S4x8192),
    TRef.binary (.of main_arg0) main_call1.v0 main_call1.v1 (cmpi .slt),
    TRef.nullary main_call1.c_0 (constantI S_ 32 32768#32),
    TRef.unary main_call1.c_0 main_call1.v2 (broadcastInDim S4x8192 ![] bcast_S_S4x8192),
    TRef.binary (.of main_arg0) main_call1.v2 main_call1.v3 addi,
    TRef.ternary main_call1.v1 main_call1.v3 (.of main_arg0) main_call1.call0.v0 select,
    TRef.unary main_call1.call0.v0 main_call1.v5 (broadcastInDim S4x8192x1 ![0, 1] bcast_S4x8192_S4x8192x1_0_1),
    TRef.nullary main_call1.c_1 (constantI S1 32 32767#32),
    TRef.nullary main_call1.c_2 (constantI S_ 32 0#32),
    TRef.unary main_call1.c_2 main_call1.v6 (broadcastInDim S4x8192x1 ![] bcast_S_S4x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x8192x1 ![0, 1, 2] bcast_S1x1x1_S4x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x8192x1_S4x8192_d2 h_S_),
    TRef.binary (.of main_arg2) main_call1.v5 main_call1.v13 (fun x i => Host.gather gather_S32768x64_S4x8192x1_S4x8192x64_2_0_n_n_0_2_164 x i),
    TRef.unary main_call1.v12 main_call1.v14 (broadcastInDim S4x8192x64 ![0, 1] bcast_S4x8192_S4x8192x64_0_1),
    TRef.nullary main_call1.cst (constant (F := Ideal) S_ .f32 0x7FC00000#32),
    TRef.unary main_call1.cst main_call1.v15 (broadcastInDim S4x8192x64 ![] bcast_S_S4x8192x64),
    TRef.ternary main_call1.v14 main_call1.v13 main_call1.v15 main_call1.v16 select ]

-- forty-six binds re-associated: the rewrite under the chain recurses once per statement
set_option maxRecDepth 2048 in
/-- @main is that straight line: the functions' definitions unfolded at their calls and the records at their fields,
    both sides are one chain of host steps once sequencing is reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

/-- Every TensorCore buffer ends at the fold of the forty-six operations over the launch contents. -/
theorem run_main (m : (ℓ : Loc nD τ sig) → Buf (Elt Ideal) ℓ) (g : Dev nD → PrngReg) :
    θ_run (defs (F := Ideal)) (onTc (τ := τ) (main (F := Ideal))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

/-! ## What each buffer of interest holds after the line

The fold at a result buffer, read back operation by operation (each operation's result at its own buffer is its
function of its operands' contents, at any other buffer what was there), is the lookup's term of the table and the
positions; the reduction and the gather stay folded meanwhile. An argument buffer is written by no operation. -/

attribute [local irreducible] Host.reduce Host.gather in
set_option maxRecDepth 8192 in
theorem v0_eq (V : Valuation τ sig (Elt Ideal)) :
    after ops V (main_v0 : DevRef τ sig) = take (V (main_arg1 : DevRef τ sig)) (V (main_arg0 : DevRef τ sig)) := by
  after_results_simp
  rfl

attribute [local irreducible] Host.reduce Host.gather in
set_option maxRecDepth 8192 in
theorem v1_eq (V : Valuation τ sig (Elt Ideal)) :
    after ops V (main_v1 : DevRef τ sig) = take (V (main_arg2 : DevRef τ sig)) (V (main_arg0 : DevRef τ sig)) := by
  after_results_simp
  rfl

set_option maxRecDepth 8192 in
theorem arg0_eq (V : Valuation τ sig (Elt Ideal)) :
    after ops V (main_arg0 : DevRef τ sig) = V (main_arg0 : DevRef τ sig) := by
  after_results_simp

set_option maxRecDepth 8192 in
theorem arg1_eq (V : Valuation τ sig (Elt Ideal)) :
    after ops V (main_arg1 : DevRef τ sig) = V (main_arg1 : DevRef τ sig) := by
  after_results_simp

set_option maxRecDepth 8192 in
theorem arg2_eq (V : Valuation τ sig (Elt Ideal)) :
    after ops V (main_arg2 : DevRef τ sig) = V (main_arg2 : DevRef τ sig) := by
  after_results_simp

/-- From any memory with zero counters every weakly fair execution of the reference terminates; each result buffer then
    holds the lookup's term of its cache and the positions, and the three arguments are unchanged. -/
theorem run (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev nD,
        r.2.mem ((c.tc : Thread nD τ).loc main_v0) = take (m ((c.tc : Thread nD τ).loc main_arg1)) (m ((c.tc : Thread nD τ).loc main_arg0))
        ∧ r.2.mem ((c.tc : Thread nD τ).loc main_v1) = take (m ((c.tc : Thread nD τ).loc main_arg2)) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c main_v0).trans (v0_eq _), (h c main_v1).trans (v1_eq _),
      (h c main_arg0).trans (arg0_eq _), (h c main_arg1).trans (arg1_eq _), (h c main_arg2).trans (arg2_eq _)⟩)
    (run_main m g)

end Cert.ReferenceIdeal.RefValue

end
-- ==== Proof.LibGatherRow.lean ====
/-
  A row lookup read at an index.

  A table with N rows of D entries is looked up through an index array of shape R × C × 1: entry (r, c, k) of the
  result is entry k of the table's row number idx[r, c, 0], that number read as a signed integer and clamped into
  [0, N − 1]. This is the gather with one offset axis (the last), the row axis collapsed, the index vector on the
  trailing unit axis and slices of one whole row: what a lookup of rows by an integer array lowers to.
-/
import Idealize.ShloMosaic.Lib.ValueIdx

namespace Idealize.ShloMosaic.ValueIdx

section RowLookup

variable {α : Type}

/-- The dimension numbers of a lookup of whole rows of an N × D table through an R × C × 1 index array. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The lookup read at (r, c, k): entry k of the table's row idx[r, c, 0], read signed and clamped into
    [0, N − 1]. -/
theorem gather_row_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowDims N D R C wf) x idx (ix3 r c k)
      = x (ix2 ⟨min (idx (ix3 r c (⟨0, Nat.one_pos⟩ : Fin 1))).toInt.toNat (N - 1), by omega⟩ k) := by
  unfold Host.gather
  congr 1
  funext a
  refine Fin.ext ?_
  show (rowDims N D R C wf).start (ix3 r c k) idx a + (rowDims N D R C wf).batchCoord (ix3 r c k) a
      + (rowDims N D R C wf).offCoord (ix3 r c k) a = _
  rw [GatherDims.batchCoord_eq_zero _ _ _ List.not_mem_nil]
  have ha : a = (0 : Fin 2) ∨ a = (1 : Fin 2) := by
    rcases a with ⟨v, hv⟩
    have hv2 : v < 2 := hv
    rcases v with _ | _ | v
    · exact .inl rfl
    · exact .inr rfl
    · omega
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c k) ⟨List.idxOf (0 : Fin 2) (rowDims N D R C wf).startIndexMap,
        List.idxOf_lt_length_iff.2 (List.mem_singleton.mpr rfl)⟩ = ix3 r c (⟨0, Nat.one_pos⟩ : Fin 1) := by
      funext b; refine Fin.ext ?_
      match b with
      | ⟨0, _⟩ => rfl
      | ⟨1, _⟩ => rfl
      | ⟨2, _⟩ => rfl
    rw [hsi]
    rfl
  · have h10 : (1 : Fin 2) ∉ ([0] : List (Fin 2)) := by
      intro h
      exact absurd (congrArg Fin.val (List.mem_singleton.mp h)) (by decide)
    have hst : (rowDims N D R C wf).start (ix3 r c k) idx (1 : Fin 2) = 0 := by
      unfold GatherDims.start
      exact dif_neg h10
    rw [hst]
    have hk : (1 : Fin 2) ∈ (rowDims N D R C wf).sKept := by
      rw [GatherDims.mem_sKept]; exact ⟨h10, List.not_mem_nil⟩
    unfold GatherDims.offCoord
    rw [dif_pos hk]
    simp only [Nat.zero_add]
    rfl

end RowLookup

end Idealize.ShloMosaic.ValueIdx
-- ==== Proof.RefValue.lean ====
/-
  The reference's term is the specification under the range. Read at an index (b, s, k): a position between 0 and 32767
  is not negative, so the select on its sign keeps it; it passes both bounds comparisons, so the and-reduction over the
  unit axis is 1 and the outer select keeps the gathered entry; and the gather reads entry k of the row whose number is
  the start index read signed and clamped into [0, 32767], which for such a position is the position's own unsigned
  value: the row the specification names.
-/
import proofs.«205335_g28930899706033_cont_9to1_1924_12_alg».proof.Proof.RefTerm
import proofs.«205335_g28930899706033_cont_9to1_1924_12_alg».proof.Proof.Spec
import proofs.«205335_g28930899706033_cont_9to1_1924_12_alg».proof.Proof.LibGatherRow
import Idealize.ShloMosaic.PureOps.Reduce
import Idealize.ShloMosaic.Lib.Affine

noncomputable section

namespace Cert.ReferenceIdeal.RefValue

open Cert.ReferenceIdeal Cert.ReferenceIdeal.Gen Idealize.ShloMosaic Idealize.ShloMosaic.ValueIdx

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- The start index at (b, s, 0) is the normalised position at (b, s). -/
theorem startIdx_apply (pos : IVec S4x8192 32) (b : Fin 4) (s : Fin 8192) (z : Fin 1) :
    startIdx pos (ix3 b s z) = normPos pos (ix2 b s) := by
  unfold startIdx broadcastInDim
  refine congrArg (normPos pos) (funext fun a => ?_)
  match a with
  | ⟨0, _⟩ => rfl
  | ⟨1, _⟩ => rfl

/-- A position that is not negative is its own normalisation. -/
theorem normPos_apply (pos : IVec S4x8192 32) (b : Fin 4) (s : Fin 8192) (h0 : 0 ≤ (pos (ix2 b s)).toInt) :
    normPos pos (ix2 b s) = pos (ix2 b s) := by
  show Scalar.select (IntOp.cmpi .slt (pos (ix2 b s)) 0#32) (IntOp.addi (pos (ix2 b s)) 32768#32) (pos (ix2 b s)) = _
  have hc : ¬ IntOp.cmpi .slt (pos (ix2 b s)) 0#32 = 1#1 := by
    rw [IntOp.cmpi_slt, show (0#32 : BitVec 32).toInt = 0 from by decide]
    omega
  rw [eq_zero_of_ne_one hc, select_zero]

/-- In range every position is in bounds. -/
theorem inBounds_apply (pos : IVec S4x8192 32) (h : Cert.Rope.InRange pos) (j : S4x8192.Idx) : inBounds pos j = 1#1 := by
  unfold inBounds
  rw [Host.reduce_eq_foldl]
  refine foldl_andi_one _ _ fun n _ => ?_
  obtain ⟨b, s, z, rfl⟩ : ∃ b s z, n = ix3 b s z := ⟨n 0, n 1, n 2, eq_ix3 n⟩
  obtain ⟨h0, h1⟩ := h b s
  show IntOp.andi (IntOp.cmpi .sge (startIdx pos (ix3 b s z)) 0#32) (IntOp.cmpi .sle (startIdx pos (ix3 b s z)) 32767#32) = 1#1
  rw [startIdx_apply, normPos_apply pos b s h0, IntOp.andi_eq_one, IntOp.cmpi_sge, IntOp.cmpi_sle,
    show (0#32 : BitVec 32).toInt = 0 from by decide, show (32767#32 : BitVec 32).toInt = 32767 from by decide]
  exact ⟨h0, h1⟩

/-- In range the bounds mask is 1 everywhere, so the lookup's select keeps the gathered entry. -/
theorem take_apply (tab : FVec Ideal S32768x64 .f32) (pos : IVec S4x8192 32) (h : Cert.Rope.InRange pos)
    (b : Fin 4) (s : Fin 8192) (k : Fin 64) :
    take tab pos (ix3 b s k)
      = Host.gather gather_S32768x64_S4x8192x1_S4x8192x64_2_0_n_n_0_2_164 tab (startIdx pos) (ix3 b s k) := by
  unfold take
  rw [select_apply]
  have hc : broadcastInDim S4x8192x64 ![0, 1] bcast_S4x8192_S4x8192x64_0_1 (inBounds pos) (ix3 b s k) = 1#1 :=
    inBounds_apply pos h _
  rw [hc]
  rw [select_one]

/-- The gather at (b, s, k) is entry k of the table's row numbered by the start index at (b, s, 0), read signed and
    clamped into the table. -/
theorem gather_apply (tab : FVec Ideal S32768x64 .f32) (pos : IVec S4x8192 32) (b : Fin 4) (s : Fin 8192) (k : Fin 64) :
    Host.gather gather_S32768x64_S4x8192x1_S4x8192x64_2_0_n_n_0_2_164 tab (startIdx pos) (ix3 b s k)
      = tab (ix2 ⟨min (startIdx pos (ix3 b s (⟨0, Nat.one_pos⟩ : Fin 1))).toInt.toNat (32768 - 1), by omega⟩ k) :=
  gather_row_apply (N := 32768) (D := 64) (R := 4) (C := 8192) (by decide)
    gather_S32768x64_S4x8192x1_S4x8192x64_2_0_n_n_0_2_164_wf tab (startIdx pos) b s k

/-- Under the range, the reference's bounds-checked lookup is the plain lookup of rows: the position is its own
    normalisation, it is in bounds, and clamping a row number between 0 and 32767 changes nothing. -/
theorem take_eq (tab : FVec Ideal S32768x64 .f32) (pos : IVec S4x8192 32) (h : Cert.Rope.InRange pos) :
    take tab pos = Cert.Rope.takeRows tab pos := by
  funext i
  obtain ⟨b, s, k, rfl⟩ : ∃ b s k, i = ix3 b s k := ⟨i 0, i 1, i 2, eq_ix3 i⟩
  rw [Cert.Rope.takeRows_apply, take_apply tab pos h, gather_apply]
  refine congrArg tab (congrArg (fun r => ix2 r k) (Fin.ext ?_))
  show min (startIdx pos (ix3 b s (⟨0, Nat.one_pos⟩ : Fin 1))).toInt.toNat (32768 - 1) = (Cert.Rope.rowOf pos b s).val
  obtain ⟨h0, -⟩ := h b s
  obtain ⟨he, hlt⟩ := Cert.Rope.toInt_eq_toNat h b s
  rw [startIdx_apply, normPos_apply pos b s h0, Cert.Rope.rowOf_val h, he]
  omega

end Cert.ReferenceIdeal.RefValue

end
-- ==== Proof.Assemble.lean ====
/-
  The claim from its parts. Both programs compute the lookup of whole rows of each cache at the given positions: the
  kernel's run ends with each result at that lookup whenever the positions are row numbers, and so does the
  reference's once its bounds-checked lookup is read under the same range; the stated precondition gives the range.
  The three frames are the runs with the values dropped; the two programs' results are then the same function of the
  arguments, which is the algebraic claim. What is asked of one worker's task enters as a hypothesis, once per
  float instance.
-/
import proofs.«205335_g28930899706033_cont_9to1_1924_12_alg».proof.Defs
import proofs.«205335_g28930899706033_cont_9to1_1924_12_alg».proof.Proof.Gen.Kernel
import proofs.«205335_g28930899706033_cont_9to1_1924_12_alg».proof.Proof.Gen.KernelIdeal
import proofs.«205335_g28930899706033_cont_9to1_1924_12_alg».proof.Proof.Gen.ReferenceIdeal
import proofs.«205335_g28930899706033_cont_9to1_1924_12_alg».proof.Proof.Gen.Pre_input_domain
import proofs.«205335_g28930899706033_cont_9to1_1924_12_alg».proof.Proof.KI.Launch
import proofs.«205335_g28930899706033_cont_9to1_1924_12_alg».proof.Proof.KB.Launch
import proofs.«205335_g28930899706033_cont_9to1_1924_12_alg».proof.Proof.PreRange
import proofs.«205335_g28930899706033_cont_9to1_1924_12_alg».proof.Proof.RefRun
import proofs.«205335_g28930899706033_cont_9to1_1924_12_alg».proof.Proof.RefValue

noncomputable section

namespace Cert.Proof.Assemble

open Idealize.ShloMosaic Idealize.SL.Sem

/-- The kernel as printed runs, and its arguments end unchanged: its run with the values dropped. -/
theorem frame_k (hbB : Cert.Kernel.Run.TileBodyStmt (F := Bits)) :
    Cert.frame_Kernel (hKernel := Cert.Kernel.Gen.facts) (hPre_input_domain := Cert.Pre_input_domain.Gen.facts) :=
  fun m g hp => (θ_run _ _ _).mono (fun _ h c => ⟨(h c).2.2.1, (h c).2.2.2.1, (h c).2.2.2.2⟩)
    (Cert.Kernel.Run.run_value (F := Bits) hbB m g (fun d => Cert.Rope.inRange_of_pre _ _ _ (hp d)))

/-- The same at the ideal instance. -/
theorem frame_ki (hbI : Cert.KernelIdeal.Run.TileBodyStmt (F := Ideal)) :
    Cert.frame_KernelIdeal (hKernelIdeal := Cert.KernelIdeal.Gen.facts) (hPre_input_domain := Cert.Pre_input_domain.Gen.facts) :=
  fun m g hp => (θ_run _ _ _).mono (fun _ h c => ⟨(h c).2.2.1, (h c).2.2.2.1, (h c).2.2.2.2⟩)
    (Cert.KernelIdeal.Run.run_value (F := Ideal) hbI m g (fun d => Cert.Rope.inRange_of_pre _ _ _ (hp d)))

/-- The reference runs from any memory, and its arguments end unchanged. -/
theorem frame_ri :
    Cert.frame_ReferenceIdeal (hReferenceIdeal := Cert.ReferenceIdeal.Gen.facts) (hPre_input_domain := Cert.Pre_input_domain.Gen.facts) :=
  fun m g _ => (θ_run _ _ _).mono (fun _ h c => ⟨(h c).2.2.1, (h c).2.2.2.1, (h c).2.2.2.2⟩) (Cert.ReferenceIdeal.RefValue.run m g)

/-- The ideal pass rewrote nothing. -/
theorem preserves : Cert.preserves_Kernel_KernelIdeal := trivial

/-- From memories that agree on the arguments, both programs end with each result at the lookup of whole rows of its
    cache at the positions: the kernel by its run; the reference by its run, its bounds-checked lookup read under the
    range the precondition gives (stated of the kernel's memory, carried over by the agreement). -/
theorem algebraic (hbI : Cert.KernelIdeal.Run.TileBodyStmt (F := Ideal)) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hp hag
  refine ⟨fun c => Cert.Rope.takeRows (m ((c.tc : Thread Cert.KernelIdeal.nD Cert.KernelIdeal.τ).loc Cert.KernelIdeal.main_arg1)) (m ((c.tc : Thread Cert.KernelIdeal.nD Cert.KernelIdeal.τ).loc Cert.KernelIdeal.main_arg0)),
    fun c => Cert.Rope.takeRows (m ((c.tc : Thread Cert.KernelIdeal.nD Cert.KernelIdeal.τ).loc Cert.KernelIdeal.main_arg2)) (m ((c.tc : Thread Cert.KernelIdeal.nD Cert.KernelIdeal.τ).loc Cert.KernelIdeal.main_arg0)), ?_, ?_⟩
  · exact (θ_run _ _ _).mono (fun _ h c => h c)
      (Cert.KernelIdeal.Run.run_value (F := Ideal) hbI m g (fun d => Cert.Rope.inRange_of_pre _ _ _ (hp d)))
  · refine (θ_run _ _ _).mono (fun _ h c => ?_) (Cert.ReferenceIdeal.RefValue.run m' g')
    obtain ⟨h0, h1, h2, h3, h4⟩ := h c
    obtain ⟨e0, e1, e2⟩ := hag c
    have hr : Cert.Rope.InRange (m' ((c.tc : Thread Cert.ReferenceIdeal.nD Cert.ReferenceIdeal.τ).loc Cert.ReferenceIdeal.main_arg0)) :=
      e0 ▸ Cert.Rope.inRange_of_pre _ _ _ (hp c)
    have t0 : Cert.ReferenceIdeal.RefValue.take (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0))
        = Cert.Rope.takeRows (m ((c.tc : Thread Cert.KernelIdeal.nD Cert.KernelIdeal.τ).loc Cert.KernelIdeal.main_arg1)) (m ((c.tc : Thread Cert.KernelIdeal.nD Cert.KernelIdeal.τ).loc Cert.KernelIdeal.main_arg0)) :=
      (Cert.ReferenceIdeal.RefValue.take_eq _ _ hr).trans (congrArg₂ Cert.Rope.takeRows e1 e0)
    have t1 : Cert.ReferenceIdeal.RefValue.take (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg0))
        = Cert.Rope.takeRows (m ((c.tc : Thread Cert.KernelIdeal.nD Cert.KernelIdeal.τ).loc Cert.KernelIdeal.main_arg2)) (m ((c.tc : Thread Cert.KernelIdeal.nD Cert.KernelIdeal.τ).loc Cert.KernelIdeal.main_arg0)) :=
      (Cert.ReferenceIdeal.RefValue.take_eq _ _ hr).trans (congrArg₂ Cert.Rope.takeRows e2 e0)
    exact ⟨h0.trans t0, h1.trans t1, h2, h3, h4⟩

/-- Everything claimed, given one worker's task at each float instance. -/
theorem claim_of (hbI : Cert.KernelIdeal.Run.TileBodyStmt (F := Ideal)) (hbB : Cert.Kernel.Run.TileBodyStmt (F := Bits)) : Cert.Claim :=
  ⟨Cert.Kernel.Gen.facts, Cert.KernelIdeal.Gen.facts, Cert.ReferenceIdeal.Gen.facts, Cert.Pre_input_domain.Gen.facts,
    frame_k hbB, frame_ki hbI, frame_ri, preserves, algebraic hbI⟩

end Cert.Proof.Assemble

end
-- ==== Proof.KI.Rows.lean ====
/-
  One trip of the loop that splits a gathered chunk's rows into their two halves. Trip k writes row k of a 128 × 64 half
  buffer in four stores of 16 lanes (columns 0, 16, 32, 48), each loaded from row k of the 128 × 128 gather buffer at
  columns B, B + 16, B + 32, B + 48 (B = 0 for the left half, 64 for the right) and cast to a vector of 16 and back,
  which changes nothing. The four store rectangles tile row k: an index of another row lies under none of them and keeps
  its contents; row k, column c lies under the one of columns 16·(c / 16) … 16·(c / 16) + 15 and under no later one, at
  lane c − 16·(c / 16), where the payload is the gather buffer at row k, column B + c. So if rows below k of the half
  buffer were columns B … B + 63 of the gather buffer's rows before the trip, rows below k + 1 are after it.
-/
import proofs.«205335_g28930899706033_cont_9to1_1924_12_alg».proof.Proof.KI.Tile
import Idealize.ShloMosaic.Lib.Writes
import Idealize.ShloMosaic.Lib.WritesUnit
import Idealize.ShloMosaic.Lib.SparseCore.Stream
import Idealize.ShloMosaic.Lib.Pipeline.Value
import Idealize.ShloMosaic.Lib.ValueIdx

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## One trip of the split: the four 16-lane pieces of row k -/

section Piece

variable {κ κ' : Kind} {sp sp' : Space}
variable (vM : View sig κ sp S128x64 .f32) (vG : View sig κ' sp' S128x128 .f32)
variable (fc : vM.ty.Contents (Elt F)) (g : vG.ty.Contents (Elt F))

/-- A piece's payload: 16 lanes loaded from the gather buffer at offsets p, cast to a vector of 16 and back. Lane x is the
    buffer at p + x. -/
theorem piece_val (p : Fin 2 → Nat) (j : ∀ a, p a + S1x16.size a ≤ S128x128.size a)
    (h1 : S1x16.ShapeCasts S16) (h2 : S16.ShapeCasts S1x16) (x : S1x16.Idx) (y : S128x128.Idx)
    (hy : ∀ a, (y a).val = p a + (x a).val) :
    shapeCast S1x16 (shapeCast S16 (View.readAt (Elt F) vG (Rect.unit (s := S128x128) p S1x16.size j).toLoadRect g) h1) h2 x
      = vG.read (Elt F) g y := by
  rw [shapeCast_shapeCast, View.readAt_apply]
  refine congrArg (vG.read (Elt F) g) (funext fun a => Fin.ext ?_)
  show p a + 1 * (x a).val = (y a).val
  rw [hy a, Nat.one_mul]

/-- An index of row k whose column lies under the newest piece (columns m … m+15) reads the gather buffer's row k at
    column B + c. -/
theorem piece_hit (o p : Fin 2 → Nat) (i : ∀ a, o a + S1x16.size a ≤ S128x64.size a)
    (j : ∀ a, p a + S1x16.size a ≤ S128x128.size a) (h1 : S1x16.ShapeCasts S16) (h2 : S16.ShapeCasts S1x16)
    (Lst : List (View.Piece (Elt F) S128x64 .f32)) (r : Fin 128) (c : Fin 64) (c' : Fin 128) (k m B : Nat)
    (eo : o = ![k, m]) (ep : p = ![k, B + m]) (hr : r.val = k) (hm1 : m ≤ c.val) (hm2 : c.val < m + 16)
    (hc' : c'.val = B + c.val) :
    vM.read (Elt F) (vM.writes (Elt F) fc ((⟨Rect.unit (s := S128x64) o S1x16.size i,
        shapeCast S1x16 (shapeCast S16 (View.readAt (Elt F) vG (Rect.unit (s := S128x128) p S1x16.size j).toLoadRect g) h1) h2⟩
          : View.Piece (Elt F) S128x64 .f32) :: Lst)) (ix2 r c)
      = vG.read (Elt F) g (ix2 r c') := by
  subst eo ep
  rw [View.read_writes_cons_unit_of_mem vM fc i _ Lst (ix2 r c) (ix2 (0 : Fin 1) (⟨c.val - m, by omega⟩ : Fin 16)) rfl
    (Fin.forall_fin_two.mpr ⟨by show r.val = k + 0; omega, by show c.val = m + (c.val - m); omega⟩)]
  exact piece_val vG g _ j h1 h2 _ (ix2 r c')
    (Fin.forall_fin_two.mpr ⟨by show r.val = k + 0; omega, by show c'.val = B + m + (c.val - m); omega⟩)

/-- An index whose column is not under the newest piece reads what the earlier pieces left. -/
theorem piece_miss_col (o : Fin 2 → Nat) (i : ∀ a, o a + S1x16.size a ≤ S128x64.size a)
    (w : (Rect.unit (s := S128x64) o S1x16.size i).shape.Idx → Elt F .f32)
    (Lst : List (View.Piece (Elt F) S128x64 .f32)) (r : Fin 128) (c : Fin 64) (k m : Nat)
    (eo : o = ![k, m]) (hm : c.val < m ∨ m + 16 ≤ c.val) :
    vM.read (Elt F) (vM.writes (Elt F) fc ((⟨Rect.unit (s := S128x64) o S1x16.size i, w⟩ : View.Piece (Elt F) S128x64 .f32) :: Lst)) (ix2 r c)
      = vM.read (Elt F) (vM.writes (Elt F) fc Lst) (ix2 r c) :=
  View.read_writes_cons_unit_of_not_mem vM fc i w Lst (ix2 r c) eo 1 hm

/-- An index of another row reads what the earlier pieces left. -/
theorem piece_miss_row (o : Fin 2 → Nat) (i : ∀ a, o a + S1x16.size a ≤ S128x64.size a)
    (w : (Rect.unit (s := S128x64) o S1x16.size i).shape.Idx → Elt F .f32)
    (Lst : List (View.Piece (Elt F) S128x64 .f32)) (r : Fin 128) (c : Fin 64) (k m : Nat)
    (eo : o = ![k, m]) (hr : r.val < k) :
    vM.read (Elt F) (vM.writes (Elt F) fc ((⟨Rect.unit (s := S128x64) o S1x16.size i, w⟩ : View.Piece (Elt F) S128x64 .f32) :: Lst)) (ix2 r c)
      = vM.read (Elt F) (vM.writes (Elt F) fc Lst) (ix2 r c) :=
  View.read_writes_cons_unit_of_not_mem vM fc i w Lst (ix2 r c) eo 0 (Or.inl hr)

end Piece

section Trip

variable {κ κ' : Kind} {sp sp' : Space}
variable (vM : View sig κ sp S128x64 .f32) (vG : View sig κ' sp' S128x128 .f32)
variable (fc : vM.ty.Contents (Elt F)) (g : vG.ty.Contents (Elt F))

/-- TRIP k: over contents whose rows below k are columns B … B+63 of the gather buffer's rows, the four pieces (columns
    0, 16, 32, 48 of row k, from the gather buffer's row k at columns B, B+16, B+32, B+48) leave contents whose rows below
    k + 1 are. Another row is under no piece; row k, column c is under the piece of columns 16·(c / 16) … only. -/
theorem row_step_core (B : Nat) (col : Fin 64 → Fin 128) (hcol : ∀ c, (col c).val = B + c.val) (k : Nat)
    (hc : ∀ (r : Fin 128) (c : Fin 64), r.val < k → vM.read (Elt F) fc (ix2 r c) = vG.read (Elt F) g (ix2 r (col c)))
    (o3 o2 o1 o0 p3 p2 p1 p0 : Fin 2 → Nat)
    (i3 : ∀ a, o3 a + S1x16.size a ≤ S128x64.size a) (j3 : ∀ a, p3 a + S1x16.size a ≤ S128x128.size a)
    (i2 : ∀ a, o2 a + S1x16.size a ≤ S128x64.size a) (j2 : ∀ a, p2 a + S1x16.size a ≤ S128x128.size a)
    (i1 : ∀ a, o1 a + S1x16.size a ≤ S128x64.size a) (j1 : ∀ a, p1 a + S1x16.size a ≤ S128x128.size a)
    (i0 : ∀ a, o0 a + S1x16.size a ≤ S128x64.size a) (j0 : ∀ a, p0 a + S1x16.size a ≤ S128x128.size a)
    (h1 : S1x16.ShapeCasts S16) (h2 : S16.ShapeCasts S1x16)
    (eo3 : o3 = ![k, 48]) (ep3 : p3 = ![k, B + 48]) (eo2 : o2 = ![k, 32]) (ep2 : p2 = ![k, B + 32])
    (eo1 : o1 = ![k, 16]) (ep1 : p1 = ![k, B + 16]) (eo0 : o0 = ![k, 0]) (ep0 : p0 = ![k, B + 0])
    (r : Fin 128) (c : Fin 64) (hr : r.val < k + 1) :
    vM.read (Elt F) (vM.writes (Elt F) fc
        [(⟨Rect.unit (s := S128x64) o3 S1x16.size i3,
            shapeCast S1x16 (shapeCast S16 (View.readAt (Elt F) vG (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) vG (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) vG (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) vG (Rect.unit (s := S128x128) p0 S1x16.size j0).toLoadRect g) h1) h2⟩ : View.Piece (Elt F) S128x64 .f32)]) (ix2 r c)
      = vG.read (Elt F) g (ix2 r (col c)) := by
  have hcl := c.isLt
  rcases Nat.lt_or_ge r.val k with hlt | hge
  · rw [piece_miss_row vM fc o3 i3 _ _ r c k 48 eo3 hlt, piece_miss_row vM fc o2 i2 _ _ r c k 32 eo2 hlt,
      piece_miss_row vM fc o1 i1 _ _ r c k 16 eo1 hlt, piece_miss_row vM fc o0 i0 _ _ r c k 0 eo0 hlt, View.writes_nil]
    exact hc r c hlt
  · have hrk : r.val = k := by omega
    by_cases h48 : 48 ≤ c.val
    · exact piece_hit vM vG fc g o3 p3 i3 j3 h1 h2 _ r c (col c) k 48 B eo3 ep3 hrk h48 (by omega) (hcol c)
    rw [piece_miss_col vM fc o3 i3 _ _ r c k 48 eo3 (Or.inl (by omega))]
    by_cases h32 : 32 ≤ c.val
    · exact piece_hit vM vG fc g o2 p2 i2 j2 h1 h2 _ r c (col c) k 32 B eo2 ep2 hrk h32 (by omega) (hcol c)
    rw [piece_miss_col vM fc o2 i2 _ _ r c k 32 eo2 (Or.inl (by omega))]
    by_cases h16 : 16 ≤ c.val
    · exact piece_hit vM vG fc g o1 p1 i1 j1 h1 h2 _ r c (col c) k 16 B eo1 ep1 hrk h16 (by omega) (hcol c)
    rw [piece_miss_col vM fc o1 i1 _ _ r c k 16 eo1 (Or.inl (by omega))]
    exact piece_hit vM vG fc g o0 p0 i0 j0 h1 h2 _ r c (col c) k 0 B eo0 ep0 hrk (Nat.zero_le _) (by omega) (hcol c)

end Trip

/-! ## The four half buffers -/

section Steps

variable (d : Dev nD) (L : grid0.Coords)

theorem row_step_sC0 (fc : Buf (Elt F) (View.loc (V d (cV L) (jV L)) (sC0 : Memref sig .scVector .vmem S128x64 .f32).view))
    (g : Buf (Elt F) (View.loc (V d (cV L) (jV L)) (sG0 : Memref sig .scVector .vmem S128x128 .f32).view)) (k : Nat)
    (hc : ∀ (r : Fin 128) (c : Fin 64), r.val < k → fc (ix2 r c) = g (ix2 r (⟨c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 48]) (eo2 : o2 = ![k, 32]) (ep2 : p2 = ![k, 32])
    (eo1 : o1 = ![k, 16]) (ep1 : p1 = ![k, 16]) (eo0 : o0 = ![k, 0]) (ep0 : p0 = ![k, 0]) :
    ∀ (r : Fin 128) (c : Fin 64), r.val < k + 1 →
      (sC0 : Memref sig .scVector .vmem S128x64 .f32).view.writes (Elt F) fc
        [(⟨Rect.unit (s := S128x64) o3 S1x16.size i3,
            shapeCast S1x16 (shapeCast S16 (View.readAt (Elt F) (sG0 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG0 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG0 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG0 : Memref sig .scVector .vmem S128x128 .f32).view (Rect.unit (s := S128x128) p0 S1x16.size j0).toLoadRect g) h1) h2⟩ : View.Piece (Elt F) S128x64 .f32)] (ix2 r c)
        = g (ix2 r (⟨c.val, by omega⟩ : Fin 128)) :=
  fun r c hr => row_step_core (sC0 : Memref sig .scVector .vmem S128x64 .f32).view (sG0 : Memref sig .scVector .vmem S128x128 .f32).view fc g 0 (fun c => (⟨c.val, by omega⟩ : Fin 128))
    (fun c => (Nat.zero_add c.val).symm) k hc o3 o2 o1 o0 p3 p2 p1 p0 i3 j3 i2 j2 i1 j1 i0 j0 h1 h2 eo3 ep3 eo2 ep2 eo1 ep1 eo0 ep0 r c hr

theorem row_step_sS0 (fc : Buf (Elt F) (View.loc (V d (cV L) (jV L)) (sS0 : Memref sig .scVector .vmem S128x64 .f32).view))
    (g : Buf (Elt F) (View.loc (V d (cV L) (jV L)) (sG0 : Memref sig .scVector .vmem S128x128 .f32).view)) (k : Nat)
    (hc : ∀ (r : Fin 128) (c : Fin 64), r.val < k → fc (ix2 r c) = g (ix2 r (⟨64 + c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 112]) (eo2 : o2 = ![k, 32]) (ep2 : p2 = ![k, 96])
    (eo1 : o1 = ![k, 16]) (ep1 : p1 = ![k, 80]) (eo0 : o0 = ![k, 0]) (ep0 : p0 = ![k, 64]) :
    ∀ (r : Fin 128) (c : Fin 64), r.val < k + 1 →
      (sS0 : Memref sig .scVector .vmem S128x64 .f32).view.writes (Elt F) fc
        [(⟨Rect.unit (s := S128x64) o3 S1x16.size i3,
            shapeCast S1x16 (shapeCast S16 (View.readAt (Elt F) (sG0 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG0 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG0 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG0 : Memref sig .scVector .vmem S128x128 .f32).view (Rect.unit (s := S128x128) p0 S1x16.size j0).toLoadRect g) h1) h2⟩ : View.Piece (Elt F) S128x64 .f32)] (ix2 r c)
        = g (ix2 r (⟨64 + c.val, by omega⟩ : Fin 128)) :=
  fun r c hr => row_step_core (sS0 : Memref sig .scVector .vmem S128x64 .f32).view (sG0 : Memref sig .scVector .vmem S128x128 .f32).view fc g 64 (fun c => (⟨64 + c.val, by omega⟩ : Fin 128))
    (fun c => rfl) k hc o3 o2 o1 o0 p3 p2 p1 p0 i3 j3 i2 j2 i1 j1 i0 j0 h1 h2 eo3 ep3 eo2 ep2 eo1 ep1 eo0 ep0 r c hr

theorem row_step_sC1 (fc : Buf (Elt F) (View.loc (V d (cV L) (jV L)) (sC1 : Memref sig .scVector .vmem S128x64 .f32).view))
    (g : Buf (Elt F) (View.loc (V d (cV L) (jV L)) (sG1 : Memref sig .scVector .vmem S128x128 .f32).view)) (k : Nat)
    (hc : ∀ (r : Fin 128) (c : Fin 64), r.val < k → fc (ix2 r c) = g (ix2 r (⟨c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 48]) (eo2 : o2 = ![k, 32]) (ep2 : p2 = ![k, 32])
    (eo1 : o1 = ![k, 16]) (ep1 : p1 = ![k, 16]) (eo0 : o0 = ![k, 0]) (ep0 : p0 = ![k, 0]) :
    ∀ (r : Fin 128) (c : Fin 64), r.val < k + 1 →
      (sC1 : Memref sig .scVector .vmem S128x64 .f32).view.writes (Elt F) fc
        [(⟨Rect.unit (s := S128x64) o3 S1x16.size i3,
            shapeCast S1x16 (shapeCast S16 (View.readAt (Elt F) (sG1 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG1 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG1 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG1 : Memref sig .scVector .vmem S128x128 .f32).view (Rect.unit (s := S128x128) p0 S1x16.size j0).toLoadRect g) h1) h2⟩ : View.Piece (Elt F) S128x64 .f32)] (ix2 r c)
        = g (ix2 r (⟨c.val, by omega⟩ : Fin 128)) :=
  fun r c hr => row_step_core (sC1 : Memref sig .scVector .vmem S128x64 .f32).view (sG1 : Memref sig .scVector .vmem S128x128 .f32).view fc g 0 (fun c => (⟨c.val, by omega⟩ : Fin 128))
    (fun c => (Nat.zero_add c.val).symm) k hc o3 o2 o1 o0 p3 p2 p1 p0 i3 j3 i2 j2 i1 j1 i0 j0 h1 h2 eo3 ep3 eo2 ep2 eo1 ep1 eo0 ep0 r c hr

theorem row_step_sS1 (fc : Buf (Elt F) (View.loc (V d (cV L) (jV L)) (sS1 : Memref sig .scVector .vmem S128x64 .f32).view))
    (g : Buf (Elt F) (View.loc (V d (cV L) (jV L)) (sG1 : Memref sig .scVector .vmem S128x128 .f32).view)) (k : Nat)
    (hc : ∀ (r : Fin 128) (c : Fin 64), r.val < k → fc (ix2 r c) = g (ix2 r (⟨64 + c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 112]) (eo2 : o2 = ![k, 32]) (ep2 : p2 = ![k, 96])
    (eo1 : o1 = ![k, 16]) (ep1 : p1 = ![k, 80]) (eo0 : o0 = ![k, 0]) (ep0 : p0 = ![k, 64]) :
    ∀ (r : Fin 128) (c : Fin 64), r.val < k + 1 →
      (sS1 : Memref sig .scVector .vmem S128x64 .f32).view.writes (Elt F) fc
        [(⟨Rect.unit (s := S128x64) o3 S1x16.size i3,
            shapeCast S1x16 (shapeCast S16 (View.readAt (Elt F) (sG1 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG1 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG1 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG1 : Memref sig .scVector .vmem S128x128 .f32).view (Rect.unit (s := S128x128) p0 S1x16.size j0).toLoadRect g) h1) h2⟩ : View.Piece (Elt F) S128x64 .f32)] (ix2 r c)
        = g (ix2 r (⟨64 + c.val, by omega⟩ : Fin 128)) :=
  fun r c hr => row_step_core (sS1 : Memref sig .scVector .vmem S128x64 .f32).view (sG1 : Memref sig .scVector .vmem S128x128 .f32).view fc g 64 (fun c => (⟨64 + c.val, by omega⟩ : Fin 128))
    (fun c => rfl) k hc o3 o2 o1 o0 p3 p2 p1 p0 i3 j3 i2 j2 i1 j1 i0 j0 h1 h2 eo3 ep3 eo2 ep2 eo1 ep1 eo0 ep0 r c hr

end Steps

end Cert.KernelIdeal.Run

end
-- ==== Proof.KI.OutPiece.lean ====
/-
  A chunk written whole through its slice of a result, read back element by element: the slice of 128 rows at row
  128·p embeds (r, c) at (128·p + r, c), every element of the slice is such an image, and one unmasked write of a
  whole-rectangle payload through the slice leaves the payload's entry (r, c) there.
-/
import proofs.«205335_g28930899706033_cont_9to1_1924_12_alg».proof.Proof.KI.Tile
import Idealize.ShloMosaic.Lib.Writes
import Idealize.ShloMosaic.Lib.Pipeline.Value

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section OutPiece

variable [FloatOps F]

/-- A chunk of the first result written whole through its slice: every element of the slice is entry (r, c) of the chunk, row
    128·p + r of the array, and holds the payload's entry (r, c). -/
theorem out0_piece (off : Fin 2 → ℕ) (hO : ∀ a, off a + S128x64.size a ≤ S32768x64.size a) (p : ℕ) (hp : p < 256) (eO : off = ![128 * p, 0])
    (fo : (o0V : Memref sig .scVector .hbm S32768x64 .f32).view.ty.Contents (Elt F)) (w : S128x64.Idx → Elt F .f32) :
    ∀ i ∈ ((o0V : Memref sig .scVector .hbm S32768x64 .f32).slice (Rect.unit (s := S32768x64) off S128x64.size hO) (fun _ => rfl)).view.set,
      ∃ (r : Fin 128) (c : Fin 64), i = (ix2 (⟨128 * p + r.val, by omega⟩ : Fin 32768) c : S32768x64.Idx)
        ∧ ((o0V : Memref sig .scVector .hbm S32768x64 .f32).slice (Rect.unit (s := S32768x64) off S128x64.size hO) (fun _ => rfl)).view.writes (Elt F) fo [⟨Rect.whole S128x64, w⟩] i = w (ix2 r c) := by
  intro i hi
  obtain ⟨y, rfl⟩ := View.exists_emb_of_mem_set _ hi
  obtain ⟨r, c, rfl⟩ : ∃ (r : Fin 128) (c : Fin 64), y = ix2 r c := ⟨_, _, eq_ix2 y⟩
  refine ⟨r, c, ?_, ?_⟩
  · subst eO
    funext a
    refine Fin.ext ?_
    match a with
    | ⟨0, _⟩ => show 128 * p + 1 * r.val = 128 * p + r.val; omega
    | ⟨1, _⟩ => show 0 + 1 * c.val = c.val; omega
  · have e : (Rect.whole S128x64).emb (ix2 r c) = ix2 r c := Rect.emb_whole_apply S128x64 (ix2 r c)
    have h := View.read_writes_cons_emb ((o0V : Memref sig .scVector .hbm S32768x64 .f32).slice (Rect.unit (s := S32768x64) off S128x64.size hO) (fun _ => rfl)).view
      fo (Rect.whole S128x64) w [] (ix2 r c)
    exact (congrArg (fun y => ((o0V : Memref sig .scVector .hbm S32768x64 .f32).slice (Rect.unit (s := S32768x64) off S128x64.size hO) (fun _ => rfl)).view.writes (Elt F) fo [⟨Rect.whole S128x64, w⟩]
      (((o0V : Memref sig .scVector .hbm S32768x64 .f32).slice (Rect.unit (s := S32768x64) off S128x64.size hO) (fun _ => rfl)).view.emb y)) e).symm.trans h

/-- A chunk of the second result written whole through its slice: every element of the slice is entry (r, c) of the chunk, row
    128·p + r of the array, and holds the payload's entry (r, c). -/
theorem out1_piece (off : Fin 2 → ℕ) (hO : ∀ a, off a + S128x64.size a ≤ S32768x64.size a) (p : ℕ) (hp : p < 256) (eO : off = ![128 * p, 0])
    (fo : (o1V : Memref sig .scVector .hbm S32768x64 .f32).view.ty.Contents (Elt F)) (w : S128x64.Idx → Elt F .f32) :
    ∀ i ∈ ((o1V : Memref sig .scVector .hbm S32768x64 .f32).slice (Rect.unit (s := S32768x64) off S128x64.size hO) (fun _ => rfl)).view.set,
      ∃ (r : Fin 128) (c : Fin 64), i = (ix2 (⟨128 * p + r.val, by omega⟩ : Fin 32768) c : S32768x64.Idx)
        ∧ ((o1V : Memref sig .scVector .hbm S32768x64 .f32).slice (Rect.unit (s := S32768x64) off S128x64.size hO) (fun _ => rfl)).view.writes (Elt F) fo [⟨Rect.whole S128x64, w⟩] i = w (ix2 r c) := by
  intro i hi
  obtain ⟨y, rfl⟩ := View.exists_emb_of_mem_set _ hi
  obtain ⟨r, c, rfl⟩ : ∃ (r : Fin 128) (c : Fin 64), y = ix2 r c := ⟨_, _, eq_ix2 y⟩
  refine ⟨r, c, ?_, ?_⟩
  · subst eO
    funext a
    refine Fin.ext ?_
    match a with
    | ⟨0, _⟩ => show 128 * p + 1 * r.val = 128 * p + r.val; omega
    | ⟨1, _⟩ => show 0 + 1 * c.val = c.val; omega
  · have e : (Rect.whole S128x64).emb (ix2 r c) = ix2 r c := Rect.emb_whole_apply S128x64 (ix2 r c)
    have h := View.read_writes_cons_emb ((o1V : Memref sig .scVector .hbm S32768x64 .f32).slice (Rect.unit (s := S32768x64) off S128x64.size hO) (fun _ => rfl)).view
      fo (Rect.whole S128x64) w [] (ix2 r c)
    exact (congrArg (fun y => ((o1V : Memref sig .scVector .hbm S32768x64 .f32).slice (Rect.unit (s := S32768x64) off S128x64.size hO) (fun _ => rfl)).view.writes (Elt F) fo [⟨Rect.whole S128x64, w⟩]
      (((o1V : Memref sig .scVector .hbm S32768x64 .f32).slice (Rect.unit (s := S32768x64) off S128x64.size hO) (fun _ => rfl)).view.emb y)) e).symm.trans h

end OutPiece

end Cert.KernelIdeal.Run

end
-- ==== Proof.KI.Chunk.lean ====
/-
  What a finished chunk holds. Chunk j of worker w is rows 128(8w+j) … 128(8w+j)+127 of a result; row r of it was copied from
  the half buffer's row r, which is half of the gathered row r, which is the table's row named by word r of row j of the
  worker's copy of the positions, i.e. by the positions at (8w+j, r) — the row that result row 128(8w+j)+r is to hold.
-/
import proofs.«205335_g28930899706033_cont_9to1_1924_12_alg».proof.Proof.KI.Tile
import Idealize.ShloMosaic.Lib.Writes
import Idealize.ShloMosaic.Lib.SparseCore.Stream
import Idealize.ShloMosaic.Lib.Pipeline.Value
import proofs.«205335_g28930899706033_cont_9to1_1924_12_alg».proof.Proof.KI.OutPiece

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Chunk

variable [FloatOps F]
variable (ps : (d : Dev nD) → Buf (Elt F) (psLoc d)) (tb : (d : Dev nD) → Buf (Elt F) (tbLoc d))
variable (d : Dev nD) (L : grid0.Coords)
omit [FloatOps F] in
/-- Two rank-2 indices with equal coordinates are equal. -/
theorem ix2_congr {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]
/-- Word r of row j of the worker's copy of the positions is the positions' word at (8w + j, r). -/
theorem idx_word (fi : Buf (Elt F) ((V d (cV L) (jV L)).loc cc0_scratch0)) (offR : Fin 2 → ℕ) (hR : ∀ a, offR a + S1x128.size a ≤ S8x128.size a)
    (j : ℕ) (hj : j < 8) (eR : offR = ![j, 0]) (r : Fin 128) :
    View.read (Elt F) (((sIx : Memref sig .scVector .vmem S8x128 .i32).slice (Rect.unit (s := S8x128) offR S1x128.size hR) (fun _ => rfl)).squeeze S128 squeezes_S1x128_S128).view
      (View.write (Elt F) (sIx : Memref sig .scVector .vmem S8x128 .i32).view fi (ReadAs.same.apply (View.read (Elt F) (psK L).view (ps d))) Finset.univ) (ix1 r)
    = ps d (ix2 (⟨(wL L).val * 8 + j, by have := (wL L).isLt; omega⟩ : Fin 256) r) := by
  have e : View.write (Elt F) (sIx : Memref sig .scVector .vmem S8x128 .i32).view fi (ReadAs.same.apply (View.read (Elt F) (psK L).view (ps d))) Finset.univ
      = ReadAs.same.apply (View.read (Elt F) (psK L).view (ps d)) := View.write_whole_univ _ _ _
  rw [e, View.read_apply]
  show (View.read (Elt F) (psK L).view (ps d) _) = _
  rw [View.read_apply]
  refine (cast_eq _ _).trans (congrArg (ps d) ?_)
  have hre : Shape.reshapeEquiv (s := S1x128) (s' := S128) squeezes_S1x128_S128.numel_eq (ix1 r) = (ix2 (0 : Fin 1) r : S1x128.Idx) :=
    Shape.reshapeEquiv_eq_of_rowMajor _ (by rw [Shape.rowMajor_val_two, Shape.rowMajor_val_one]; simp)
  subst eR
  funext a
  apply Fin.ext
  match a with
  | ⟨0, _⟩ =>
    show k0_off1 L 0 + 1 * ((![j, 0] : Fin 2 → ℕ) 0 + 1 * ((Shape.reshapeEquiv (s := S1x128) (s' := S128) squeezes_S1x128_S128.numel_eq (ix1 r)) 0).val) = (wL L).val * 8 + j
    rw [hre, k0_off1_eq]
    simp [wid]; omega
  | ⟨1, _⟩ =>
    show k0_off1 L 1 + 1 * ((![j, 0] : Fin 2 → ℕ) 1 + 1 * ((Shape.reshapeEquiv (s := S1x128) (s' := S128) squeezes_S1x128_S128.numel_eq (ix1 r)) 1).val) = r.val
    rw [hre, k0_off1_eq]
    simp
/-- Entry (r, c') of gather buffer 0 after the gather of row j of the worker's positions: the table's entry c' of the row the
    positions name at (8w + j, r). -/
theorem gbuf_val0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (r : Fin 128) (c' : Fin 128) :
    (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩] (ix2 r c')
      = tb d (ix2 (⟨(show BitVec 32 from ps d (ix2 (⟨(wL L).val * 8 + j, by have := (wL L).isLt; omega⟩ : Fin 256) r)).toNat % 32768, Nat.mod_lt _ (by decide)⟩ : Fin 32768) c') := by
  have h1 := View.read_writes_cons_emb (v := (sG0 : Memref sig .scVector .vmem S128x128 .f32).view) fg (Rect.whole S128x128)
    (SparseCore.gatherPayload HG (View.read (Elt F) ((tbV : Memref sig .scVector .hbm S32768x128 .f32).slice (Rect.unit (s := S32768x128) ![0, 0] S32768x128.size i0) (fun _ => rfl)).view (tb d)) (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')) [] (ix2 r c')
  rw [Rect.emb_whole_apply] at h1
  refine (show _ = _ from h1).trans ?_
  unfold SparseCore.gatherPayload
  rw [View.read_apply]
  refine (cast_eq _ _).trans (congrArg (tb d) ?_)
  have hsym : ∀ (k : Fin (S128x128.size HG.axis')), k.val = r.val → S128.rowMajor.symm (k.cast hn.symm) = (ix1 r : S128.Idx) := by
    intro k hk
    rw [Equiv.symm_apply_eq]
    apply Fin.ext
    rw [Shape.rowMajor_val_one]
    exact hk
  have hax := Shape.Gathers.idx_axis HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')
  have h0 : ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val
      = (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (ix1 r)).toNat := by
    rw [hax]
    show (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (S128.rowMajor.symm (Fin.cast hn.symm ((ix2 r c' : S128x128.Idx) HG.axis')))).toNat = _
    rw [hsym _ rfl]
  have h1' := Shape.Gathers.idx_of_ne HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c') (1 : Fin 2) (by decide)
  funext a
  apply Fin.ext
  match a with
  | ⟨0, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val = _
    rw [h0, idx_word ps d L fi offR hR j hj eR r, Nat.zero_add, Nat.one_mul]
    exact (Nat.mod_eq_of_lt (hps _)).symm
  | ⟨1, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) (1 : Fin 2)).val = c'.val
    rw [h1', Nat.zero_add, Nat.one_mul]
    rfl

/-- Entry (r, c') of gather buffer 1 after the gather of row j of the worker's positions: the table's entry c' of the row the
    positions name at (8w + j, r). -/
theorem gbuf_val1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (r : Fin 128) (c' : Fin 128) :
    (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩] (ix2 r c')
      = tb d (ix2 (⟨(show BitVec 32 from ps d (ix2 (⟨(wL L).val * 8 + j, by have := (wL L).isLt; omega⟩ : Fin 256) r)).toNat % 32768, Nat.mod_lt _ (by decide)⟩ : Fin 32768) c') := by
  have h1 := View.read_writes_cons_emb (v := (sG1 : Memref sig .scVector .vmem S128x128 .f32).view) fg (Rect.whole S128x128)
    (SparseCore.gatherPayload HG (View.read (Elt F) ((tbV : Memref sig .scVector .hbm S32768x128 .f32).slice (Rect.unit (s := S32768x128) ![0, 0] S32768x128.size i0) (fun _ => rfl)).view (tb d)) (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')) [] (ix2 r c')
  rw [Rect.emb_whole_apply] at h1
  refine (show _ = _ from h1).trans ?_
  unfold SparseCore.gatherPayload
  rw [View.read_apply]
  refine (cast_eq _ _).trans (congrArg (tb d) ?_)
  have hsym : ∀ (k : Fin (S128x128.size HG.axis')), k.val = r.val → S128.rowMajor.symm (k.cast hn.symm) = (ix1 r : S128.Idx) := by
    intro k hk
    rw [Equiv.symm_apply_eq]
    apply Fin.ext
    rw [Shape.rowMajor_val_one]
    exact hk
  have hax := Shape.Gathers.idx_axis HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')
  have h0 : ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val
      = (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (ix1 r)).toNat := by
    rw [hax]
    show (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (S128.rowMajor.symm (Fin.cast hn.symm ((ix2 r c' : S128x128.Idx) HG.axis')))).toNat = _
    rw [hsym _ rfl]
  have h1' := Shape.Gathers.idx_of_ne HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c') (1 : Fin 2) (by decide)
  funext a
  apply Fin.ext
  match a with
  | ⟨0, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val = _
    rw [h0, idx_word ps d L fi offR hR j hj eR r, Nat.zero_add, Nat.one_mul]
    exact (Nat.mod_eq_of_lt (hps _)).symm
  | ⟨1, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) (1 : Fin 2)).val = c'.val
    rw [h1', Nat.zero_add, Nat.one_mul]
    rfl
/-- A finished chunk of result 0 copied out of half buffer sC0: on its rows it holds the looked-up rows. -/
theorem chunk_fix0_s0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG0 : Memref sig .scVector .vmem S128x128 .f32).view))
    (hg : g = (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sC0 : Memref sig .scVector .vmem S128x64 .f32).view)) (T : ℕ) (hT : T = 128)
    (hc : ∀ (r : Fin 128) (c : Fin 64), r.val < T → fc (ix2 r c) = g (ix2 r (⟨c.val, by omega⟩ : Fin 128)))
    (off : Fin 2 → ℕ) (hO : ∀ a, off a + S128x64.size a ≤ S32768x64.size a)
    (eO : off = ![2048 * (L 1).val + 1024 * (L 0).val + 128 * j, 0])
    (hset : ((o0V : Memref sig .scVector .hbm S32768x64 .f32).slice (Rect.unit (s := S32768x64) off S128x64.size hO) (fun _ => rfl)).view.set = chunkSet (chunkOf (wL L) ⟨j, hj⟩))
    (fo : ((o0V : Memref sig .scVector .hbm S32768x64 .f32).slice (Rect.unit (s := S32768x64) off S128x64.size hO) (fun _ => rfl)).view.ty.Contents (Elt F)) :
    (((o0V : Memref sig .scVector .hbm S32768x64 .f32).slice (Rect.unit (s := S32768x64) off S128x64.size hO) (fun _ => rfl)).view.loc (V d (cV L) (jV L)) ↦[((o0V : Memref sig .scVector .hbm S32768x64 .f32).slice (Rect.unit (s := S32768x64) off S128x64.size hO) (fun _ => rfl)).view.set]{fullShare}
        ((o0V : Memref sig .scVector .hbm S32768x64 .f32).slice (Rect.unit (s := S32768x64) off S128x64.size hO) (fun _ => rfl)).view.writes (Elt F) fo [⟨Rect.whole S128x64, ReadAs.same.apply (View.read (Elt F) (sC0 : Memref sig .scVector .vmem S128x64 .f32).view fc)⟩] : sProp 𝕄)
      = o0Loc d ↦[chunkSet (chunkOf (wL L) ⟨j, hj⟩)]{fullShare} G0 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out0_piece off hO ((wL L).val * 8 + j) (by omega) eO' fo (ReadAs.same.apply (View.read (Elt F) (sC0 : Memref sig .scVector .vmem S128x64 .f32).view fc)) i hi
  rw [hval]
  show fc (ix2 r c) = _
  rw [hc r c (hT ▸ r.isLt), hg, gbuf_val0 ps tb d L hps fi fg offR hR j hj eR HG i0 hn hin' r _]
  unfold G0 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 0 copied out of half buffer sC1: on its rows it holds the looked-up rows. -/
theorem chunk_fix0_s1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG1 : Memref sig .scVector .vmem S128x128 .f32).view))
    (hg : g = (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sC1 : Memref sig .scVector .vmem S128x64 .f32).view)) (T : ℕ) (hT : T = 128)
    (hc : ∀ (r : Fin 128) (c : Fin 64), r.val < T → fc (ix2 r c) = g (ix2 r (⟨c.val, by omega⟩ : Fin 128)))
    (off : Fin 2 → ℕ) (hO : ∀ a, off a + S128x64.size a ≤ S32768x64.size a)
    (eO : off = ![2048 * (L 1).val + 1024 * (L 0).val + 128 * j, 0])
    (hset : ((o0V : Memref sig .scVector .hbm S32768x64 .f32).slice (Rect.unit (s := S32768x64) off S128x64.size hO) (fun _ => rfl)).view.set = chunkSet (chunkOf (wL L) ⟨j, hj⟩))
    (fo : ((o0V : Memref sig .scVector .hbm S32768x64 .f32).slice (Rect.unit (s := S32768x64) off S128x64.size hO) (fun _ => rfl)).view.ty.Contents (Elt F)) :
    (((o0V : Memref sig .scVector .hbm S32768x64 .f32).slice (Rect.unit (s := S32768x64) off S128x64.size hO) (fun _ => rfl)).view.loc (V d (cV L) (jV L)) ↦[((o0V : Memref sig .scVector .hbm S32768x64 .f32).slice (Rect.unit (s := S32768x64) off S128x64.size hO) (fun _ => rfl)).view.set]{fullShare}
        ((o0V : Memref sig .scVector .hbm S32768x64 .f32).slice (Rect.unit (s := S32768x64) off S128x64.size hO) (fun _ => rfl)).view.writes (Elt F) fo [⟨Rect.whole S128x64, ReadAs.same.apply (View.read (Elt F) (sC1 : Memref sig .scVector .vmem S128x64 .f32).view fc)⟩] : sProp 𝕄)
      = o0Loc d ↦[chunkSet (chunkOf (wL L) ⟨j, hj⟩)]{fullShare} G0 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out0_piece off hO ((wL L).val * 8 + j) (by omega) eO' fo (ReadAs.same.apply (View.read (Elt F) (sC1 : Memref sig .scVector .vmem S128x64 .f32).view fc)) i hi
  rw [hval]
  show fc (ix2 r c) = _
  rw [hc r c (hT ▸ r.isLt), hg, gbuf_val1 ps tb d L hps fi fg offR hR j hj eR HG i0 hn hin' r _]
  unfold G0 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 1 copied out of half buffer sS0: on its rows it holds the looked-up rows. -/
theorem chunk_fix1_s0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG0 : Memref sig .scVector .vmem S128x128 .f32).view))
    (hg : g = (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sS0 : Memref sig .scVector .vmem S128x64 .f32).view)) (T : ℕ) (hT : T = 128)
    (hc : ∀ (r : Fin 128) (c : Fin 64), r.val < T → fc (ix2 r c) = g (ix2 r (⟨64 + c.val, by omega⟩ : Fin 128)))
    (off : Fin 2 → ℕ) (hO : ∀ a, off a + S128x64.size a ≤ S32768x64.size a)
    (eO : off = ![2048 * (L 1).val + 1024 * (L 0).val + 128 * j, 0])
    (hset : ((o1V : Memref sig .scVector .hbm S32768x64 .f32).slice (Rect.unit (s := S32768x64) off S128x64.size hO) (fun _ => rfl)).view.set = chunkSet (chunkOf (wL L) ⟨j, hj⟩))
    (fo : ((o1V : Memref sig .scVector .hbm S32768x64 .f32).slice (Rect.unit (s := S32768x64) off S128x64.size hO) (fun _ => rfl)).view.ty.Contents (Elt F)) :
    (((o1V : Memref sig .scVector .hbm S32768x64 .f32).slice (Rect.unit (s := S32768x64) off S128x64.size hO) (fun _ => rfl)).view.loc (V d (cV L) (jV L)) ↦[((o1V : Memref sig .scVector .hbm S32768x64 .f32).slice (Rect.unit (s := S32768x64) off S128x64.size hO) (fun _ => rfl)).view.set]{fullShare}
        ((o1V : Memref sig .scVector .hbm S32768x64 .f32).slice (Rect.unit (s := S32768x64) off S128x64.size hO) (fun _ => rfl)).view.writes (Elt F) fo [⟨Rect.whole S128x64, ReadAs.same.apply (View.read (Elt F) (sS0 : Memref sig .scVector .vmem S128x64 .f32).view fc)⟩] : sProp 𝕄)
      = o1Loc d ↦[chunkSet (chunkOf (wL L) ⟨j, hj⟩)]{fullShare} G1 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out1_piece off hO ((wL L).val * 8 + j) (by omega) eO' fo (ReadAs.same.apply (View.read (Elt F) (sS0 : Memref sig .scVector .vmem S128x64 .f32).view fc)) i hi
  rw [hval]
  show fc (ix2 r c) = _
  rw [hc r c (hT ▸ r.isLt), hg, gbuf_val0 ps tb d L hps fi fg offR hR j hj eR HG i0 hn hin' r _]
  unfold G1 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 1 copied out of half buffer sS1: on its rows it holds the looked-up rows. -/
theorem chunk_fix1_s1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG1 : Memref sig .scVector .vmem S128x128 .f32).view))
    (hg : g = (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sS1 : Memref sig .scVector .vmem S128x64 .f32).view)) (T : ℕ) (hT : T = 128)
    (hc : ∀ (r : Fin 128) (c : Fin 64), r.val < T → fc (ix2 r c) = g (ix2 r (⟨64 + c.val, by omega⟩ : Fin 128)))
    (off : Fin 2 → ℕ) (hO : ∀ a, off a + S128x64.size a ≤ S32768x64.size a)
    (eO : off = ![2048 * (L 1).val + 1024 * (L 0).val + 128 * j, 0])
    (hset : ((o1V : Memref sig .scVector .hbm S32768x64 .f32).slice (Rect.unit (s := S32768x64) off S128x64.size hO) (fun _ => rfl)).view.set = chunkSet (chunkOf (wL L) ⟨j, hj⟩))
    (fo : ((o1V : Memref sig .scVector .hbm S32768x64 .f32).slice (Rect.unit (s := S32768x64) off S128x64.size hO) (fun _ => rfl)).view.ty.Contents (Elt F)) :
    (((o1V : Memref sig .scVector .hbm S32768x64 .f32).slice (Rect.unit (s := S32768x64) off S128x64.size hO) (fun _ => rfl)).view.loc (V d (cV L) (jV L)) ↦[((o1V : Memref sig .scVector .hbm S32768x64 .f32).slice (Rect.unit (s := S32768x64) off S128x64.size hO) (fun _ => rfl)).view.set]{fullShare}
        ((o1V : Memref sig .scVector .hbm S32768x64 .f32).slice (Rect.unit (s := S32768x64) off S128x64.size hO) (fun _ => rfl)).view.writes (Elt F) fo [⟨Rect.whole S128x64, ReadAs.same.apply (View.read (Elt F) (sS1 : Memref sig .scVector .vmem S128x64 .f32).view fc)⟩] : sProp 𝕄)
      = o1Loc d ↦[chunkSet (chunkOf (wL L) ⟨j, hj⟩)]{fullShare} G1 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out1_piece off hO ((wL L).val * 8 + j) (by omega) eO' fo (ReadAs.same.apply (View.read (Elt F) (sS1 : Memref sig .scVector .vmem S128x64 .f32).view fc)) i hi
  rw [hval]
  show fc (ix2 r c) = _
  rw [hc r c (hT ▸ r.isLt), hg, gbuf_val1 ps tb d L hps fi fg offR hR j hj eR HG i0 hn hin' r _]
  unfold G1 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

end Chunk

end Cert.KernelIdeal.Run

end
-- ==== Proof.KI.Body.lean ====
/-
  One worker's task, run symbolically: the copy of its rows of positions, the eight chunk gathers (two in flight, on
  two buffers), the split of each gathered chunk's rows into their two halves, and the sixteen copies out.
-/
import proofs.«205335_g28930899706033_cont_9to1_1924_12_alg».proof.Proof.KI.Tile
import proofs.«205335_g28930899706033_cont_9to1_1924_12_alg».proof.Proof.KI.Rows
import proofs.«205335_g28930899706033_cont_9to1_1924_12_alg».proof.Proof.KI.Chunk

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Tile

variable [FloatOps F]
variable (ps : (d : Dev nD) → Buf (Elt F) (psLoc d)) (tb : (d : Dev nD) → Buf (Elt F) (tbLoc d))
variable (d : Dev nD) (L : grid0.Coords)

omit [FloatOps F] in
/-- The worker's own semaphores: the seven the kernel names, and the rest. -/
theorem ownSems0_V :
    (ownSems0 (V d (cV L) (jV L)) : sProp 𝕄)
      = iprop(semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scratch11.sem) : GSem nD τ sig) 0 ∗ semVal (((V d (cV L) (jV L)), SemLoc.dma cc0_scratch12.sem) : GSem nD τ sig) 0 ∗ semVal (((V d (cV L) (jV L)), SemLoc.dma cc0_scoped0.sem) : GSem nD τ sig) 0
          ∗ bigSep ((((((((ownCells (V d (cV L) (jV L))).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scoped0.sem) : GSem nD τ sig)) fun g => semVal g 0) := by
  unfold SparseCore.Cfg.ownSems0
  rw [SparseCore.bigSep_erase' ((mem_ownCells (g := (((V d (cV L) (jV L)), SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (((V d (cV L) (jV L)), SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩⟩)]

omit [FloatOps F] in
/-- The worker's own buffers: the seven scratch buffers the kernel names, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

omit [FloatOps F] in
theorem pts_psK (f : Buf (Elt F) (psLoc d)) :
    ((psK L).view.loc (V d (cV L) (jV L)) ↦[(psK L).view.set]{fullShare} f : sProp 𝕄) = psLoc d ↦[posSet (wL L)]{fullShare} f := by
  rw [set_psK]
omit [FloatOps F] in
theorem pts_tb (q : PosShare TreeShare) (f : Buf (Elt F) (tbLoc d)) :
    ((tbV : Memref sig .scVector .hbm S32768x128 .f32).view.loc (V d (cV L) (jV L)) ↦{q} f : sProp 𝕄) = tbLoc d ↦{q} f := by
  simp only [Memref.view_whole, View.set_whole]
omit [FloatOps F] in
theorem pts_out0K0 (f : Buf (Elt F) (o0Loc d)) :
    ((out0K0 L).view.loc (V d (cV L) (jV L)) ↦[(out0K0 L).view.set]{fullShare} f : sProp 𝕄) = o0Loc d ↦[chunkSet (chunkOf (wL L) 0)]{fullShare} f := by
  rw [set_out0K0]
omit [FloatOps F] in
theorem pts_out1K0 (f : Buf (Elt F) (o1Loc d)) :
    ((out1K0 L).view.loc (V d (cV L) (jV L)) ↦[(out1K0 L).view.set]{fullShare} f : sProp 𝕄) = o1Loc d ↦[chunkSet (chunkOf (wL L) 0)]{fullShare} f := by
  rw [set_out1K0]
omit [FloatOps F] in
theorem pts_out0K1 (f : Buf (Elt F) (o0Loc d)) :
    ((out0K1 L).view.loc (V d (cV L) (jV L)) ↦[(out0K1 L).view.set]{fullShare} f : sProp 𝕄) = o0Loc d ↦[chunkSet (chunkOf (wL L) 1)]{fullShare} f := by
  rw [set_out0K1]
omit [FloatOps F] in
theorem pts_out1K1 (f : Buf (Elt F) (o1Loc d)) :
    ((out1K1 L).view.loc (V d (cV L) (jV L)) ↦[(out1K1 L).view.set]{fullShare} f : sProp 𝕄) = o1Loc d ↦[chunkSet (chunkOf (wL L) 1)]{fullShare} f := by
  rw [set_out1K1]
omit [FloatOps F] in
theorem pts_out0K2 (f : Buf (Elt F) (o0Loc d)) :
    ((out0K2 L).view.loc (V d (cV L) (jV L)) ↦[(out0K2 L).view.set]{fullShare} f : sProp 𝕄) = o0Loc d ↦[chunkSet (chunkOf (wL L) 2)]{fullShare} f := by
  rw [set_out0K2]
omit [FloatOps F] in
theorem pts_out1K2 (f : Buf (Elt F) (o1Loc d)) :
    ((out1K2 L).view.loc (V d (cV L) (jV L)) ↦[(out1K2 L).view.set]{fullShare} f : sProp 𝕄) = o1Loc d ↦[chunkSet (chunkOf (wL L) 2)]{fullShare} f := by
  rw [set_out1K2]
omit [FloatOps F] in
theorem pts_out0K3 (f : Buf (Elt F) (o0Loc d)) :
    ((out0K3 L).view.loc (V d (cV L) (jV L)) ↦[(out0K3 L).view.set]{fullShare} f : sProp 𝕄) = o0Loc d ↦[chunkSet (chunkOf (wL L) 3)]{fullShare} f := by
  rw [set_out0K3]
omit [FloatOps F] in
theorem pts_out1K3 (f : Buf (Elt F) (o1Loc d)) :
    ((out1K3 L).view.loc (V d (cV L) (jV L)) ↦[(out1K3 L).view.set]{fullShare} f : sProp 𝕄) = o1Loc d ↦[chunkSet (chunkOf (wL L) 3)]{fullShare} f := by
  rw [set_out1K3]
omit [FloatOps F] in
theorem pts_out0K4 (f : Buf (Elt F) (o0Loc d)) :
    ((out0K4 L).view.loc (V d (cV L) (jV L)) ↦[(out0K4 L).view.set]{fullShare} f : sProp 𝕄) = o0Loc d ↦[chunkSet (chunkOf (wL L) 4)]{fullShare} f := by
  rw [set_out0K4]
omit [FloatOps F] in
theorem pts_out1K4 (f : Buf (Elt F) (o1Loc d)) :
    ((out1K4 L).view.loc (V d (cV L) (jV L)) ↦[(out1K4 L).view.set]{fullShare} f : sProp 𝕄) = o1Loc d ↦[chunkSet (chunkOf (wL L) 4)]{fullShare} f := by
  rw [set_out1K4]
omit [FloatOps F] in
theorem pts_out0K5 (f : Buf (Elt F) (o0Loc d)) :
    ((out0K5 L).view.loc (V d (cV L) (jV L)) ↦[(out0K5 L).view.set]{fullShare} f : sProp 𝕄) = o0Loc d ↦[chunkSet (chunkOf (wL L) 5)]{fullShare} f := by
  rw [set_out0K5]
omit [FloatOps F] in
theorem pts_out1K5 (f : Buf (Elt F) (o1Loc d)) :
    ((out1K5 L).view.loc (V d (cV L) (jV L)) ↦[(out1K5 L).view.set]{fullShare} f : sProp 𝕄) = o1Loc d ↦[chunkSet (chunkOf (wL L) 5)]{fullShare} f := by
  rw [set_out1K5]
omit [FloatOps F] in
theorem pts_out0K6 (f : Buf (Elt F) (o0Loc d)) :
    ((out0K6 L).view.loc (V d (cV L) (jV L)) ↦[(out0K6 L).view.set]{fullShare} f : sProp 𝕄) = o0Loc d ↦[chunkSet (chunkOf (wL L) 6)]{fullShare} f := by
  rw [set_out0K6]
omit [FloatOps F] in
theorem pts_out1K6 (f : Buf (Elt F) (o1Loc d)) :
    ((out1K6 L).view.loc (V d (cV L) (jV L)) ↦[(out1K6 L).view.set]{fullShare} f : sProp 𝕄) = o1Loc d ↦[chunkSet (chunkOf (wL L) 6)]{fullShare} f := by
  rw [set_out1K6]
omit [FloatOps F] in
theorem pts_out0K7 (f : Buf (Elt F) (o0Loc d)) :
    ((out0K7 L).view.loc (V d (cV L) (jV L)) ↦[(out0K7 L).view.set]{fullShare} f : sProp 𝕄) = o0Loc d ↦[chunkSet (chunkOf (wL L) 7)]{fullShare} f := by
  rw [set_out0K7]
omit [FloatOps F] in
theorem pts_out1K7 (f : Buf (Elt F) (o1Loc d)) :
    ((out1K7 L).view.loc (V d (cV L) (jV L)) ↦[(out1K7 L).view.set]{fullShare} f : sProp 𝕄) = o1Loc d ↦[chunkSet (chunkOf (wL L) 7)]{fullShare} f := by
  rw [set_out1K7]

omit [FloatOps F] in
theorem pts_sIx (f : Buf (Elt F) ((V d (cV L) (jV L)).loc cc0_scratch0)) :
    ((sIx : Memref sig .scVector .vmem S8x128 .i32).view.loc (V d (cV L) (jV L)) ↦{fullShare} f : sProp 𝕄) = (V d (cV L) (jV L)).loc cc0_scratch0 ↦{fullShare} f := rfl
omit [FloatOps F] in
theorem pts_sG0 (f : Buf (Elt F) ((V d (cV L) (jV L)).loc cc0_scratch1)) :
    ((sG0 : Memref sig .scVector .vmem S128x128 .f32).view.loc (V d (cV L) (jV L)) ↦{fullShare} f : sProp 𝕄) = (V d (cV L) (jV L)).loc cc0_scratch1 ↦{fullShare} f := rfl
omit [FloatOps F] in
theorem pts_sG1 (f : Buf (Elt F) ((V d (cV L) (jV L)).loc cc0_scratch2)) :
    ((sG1 : Memref sig .scVector .vmem S128x128 .f32).view.loc (V d (cV L) (jV L)) ↦{fullShare} f : sProp 𝕄) = (V d (cV L) (jV L)).loc cc0_scratch2 ↦{fullShare} f := rfl
omit [FloatOps F] in
theorem pts_sC0 (f : Buf (Elt F) ((V d (cV L) (jV L)).loc cc0_scratch3)) :
    ((sC0 : Memref sig .scVector .vmem S128x64 .f32).view.loc (V d (cV L) (jV L)) ↦{fullShare} f : sProp 𝕄) = (V d (cV L) (jV L)).loc cc0_scratch3 ↦{fullShare} f := rfl
omit [FloatOps F] in
theorem pts_sC1 (f : Buf (Elt F) ((V d (cV L) (jV L)).loc cc0_scratch4)) :
    ((sC1 : Memref sig .scVector .vmem S128x64 .f32).view.loc (V d (cV L) (jV L)) ↦{fullShare} f : sProp 𝕄) = (V d (cV L) (jV L)).loc cc0_scratch4 ↦{fullShare} f := rfl
omit [FloatOps F] in
theorem pts_sS0 (f : Buf (Elt F) ((V d (cV L) (jV L)).loc cc0_scratch5)) :
    ((sS0 : Memref sig .scVector .vmem S128x64 .f32).view.loc (V d (cV L) (jV L)) ↦{fullShare} f : sProp 𝕄) = (V d (cV L) (jV L)).loc cc0_scratch5 ↦{fullShare} f := rfl
omit [FloatOps F] in
theorem pts_sS1 (f : Buf (Elt F) ((V d (cV L) (jV L)).loc cc0_scratch6)) :
    ((sS1 : Memref sig .scVector .vmem S128x64 .f32).view.loc (V d (cV L) (jV L)) ↦{fullShare} f : sProp 𝕄) = (V d (cV L) (jV L)).loc cc0_scratch6 ↦{fullShare} f := rfl

theorem list_lt (hps : ∀ j, (show BitVec 32 from ps d j).toNat < 32768)
    (fi : Buf (Elt F) ((V d (cV L) (jV L)).loc cc0_scratch0)) (off : Fin 2 → Nat) (h : ∀ a, off a + S1x128.size a ≤ S8x128.size a) (x : S128.Idx) :
    (View.read (Elt F) (((sIx : Memref sig .scVector .vmem S8x128 .i32).slice (Rect.unit (s := S8x128) off S1x128.size h) (fun _ => rfl)).squeeze S128 squeezes_S1x128_S128).view
      (View.write (Elt F) (sIx : Memref sig .scVector .vmem S8x128 .i32).view fi (ReadAs.same.apply (View.read (Elt F) (psK L).view (ps d))) Finset.univ) x).toNat < 32768 := by
  have e : View.write (Elt F) (sIx : Memref sig .scVector .vmem S8x128 .i32).view fi (ReadAs.same.apply (View.read (Elt F) (psK L).view (ps d))) Finset.univ
      = ReadAs.same.apply (View.read (Elt F) (psK L).view (ps d)) := View.write_whole_univ _ _ _
  rw [e, View.read_apply]
  show (View.read (Elt F) (psK L).view (ps d) _).toNat < 32768
  rw [View.read_apply]
  exact hps _
omit [FloatOps F] in
/-- A buffer's contents, named. -/
theorem name_contents {ℓ : Loc nD τ sig} {q : PosShare TreeShare} (f : Buf (Elt F) ℓ) :
    (ℓ ↦{q} f : sProp 𝕄) ⊢ iprop(∃ g, ⌜g = f⌝ ∗ (ℓ ↦{q} g)) := by
  iintro H; iexists f; isplitr
  · ipureintro; rfl
  · iexact H

omit [FloatOps F] in
/-- The worker's share of the table as two read tokens, one per gather buffer, and a remainder. -/
theorem toks2 (q : PosShare TreeShare) (f : Buf (Elt F) (tbLoc d)) :
    ((tbV : Memref sig .scVector .hbm S32768x128 .f32).view.loc (V d (cV L) (jV L)) ↦{q} f : sProp 𝕄)
      ⊣⊢ iprop(((tbV : Memref sig .scVector .hbm S32768x128 .f32).view.loc (V d (cV L) (jV L)) ↦{Transfers.shareDrop q 2} f)
          ∗ ((tbV : Memref sig .scVector .hbm S32768x128 .f32).view.loc (V d (cV L) (jV L)) ↦{Transfers.shareTok q 2 0} f)
          ∗ ((tbV : Memref sig .scVector .hbm S32768x128 .f32).view.loc (V d (cV L) (jV L)) ↦{Transfers.shareTok q 2 1} f)) := by
  have h : ((tbV : Memref sig .scVector .hbm S32768x128 .f32).view.loc (V d (cV L) (jV L)) ↦{q} f : sProp 𝕄)
      ⊣⊢ iprop(((tbV : Memref sig .scVector .hbm S32768x128 .f32).view.loc (V d (cV L) (jV L)) ↦{Transfers.shareDrop q 2} f)
          ∗ BI.bigSep Finset.univ (fun i : Fin 2 => (tbV : Memref sig .scVector .hbm S32768x128 .f32).view.loc (V d (cV L) (jV L)) ↦{Transfers.shareTok q 2 i} f)) := Transfers.pointsTo_toks q 2
  rw [show (Finset.univ : Finset (Fin 2)) = {0, 1} by decide, SparseCore.bigSep_insert' (by decide), bigSep_singleton] at h
  exact h
omit [FloatOps F] in
/-- Recording one more wait at index `none` keeps the set of waits of the stated form. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp
/-- Before trip `k` of the split of gather buffer 0: the buffer holds `g`, and rows below `k` of the two half buffers are the left
    and right halves of `g`'s rows. -/
def inv0 (g : Buf (Elt F) ((V d (cV L) (jV L)).loc cc0_scratch1)) (k : Nat) (_ : PUnit) : sProp 𝕄 :=
  iprop(((sG0 : Memref sig .scVector .vmem S128x128 .f32).view.loc (V d (cV L) (jV L)) ↦{fullShare} g)
    ∗ (∃ fc, ((sC0 : Memref sig .scVector .vmem S128x64 .f32).view.loc (V d (cV L) (jV L)) ↦{fullShare} fc)
        ∗ ⌜∀ (r : Fin 128) (c : Fin 64), r.val < k → fc (ix2 r c) = g (ix2 r (⟨c.val, by omega⟩ : Fin 128))⌝)
    ∗ (∃ fs, ((sS0 : Memref sig .scVector .vmem S128x64 .f32).view.loc (V d (cV L) (jV L)) ↦{fullShare} fs)
        ∗ ⌜∀ (r : Fin 128) (c : Fin 64), r.val < k → fs (ix2 r c) = g (ix2 r (⟨64 + c.val, by omega⟩ : Fin 128))⌝))

/-- Before trip `k` of the split of gather buffer 1: the buffer holds `g`, and rows below `k` of the two half buffers are the left
    and right halves of `g`'s rows. -/
def inv1 (g : Buf (Elt F) ((V d (cV L) (jV L)).loc cc0_scratch2)) (k : Nat) (_ : PUnit) : sProp 𝕄 :=
  iprop(((sG1 : Memref sig .scVector .vmem S128x128 .f32).view.loc (V d (cV L) (jV L)) ↦{fullShare} g)
    ∗ (∃ fc, ((sC1 : Memref sig .scVector .vmem S128x64 .f32).view.loc (V d (cV L) (jV L)) ↦{fullShare} fc)
        ∗ ⌜∀ (r : Fin 128) (c : Fin 64), r.val < k → fc (ix2 r c) = g (ix2 r (⟨c.val, by omega⟩ : Fin 128))⌝)
    ∗ (∃ fs, ((sS1 : Memref sig .scVector .vmem S128x64 .f32).view.loc (V d (cV L) (jV L)) ↦{fullShare} fs)
        ∗ ⌜∀ (r : Fin 128) (c : Fin 64), r.val < k → fs (ix2 r c) = g (ix2 r (⟨64 + c.val, by omega⟩ : Fin 128))⌝))

set_option maxHeartbeats 8000000 in
theorem tile_body (hF : (K (F := F)).Facts) (hps : ∀ j, (show BitVec 32 from ps d j).toNat < 32768)
    (O : CellTallies nD τ sig (HIx 1)) (W : Waits sig (HIx 1)) (hO : ∀ g, O g none = 0) :
    iprop(levAts (K (F := F)).L (K (F := F)).lev ∗ emp ∗ goW ps tb d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__rope_kernel L psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0)
          fun _ => iprop(tdW ps tb d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin := list_lt ps d L hps
  simp only [cc0__rope_kernel_eq_skeleton]; unfold cc0__rope_kernel_skel
  rw [(K (F := F)).scopedBufs_V hF d (cV L) (jV L), SparseCore.Cfg.scopedSems0_V (Val := Elt F) d (cV L) (jV L), ownSems0_V, ownBufs_V]
  unfold goW sep8
  iintro ⟨#Hlv, -, ⟨Hps, Htb, ⟨⟨%f00, Ho00⟩, ⟨%f01, Ho01⟩, ⟨%f02, Ho02⟩, ⟨%f03, Ho03⟩, ⟨%f04, Ho04⟩, ⟨%f05, Ho05⟩, ⟨%f06, Ho06⟩, ⟨%f07, Ho07⟩⟩, ⟨⟨%f10, Ho10⟩, ⟨%f11, Ho11⟩, ⟨%f12, Ho12⟩, ⟨%f13, Ho13⟩, ⟨%f14, Ho14⟩, ⟨%f15, Ho15⟩, ⟨%f16, Ho16⟩, ⟨%f17, Ho17⟩⟩⟩,
    ⟨⟨%fi, Hi⟩, ⟨%fg0, Hg0⟩, ⟨%fg1, Hg1⟩, ⟨%fc0, Hc0⟩, ⟨%fc1, Hc1⟩, ⟨%fs0, Hs0⟩, ⟨%fs1, Hs1⟩, Hbufs⟩, ⟨Hm7, Hm8, Hm9, Hm10, Hm11, Hm12, Hm0, Hsems⟩, HO⟩
  ihave Hmw := ((K (F := F)).mayWaits_none (thr := (V d (cV L) (jV L))) hO) $$ Hlv
  ihave Hps' := (Entails.of_eq (pts_psK (F := F) d L _).symm) $$ Hps
  ihave Htb' := (Entails.of_eq (pts_tb (F := F) d L _ _).symm) $$ Htb
  ihave Ho00' := (Entails.of_eq (pts_out0K0 (F := F) d L _).symm) $$ Ho00
  ihave Ho10' := (Entails.of_eq (pts_out1K0 (F := F) d L _).symm) $$ Ho10
  ihave Ho01' := (Entails.of_eq (pts_out0K1 (F := F) d L _).symm) $$ Ho01
  ihave Ho11' := (Entails.of_eq (pts_out1K1 (F := F) d L _).symm) $$ Ho11
  ihave Ho02' := (Entails.of_eq (pts_out0K2 (F := F) d L _).symm) $$ Ho02
  ihave Ho12' := (Entails.of_eq (pts_out1K2 (F := F) d L _).symm) $$ Ho12
  ihave Ho03' := (Entails.of_eq (pts_out0K3 (F := F) d L _).symm) $$ Ho03
  ihave Ho13' := (Entails.of_eq (pts_out1K3 (F := F) d L _).symm) $$ Ho13
  ihave Ho04' := (Entails.of_eq (pts_out0K4 (F := F) d L _).symm) $$ Ho04
  ihave Ho14' := (Entails.of_eq (pts_out1K4 (F := F) d L _).symm) $$ Ho14
  ihave Ho05' := (Entails.of_eq (pts_out0K5 (F := F) d L _).symm) $$ Ho05
  ihave Ho15' := (Entails.of_eq (pts_out1K5 (F := F) d L _).symm) $$ Ho15
  ihave Ho06' := (Entails.of_eq (pts_out0K6 (F := F) d L _).symm) $$ Ho06
  ihave Ho16' := (Entails.of_eq (pts_out1K6 (F := F) d L _).symm) $$ Ho16
  ihave Ho07' := (Entails.of_eq (pts_out0K7 (F := F) d L _).symm) $$ Ho07
  ihave Ho17' := (Entails.of_eq (pts_out1K7 (F := F) d L _).symm) $$ Ho17
  ihave Hi' := (Entails.of_eq (pts_sIx (F := F) d L _).symm) $$ Hi
  ihave Hg0' := (Entails.of_eq (pts_sG0 (F := F) d L _).symm) $$ Hg0
  ihave Hg1' := (Entails.of_eq (pts_sG1 (F := F) d L _).symm) $$ Hg1
  ihave Hc0' := (Entails.of_eq (pts_sC0 (F := F) d L _).symm) $$ Hc0
  ihave Hc1' := (Entails.of_eq (pts_sC1 (F := F) d L _).symm) $$ Hc1
  ihave Hs0' := (Entails.of_eq (pts_sS0 (F := F) d L _).symm) $$ Hs0
  ihave Hs1' := (Entails.of_eq (pts_sS1 (F := F) d L _).symm) $$ Hs1
  ihave Htbs := (toks2 (F := F) d L _ _).1 $$ Htb'
  icases Htbs with ⟨Htbr, Htb0, Htb1⟩
  sl_exec
  ihave Hn := (name_contents _) $$ Hg0'
  icases Hn with ⟨%g1, %hg1, Hg0'⟩
  sl_for (inv0 d L g1) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g1 k.val hc (k0_off12_eq k) (k0_off11_eq k) (k0_off9_eq k) (k0_off8_eq k) (k0_off6_eq k) (k0_off5_eq k) (k0_off3_eq k) (k0_off2_eq k)
    · iexists _; isplitl [Hs]; · iexact Hs
      ipureintro
      sl_unfold_run_names
      exact row_step_sS0 d L fs g1 k.val hs (k0_off12_eq k) (k0_off13_eq k) (k0_off9_eq k) (k0_off10_eq k) (k0_off6_eq k) (k0_off7_eq k) (k0_off3_eq k) (k0_off4_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc1, Hc0', %hc1⟩, ⟨%fs1, Hs0', %hs1⟩⟩
  sl_exec
  ihave Hn := (name_contents _) $$ Hg1'
  icases Hn with ⟨%g2, %hg2, Hg1'⟩
  sl_for (inv1 d L g2) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g2 k.val hc (k0_off25_eq k) (k0_off24_eq k) (k0_off22_eq k) (k0_off21_eq k) (k0_off19_eq k) (k0_off18_eq k) (k0_off16_eq k) (k0_off15_eq k)
    · iexists _; isplitl [Hs]; · iexact Hs
      ipureintro
      sl_unfold_run_names
      exact row_step_sS1 d L fs g2 k.val hs (k0_off25_eq k) (k0_off26_eq k) (k0_off22_eq k) (k0_off23_eq k) (k0_off19_eq k) (k0_off20_eq k) (k0_off16_eq k) (k0_off17_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc2, Hc1', %hc2⟩, ⟨%fs2, Hs1', %hs2⟩⟩
  sl_exec
  ihave Hn := (name_contents _) $$ Hg0'
  icases Hn with ⟨%g3, %hg3, Hg0'⟩
  sl_for (inv0 d L g3) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g3 k.val hc (k0_off37_eq k) (k0_off36_eq k) (k0_off34_eq k) (k0_off33_eq k) (k0_off31_eq k) (k0_off30_eq k) (k0_off28_eq k) (k0_off27_eq k)
    · iexists _; isplitl [Hs]; · iexact Hs
      ipureintro
      sl_unfold_run_names
      exact row_step_sS0 d L fs g3 k.val hs (k0_off37_eq k) (k0_off38_eq k) (k0_off34_eq k) (k0_off35_eq k) (k0_off31_eq k) (k0_off32_eq k) (k0_off28_eq k) (k0_off29_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc3, Hc0', %hc3⟩, ⟨%fs3, Hs0', %hs3⟩⟩
  sl_exec
  ihave Hn := (name_contents _) $$ Hg1'
  icases Hn with ⟨%g4, %hg4, Hg1'⟩
  sl_for (inv1 d L g4) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g4 k.val hc (k0_off49_eq k) (k0_off48_eq k) (k0_off46_eq k) (k0_off45_eq k) (k0_off43_eq k) (k0_off42_eq k) (k0_off40_eq k) (k0_off39_eq k)
    · iexists _; isplitl [Hs]; · iexact Hs
      ipureintro
      sl_unfold_run_names
      exact row_step_sS1 d L fs g4 k.val hs (k0_off49_eq k) (k0_off50_eq k) (k0_off46_eq k) (k0_off47_eq k) (k0_off43_eq k) (k0_off44_eq k) (k0_off40_eq k) (k0_off41_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc4, Hc1', %hc4⟩, ⟨%fs4, Hs1', %hs4⟩⟩
  sl_exec
  ihave Hn := (name_contents _) $$ Hg0'
  icases Hn with ⟨%g5, %hg5, Hg0'⟩
  sl_for (inv0 d L g5) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g5 k.val hc (k0_off61_eq k) (k0_off60_eq k) (k0_off58_eq k) (k0_off57_eq k) (k0_off55_eq k) (k0_off54_eq k) (k0_off52_eq k) (k0_off51_eq k)
    · iexists _; isplitl [Hs]; · iexact Hs
      ipureintro
      sl_unfold_run_names
      exact row_step_sS0 d L fs g5 k.val hs (k0_off61_eq k) (k0_off62_eq k) (k0_off58_eq k) (k0_off59_eq k) (k0_off55_eq k) (k0_off56_eq k) (k0_off52_eq k) (k0_off53_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc5, Hc0', %hc5⟩, ⟨%fs5, Hs0', %hs5⟩⟩
  sl_exec
  ihave Hn := (name_contents _) $$ Hg1'
  icases Hn with ⟨%g6, %hg6, Hg1'⟩
  sl_for (inv1 d L g6) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g6 k.val hc (k0_off73_eq k) (k0_off72_eq k) (k0_off70_eq k) (k0_off69_eq k) (k0_off67_eq k) (k0_off66_eq k) (k0_off64_eq k) (k0_off63_eq k)
    · iexists _; isplitl [Hs]; · iexact Hs
      ipureintro
      sl_unfold_run_names
      exact row_step_sS1 d L fs g6 k.val hs (k0_off73_eq k) (k0_off74_eq k) (k0_off70_eq k) (k0_off71_eq k) (k0_off67_eq k) (k0_off68_eq k) (k0_off64_eq k) (k0_off65_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc6, Hc1', %hc6⟩, ⟨%fs6, Hs1', %hs6⟩⟩
  sl_exec
  ihave Hn := (name_contents _) $$ Hg0'
  icases Hn with ⟨%g7, %hg7, Hg0'⟩
  sl_for (inv0 d L g7) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g7 k.val hc (k0_off85_eq k) (k0_off84_eq k) (k0_off82_eq k) (k0_off81_eq k) (k0_off79_eq k) (k0_off78_eq k) (k0_off76_eq k) (k0_off75_eq k)
    · iexists _; isplitl [Hs]; · iexact Hs
      ipureintro
      sl_unfold_run_names
      exact row_step_sS0 d L fs g7 k.val hs (k0_off85_eq k) (k0_off86_eq k) (k0_off82_eq k) (k0_off83_eq k) (k0_off79_eq k) (k0_off80_eq k) (k0_off76_eq k) (k0_off77_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc7, Hc0', %hc7⟩, ⟨%fs7, Hs0', %hs7⟩⟩
  sl_exec
  ihave Hn := (name_contents _) $$ Hg1'
  icases Hn with ⟨%g8, %hg8, Hg1'⟩
  sl_for (inv1 d L g8) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g8 k.val hc (k0_off97_eq k) (k0_off96_eq k) (k0_off94_eq k) (k0_off93_eq k) (k0_off91_eq k) (k0_off90_eq k) (k0_off88_eq k) (k0_off87_eq k)
    · iexists _; isplitl [Hs]; · iexact Hs
      ipureintro
      sl_unfold_run_names
      exact row_step_sS1 d L fs g8 k.val hs (k0_off97_eq k) (k0_off98_eq k) (k0_off94_eq k) (k0_off95_eq k) (k0_off91_eq k) (k0_off92_eq k) (k0_off88_eq k) (k0_off89_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc8, Hc1', %hc8⟩, ⟨%fs8, Hs1', %hs8⟩⟩
  sl_exec
  sl_step
  unfold tdW sep8
  isplitl [Hps' Htbr Htb0 Htb1 Ho00' Ho01' Ho02' Ho03' Ho04' Ho05' Ho06' Ho07' Ho10' Ho11' Ho12' Ho13' Ho14' Ho15' Ho16' Ho17']
  · isplitl [Hps']; · iapply (Entails.of_eq (pts_psK (F := F) d L _)); iexact Hps'
    isplitl [Htbr Htb0 Htb1]
    · iapply (Entails.of_eq (pts_tb (F := F) d L _ _)); iapply (toks2 (F := F) d L _ _).2
      isplitl [Htbr]; · iexact Htbr
      isplitl [Htb0]; · iexact Htb0
      iexact Htb1
    isplitl [Ho00' Ho01' Ho02' Ho03' Ho04' Ho05' Ho06' Ho07']
    ·
      isplitl [Ho00']
      · iapply (Entails.of_eq (chunk_fix0_s0 ps tb d L hps fi _ _ _ 0 (by decide) rfl _ _ _ _ g1 hg1 fc1 _ (by decide) hc1 _ _ (k0_off14_eq L ⟨0, by decide⟩) (set_out0K0 L) _)); iexact Ho00'
      isplitl [Ho01']
      · iapply (Entails.of_eq (chunk_fix0_s1 ps tb d L hps fi _ _ _ 1 (by decide) rfl _ _ _ _ g2 hg2 fc2 _ (by decide) hc2 _ _ (k0_off14_eq L ⟨1, by decide⟩) (set_out0K1 L) _)); iexact Ho01'
      isplitl [Ho02']
      · iapply (Entails.of_eq (chunk_fix0_s0 ps tb d L hps fi _ _ _ 2 (by decide) rfl _ _ _ _ g3 hg3 fc3 _ (by decide) hc3 _ _ (k0_off14_eq L ⟨2, by decide⟩) (set_out0K2 L) _)); iexact Ho02'
      isplitl [Ho03']
      · iapply (Entails.of_eq (chunk_fix0_s1 ps tb d L hps fi _ _ _ 3 (by decide) rfl _ _ _ _ g4 hg4 fc4 _ (by decide) hc4 _ _ (k0_off14_eq L ⟨3, by decide⟩) (set_out0K3 L) _)); iexact Ho03'
      isplitl [Ho04']
      · iapply (Entails.of_eq (chunk_fix0_s0 ps tb d L hps fi _ _ _ 4 (by decide) rfl _ _ _ _ g5 hg5 fc5 _ (by decide) hc5 _ _ (k0_off14_eq L ⟨4, by decide⟩) (set_out0K4 L) _)); iexact Ho04'
      isplitl [Ho05']
      · iapply (Entails.of_eq (chunk_fix0_s1 ps tb d L hps fi _ _ _ 5 (by decide) rfl _ _ _ _ g6 hg6 fc6 _ (by decide) hc6 _ _ (k0_off14_eq L ⟨5, by decide⟩) (set_out0K5 L) _)); iexact Ho05'
      isplitl [Ho06']
      · iapply (Entails.of_eq (chunk_fix0_s0 ps tb d L hps fi _ _ _ 6 (by decide) rfl _ _ _ _ g7 hg7 fc7 _ (by decide) hc7 _ _ (k0_off14_eq L ⟨6, by decide⟩) (set_out0K6 L) _)); iexact Ho06'
      · iapply (Entails.of_eq (chunk_fix0_s1 ps tb d L hps fi _ _ _ 7 (by decide) rfl _ _ _ _ g8 hg8 fc8 _ (by decide) hc8 _ _ (k0_off14_eq L ⟨7, by decide⟩) (set_out0K7 L) _)); iexact Ho07'
    ·
      isplitl [Ho10']
      · iapply (Entails.of_eq (chunk_fix1_s0 ps tb d L hps fi _ _ _ 0 (by decide) rfl _ _ _ _ g1 hg1 fs1 _ (by decide) hs1 _ _ (k0_off14_eq L ⟨0, by decide⟩) (set_out1K0 L) _)); iexact Ho10'
      isplitl [Ho11']
      · iapply (Entails.of_eq (chunk_fix1_s1 ps tb d L hps fi _ _ _ 1 (by decide) rfl _ _ _ _ g2 hg2 fs2 _ (by decide) hs2 _ _ (k0_off14_eq L ⟨1, by decide⟩) (set_out1K1 L) _)); iexact Ho11'
      isplitl [Ho12']
      · iapply (Entails.of_eq (chunk_fix1_s0 ps tb d L hps fi _ _ _ 2 (by decide) rfl _ _ _ _ g3 hg3 fs3 _ (by decide) hs3 _ _ (k0_off14_eq L ⟨2, by decide⟩) (set_out1K2 L) _)); iexact Ho12'
      isplitl [Ho13']
      · iapply (Entails.of_eq (chunk_fix1_s1 ps tb d L hps fi _ _ _ 3 (by decide) rfl _ _ _ _ g4 hg4 fs4 _ (by decide) hs4 _ _ (k0_off14_eq L ⟨3, by decide⟩) (set_out1K3 L) _)); iexact Ho13'
      isplitl [Ho14']
      · iapply (Entails.of_eq (chunk_fix1_s0 ps tb d L hps fi _ _ _ 4 (by decide) rfl _ _ _ _ g5 hg5 fs5 _ (by decide) hs5 _ _ (k0_off14_eq L ⟨4, by decide⟩) (set_out1K4 L) _)); iexact Ho14'
      isplitl [Ho15']
      · iapply (Entails.of_eq (chunk_fix1_s1 ps tb d L hps fi _ _ _ 5 (by decide) rfl _ _ _ _ g6 hg6 fs6 _ (by decide) hs6 _ _ (k0_off14_eq L ⟨5, by decide⟩) (set_out1K5 L) _)); iexact Ho15'
      isplitl [Ho16']
      · iapply (Entails.of_eq (chunk_fix1_s0 ps tb d L hps fi _ _ _ 6 (by decide) rfl _ _ _ _ g7 hg7 fs7 _ (by decide) hs7 _ _ (k0_off14_eq L ⟨6, by decide⟩) (set_out1K6 L) _)); iexact Ho16'
      · iapply (Entails.of_eq (chunk_fix1_s1 ps tb d L hps fi _ _ _ 7 (by decide) rfl _ _ _ _ g8 hg8 fs8 _ (by decide) hs8 _ _ (k0_off14_eq L ⟨7, by decide⟩) (set_out1K7 L) _)); iexact Ho17'
  isplitl [Hi' Hg0' Hg1' Hc0' Hc1' Hs0' Hs1' Hbufs]
  · isplitl [Hi']; · iexists _; iexact Hi'
    isplitl [Hg0']; · iexists _; iexact Hg0'
    isplitl [Hg1']; · iexists _; iexact Hg1'
    isplitl [Hc0']; · iexists _; iexact Hc0'
    isplitl [Hc1']; · iexists _; iexact Hc1'
    isplitl [Hs0']; · iexists _; iexact Hs0'
    isplitl [Hs1']; · iexists _; iexact Hs1'
    iexact Hbufs
  isplitl [Hm7 Hm8 Hm9 Hm10 Hm11 Hm12 Hm0 Hsems]
  · isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm0]; · iexact Hm0
    iexact Hsems
  iexists _; isplitr
  rotate_left
  · iexact HO
  · ipureintro
    repeat (refine waits_insert _ ?_)
    exact fun p hp => .inl hp

end Tile

end Cert.KernelIdeal.Run

end
-- ==== Proof.KB.Rows.lean ====
/-
  One trip of the loop that splits a gathered chunk's rows into their two halves. Trip k writes row k of a 128 × 64 half
  buffer in four stores of 16 lanes (columns 0, 16, 32, 48), each loaded from row k of the 128 × 128 gather buffer at
  columns B, B + 16, B + 32, B + 48 (B = 0 for the left half, 64 for the right) and cast to a vector of 16 and back,
  which changes nothing. The four store rectangles tile row k: an index of another row lies under none of them and keeps
  its contents; row k, column c lies under the one of columns 16·(c / 16) … 16·(c / 16) + 15 and under no later one, at
  lane c − 16·(c / 16), where the payload is the gather buffer at row k, column B + c. So if rows below k of the half
  buffer were columns B … B + 63 of the gather buffer's rows before the trip, rows below k + 1 are after it.
-/
import proofs.«205335_g28930899706033_cont_9to1_1924_12_alg».proof.Proof.KB.Tile
import Idealize.ShloMosaic.Lib.Writes
import Idealize.ShloMosaic.Lib.WritesUnit
import Idealize.ShloMosaic.Lib.SparseCore.Stream
import Idealize.ShloMosaic.Lib.Pipeline.Value
import Idealize.ShloMosaic.Lib.ValueIdx

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## One trip of the split: the four 16-lane pieces of row k -/

section Piece

variable {κ κ' : Kind} {sp sp' : Space}
variable (vM : View sig κ sp S128x64 .f32) (vG : View sig κ' sp' S128x128 .f32)
variable (fc : vM.ty.Contents (Elt F)) (g : vG.ty.Contents (Elt F))

/-- A piece's payload: 16 lanes loaded from the gather buffer at offsets p, cast to a vector of 16 and back. Lane x is the
    buffer at p + x. -/
theorem piece_val (p : Fin 2 → Nat) (j : ∀ a, p a + S1x16.size a ≤ S128x128.size a)
    (h1 : S1x16.ShapeCasts S16) (h2 : S16.ShapeCasts S1x16) (x : S1x16.Idx) (y : S128x128.Idx)
    (hy : ∀ a, (y a).val = p a + (x a).val) :
    shapeCast S1x16 (shapeCast S16 (View.readAt (Elt F) vG (Rect.unit (s := S128x128) p S1x16.size j).toLoadRect g) h1) h2 x
      = vG.read (Elt F) g y := by
  rw [shapeCast_shapeCast, View.readAt_apply]
  refine congrArg (vG.read (Elt F) g) (funext fun a => Fin.ext ?_)
  show p a + 1 * (x a).val = (y a).val
  rw [hy a, Nat.one_mul]

/-- An index of row k whose column lies under the newest piece (columns m … m+15) reads the gather buffer's row k at
    column B + c. -/
theorem piece_hit (o p : Fin 2 → Nat) (i : ∀ a, o a + S1x16.size a ≤ S128x64.size a)
    (j : ∀ a, p a + S1x16.size a ≤ S128x128.size a) (h1 : S1x16.ShapeCasts S16) (h2 : S16.ShapeCasts S1x16)
    (Lst : List (View.Piece (Elt F) S128x64 .f32)) (r : Fin 128) (c : Fin 64) (c' : Fin 128) (k m B : Nat)
    (eo : o = ![k, m]) (ep : p = ![k, B + m]) (hr : r.val = k) (hm1 : m ≤ c.val) (hm2 : c.val < m + 16)
    (hc' : c'.val = B + c.val) :
    vM.read (Elt F) (vM.writes (Elt F) fc ((⟨Rect.unit (s := S128x64) o S1x16.size i,
        shapeCast S1x16 (shapeCast S16 (View.readAt (Elt F) vG (Rect.unit (s := S128x128) p S1x16.size j).toLoadRect g) h1) h2⟩
          : View.Piece (Elt F) S128x64 .f32) :: Lst)) (ix2 r c)
      = vG.read (Elt F) g (ix2 r c') := by
  subst eo ep
  rw [View.read_writes_cons_unit_of_mem vM fc i _ Lst (ix2 r c) (ix2 (0 : Fin 1) (⟨c.val - m, by omega⟩ : Fin 16)) rfl
    (Fin.forall_fin_two.mpr ⟨by show r.val = k + 0; omega, by show c.val = m + (c.val - m); omega⟩)]
  exact piece_val vG g _ j h1 h2 _ (ix2 r c')
    (Fin.forall_fin_two.mpr ⟨by show r.val = k + 0; omega, by show c'.val = B + m + (c.val - m); omega⟩)

/-- An index whose column is not under the newest piece reads what the earlier pieces left. -/
theorem piece_miss_col (o : Fin 2 → Nat) (i : ∀ a, o a + S1x16.size a ≤ S128x64.size a)
    (w : (Rect.unit (s := S128x64) o S1x16.size i).shape.Idx → Elt F .f32)
    (Lst : List (View.Piece (Elt F) S128x64 .f32)) (r : Fin 128) (c : Fin 64) (k m : Nat)
    (eo : o = ![k, m]) (hm : c.val < m ∨ m + 16 ≤ c.val) :
    vM.read (Elt F) (vM.writes (Elt F) fc ((⟨Rect.unit (s := S128x64) o S1x16.size i, w⟩ : View.Piece (Elt F) S128x64 .f32) :: Lst)) (ix2 r c)
      = vM.read (Elt F) (vM.writes (Elt F) fc Lst) (ix2 r c) :=
  View.read_writes_cons_unit_of_not_mem vM fc i w Lst (ix2 r c) eo 1 hm

/-- An index of another row reads what the earlier pieces left. -/
theorem piece_miss_row (o : Fin 2 → Nat) (i : ∀ a, o a + S1x16.size a ≤ S128x64.size a)
    (w : (Rect.unit (s := S128x64) o S1x16.size i).shape.Idx → Elt F .f32)
    (Lst : List (View.Piece (Elt F) S128x64 .f32)) (r : Fin 128) (c : Fin 64) (k m : Nat)
    (eo : o = ![k, m]) (hr : r.val < k) :
    vM.read (Elt F) (vM.writes (Elt F) fc ((⟨Rect.unit (s := S128x64) o S1x16.size i, w⟩ : View.Piece (Elt F) S128x64 .f32) :: Lst)) (ix2 r c)
      = vM.read (Elt F) (vM.writes (Elt F) fc Lst) (ix2 r c) :=
  View.read_writes_cons_unit_of_not_mem vM fc i w Lst (ix2 r c) eo 0 (Or.inl hr)

end Piece

section Trip

variable {κ κ' : Kind} {sp sp' : Space}
variable (vM : View sig κ sp S128x64 .f32) (vG : View sig κ' sp' S128x128 .f32)
variable (fc : vM.ty.Contents (Elt F)) (g : vG.ty.Contents (Elt F))

/-- TRIP k: over contents whose rows below k are columns B … B+63 of the gather buffer's rows, the four pieces (columns
    0, 16, 32, 48 of row k, from the gather buffer's row k at columns B, B+16, B+32, B+48) leave contents whose rows below
    k + 1 are. Another row is under no piece; row k, column c is under the piece of columns 16·(c / 16) … only. -/
theorem row_step_core (B : Nat) (col : Fin 64 → Fin 128) (hcol : ∀ c, (col c).val = B + c.val) (k : Nat)
    (hc : ∀ (r : Fin 128) (c : Fin 64), r.val < k → vM.read (Elt F) fc (ix2 r c) = vG.read (Elt F) g (ix2 r (col c)))
    (o3 o2 o1 o0 p3 p2 p1 p0 : Fin 2 → Nat)
    (i3 : ∀ a, o3 a + S1x16.size a ≤ S128x64.size a) (j3 : ∀ a, p3 a + S1x16.size a ≤ S128x128.size a)
    (i2 : ∀ a, o2 a + S1x16.size a ≤ S128x64.size a) (j2 : ∀ a, p2 a + S1x16.size a ≤ S128x128.size a)
    (i1 : ∀ a, o1 a + S1x16.size a ≤ S128x64.size a) (j1 : ∀ a, p1 a + S1x16.size a ≤ S128x128.size a)
    (i0 : ∀ a, o0 a + S1x16.size a ≤ S128x64.size a) (j0 : ∀ a, p0 a + S1x16.size a ≤ S128x128.size a)
    (h1 : S1x16.ShapeCasts S16) (h2 : S16.ShapeCasts S1x16)
    (eo3 : o3 = ![k, 48]) (ep3 : p3 = ![k, B + 48]) (eo2 : o2 = ![k, 32]) (ep2 : p2 = ![k, B + 32])
    (eo1 : o1 = ![k, 16]) (ep1 : p1 = ![k, B + 16]) (eo0 : o0 = ![k, 0]) (ep0 : p0 = ![k, B + 0])
    (r : Fin 128) (c : Fin 64) (hr : r.val < k + 1) :
    vM.read (Elt F) (vM.writes (Elt F) fc
        [(⟨Rect.unit (s := S128x64) o3 S1x16.size i3,
            shapeCast S1x16 (shapeCast S16 (View.readAt (Elt F) vG (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) vG (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) vG (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) vG (Rect.unit (s := S128x128) p0 S1x16.size j0).toLoadRect g) h1) h2⟩ : View.Piece (Elt F) S128x64 .f32)]) (ix2 r c)
      = vG.read (Elt F) g (ix2 r (col c)) := by
  have hcl := c.isLt
  rcases Nat.lt_or_ge r.val k with hlt | hge
  · rw [piece_miss_row vM fc o3 i3 _ _ r c k 48 eo3 hlt, piece_miss_row vM fc o2 i2 _ _ r c k 32 eo2 hlt,
      piece_miss_row vM fc o1 i1 _ _ r c k 16 eo1 hlt, piece_miss_row vM fc o0 i0 _ _ r c k 0 eo0 hlt, View.writes_nil]
    exact hc r c hlt
  · have hrk : r.val = k := by omega
    by_cases h48 : 48 ≤ c.val
    · exact piece_hit vM vG fc g o3 p3 i3 j3 h1 h2 _ r c (col c) k 48 B eo3 ep3 hrk h48 (by omega) (hcol c)
    rw [piece_miss_col vM fc o3 i3 _ _ r c k 48 eo3 (Or.inl (by omega))]
    by_cases h32 : 32 ≤ c.val
    · exact piece_hit vM vG fc g o2 p2 i2 j2 h1 h2 _ r c (col c) k 32 B eo2 ep2 hrk h32 (by omega) (hcol c)
    rw [piece_miss_col vM fc o2 i2 _ _ r c k 32 eo2 (Or.inl (by omega))]
    by_cases h16 : 16 ≤ c.val
    · exact piece_hit vM vG fc g o1 p1 i1 j1 h1 h2 _ r c (col c) k 16 B eo1 ep1 hrk h16 (by omega) (hcol c)
    rw [piece_miss_col vM fc o1 i1 _ _ r c k 16 eo1 (Or.inl (by omega))]
    exact piece_hit vM vG fc g o0 p0 i0 j0 h1 h2 _ r c (col c) k 0 B eo0 ep0 hrk (Nat.zero_le _) (by omega) (hcol c)

end Trip

/-! ## The four half buffers -/

section Steps

variable (d : Dev nD) (L : grid0.Coords)

theorem row_step_sC0 (fc : Buf (Elt F) (View.loc (V d (cV L) (jV L)) (sC0 : Memref sig .scVector .vmem S128x64 .f32).view))
    (g : Buf (Elt F) (View.loc (V d (cV L) (jV L)) (sG0 : Memref sig .scVector .vmem S128x128 .f32).view)) (k : Nat)
    (hc : ∀ (r : Fin 128) (c : Fin 64), r.val < k → fc (ix2 r c) = g (ix2 r (⟨c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 48]) (eo2 : o2 = ![k, 32]) (ep2 : p2 = ![k, 32])
    (eo1 : o1 = ![k, 16]) (ep1 : p1 = ![k, 16]) (eo0 : o0 = ![k, 0]) (ep0 : p0 = ![k, 0]) :
    ∀ (r : Fin 128) (c : Fin 64), r.val < k + 1 →
      (sC0 : Memref sig .scVector .vmem S128x64 .f32).view.writes (Elt F) fc
        [(⟨Rect.unit (s := S128x64) o3 S1x16.size i3,
            shapeCast S1x16 (shapeCast S16 (View.readAt (Elt F) (sG0 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG0 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG0 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG0 : Memref sig .scVector .vmem S128x128 .f32).view (Rect.unit (s := S128x128) p0 S1x16.size j0).toLoadRect g) h1) h2⟩ : View.Piece (Elt F) S128x64 .f32)] (ix2 r c)
        = g (ix2 r (⟨c.val, by omega⟩ : Fin 128)) :=
  fun r c hr => row_step_core (sC0 : Memref sig .scVector .vmem S128x64 .f32).view (sG0 : Memref sig .scVector .vmem S128x128 .f32).view fc g 0 (fun c => (⟨c.val, by omega⟩ : Fin 128))
    (fun c => (Nat.zero_add c.val).symm) k hc o3 o2 o1 o0 p3 p2 p1 p0 i3 j3 i2 j2 i1 j1 i0 j0 h1 h2 eo3 ep3 eo2 ep2 eo1 ep1 eo0 ep0 r c hr

theorem row_step_sS0 (fc : Buf (Elt F) (View.loc (V d (cV L) (jV L)) (sS0 : Memref sig .scVector .vmem S128x64 .f32).view))
    (g : Buf (Elt F) (View.loc (V d (cV L) (jV L)) (sG0 : Memref sig .scVector .vmem S128x128 .f32).view)) (k : Nat)
    (hc : ∀ (r : Fin 128) (c : Fin 64), r.val < k → fc (ix2 r c) = g (ix2 r (⟨64 + c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 112]) (eo2 : o2 = ![k, 32]) (ep2 : p2 = ![k, 96])
    (eo1 : o1 = ![k, 16]) (ep1 : p1 = ![k, 80]) (eo0 : o0 = ![k, 0]) (ep0 : p0 = ![k, 64]) :
    ∀ (r : Fin 128) (c : Fin 64), r.val < k + 1 →
      (sS0 : Memref sig .scVector .vmem S128x64 .f32).view.writes (Elt F) fc
        [(⟨Rect.unit (s := S128x64) o3 S1x16.size i3,
            shapeCast S1x16 (shapeCast S16 (View.readAt (Elt F) (sG0 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG0 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG0 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG0 : Memref sig .scVector .vmem S128x128 .f32).view (Rect.unit (s := S128x128) p0 S1x16.size j0).toLoadRect g) h1) h2⟩ : View.Piece (Elt F) S128x64 .f32)] (ix2 r c)
        = g (ix2 r (⟨64 + c.val, by omega⟩ : Fin 128)) :=
  fun r c hr => row_step_core (sS0 : Memref sig .scVector .vmem S128x64 .f32).view (sG0 : Memref sig .scVector .vmem S128x128 .f32).view fc g 64 (fun c => (⟨64 + c.val, by omega⟩ : Fin 128))
    (fun c => rfl) k hc o3 o2 o1 o0 p3 p2 p1 p0 i3 j3 i2 j2 i1 j1 i0 j0 h1 h2 eo3 ep3 eo2 ep2 eo1 ep1 eo0 ep0 r c hr

theorem row_step_sC1 (fc : Buf (Elt F) (View.loc (V d (cV L) (jV L)) (sC1 : Memref sig .scVector .vmem S128x64 .f32).view))
    (g : Buf (Elt F) (View.loc (V d (cV L) (jV L)) (sG1 : Memref sig .scVector .vmem S128x128 .f32).view)) (k : Nat)
    (hc : ∀ (r : Fin 128) (c : Fin 64), r.val < k → fc (ix2 r c) = g (ix2 r (⟨c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 48]) (eo2 : o2 = ![k, 32]) (ep2 : p2 = ![k, 32])
    (eo1 : o1 = ![k, 16]) (ep1 : p1 = ![k, 16]) (eo0 : o0 = ![k, 0]) (ep0 : p0 = ![k, 0]) :
    ∀ (r : Fin 128) (c : Fin 64), r.val < k + 1 →
      (sC1 : Memref sig .scVector .vmem S128x64 .f32).view.writes (Elt F) fc
        [(⟨Rect.unit (s := S128x64) o3 S1x16.size i3,
            shapeCast S1x16 (shapeCast S16 (View.readAt (Elt F) (sG1 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG1 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG1 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG1 : Memref sig .scVector .vmem S128x128 .f32).view (Rect.unit (s := S128x128) p0 S1x16.size j0).toLoadRect g) h1) h2⟩ : View.Piece (Elt F) S128x64 .f32)] (ix2 r c)
        = g (ix2 r (⟨c.val, by omega⟩ : Fin 128)) :=
  fun r c hr => row_step_core (sC1 : Memref sig .scVector .vmem S128x64 .f32).view (sG1 : Memref sig .scVector .vmem S128x128 .f32).view fc g 0 (fun c => (⟨c.val, by omega⟩ : Fin 128))
    (fun c => (Nat.zero_add c.val).symm) k hc o3 o2 o1 o0 p3 p2 p1 p0 i3 j3 i2 j2 i1 j1 i0 j0 h1 h2 eo3 ep3 eo2 ep2 eo1 ep1 eo0 ep0 r c hr

theorem row_step_sS1 (fc : Buf (Elt F) (View.loc (V d (cV L) (jV L)) (sS1 : Memref sig .scVector .vmem S128x64 .f32).view))
    (g : Buf (Elt F) (View.loc (V d (cV L) (jV L)) (sG1 : Memref sig .scVector .vmem S128x128 .f32).view)) (k : Nat)
    (hc : ∀ (r : Fin 128) (c : Fin 64), r.val < k → fc (ix2 r c) = g (ix2 r (⟨64 + c.val, by omega⟩ : Fin 128)))
    {o3 o2 o1 o0 p3 p2 p1 p0 : Fin 2 → Nat}
    {i3 : ∀ a, o3 a + S1x16.size a ≤ S128x64.size a} {j3 : ∀ a, p3 a + S1x16.size a ≤ S128x128.size a}
    {i2 : ∀ a, o2 a + S1x16.size a ≤ S128x64.size a} {j2 : ∀ a, p2 a + S1x16.size a ≤ S128x128.size a}
    {i1 : ∀ a, o1 a + S1x16.size a ≤ S128x64.size a} {j1 : ∀ a, p1 a + S1x16.size a ≤ S128x128.size a}
    {i0 : ∀ a, o0 a + S1x16.size a ≤ S128x64.size a} {j0 : ∀ a, p0 a + S1x16.size a ≤ S128x128.size a}
    {h1 : S1x16.ShapeCasts S16} {h2 : S16.ShapeCasts S1x16}
    (eo3 : o3 = ![k, 48]) (ep3 : p3 = ![k, 112]) (eo2 : o2 = ![k, 32]) (ep2 : p2 = ![k, 96])
    (eo1 : o1 = ![k, 16]) (ep1 : p1 = ![k, 80]) (eo0 : o0 = ![k, 0]) (ep0 : p0 = ![k, 64]) :
    ∀ (r : Fin 128) (c : Fin 64), r.val < k + 1 →
      (sS1 : Memref sig .scVector .vmem S128x64 .f32).view.writes (Elt F) fc
        [(⟨Rect.unit (s := S128x64) o3 S1x16.size i3,
            shapeCast S1x16 (shapeCast S16 (View.readAt (Elt F) (sG1 : Memref sig .scVector .vmem S128x128 .f32).view (Rect.unit (s := S128x128) p3 S1x16.size j3).toLoadRect g) h1) h2⟩ : View.Piece (Elt F) S128x64 .f32),
          (⟨Rect.unit (s := S128x64) o2 S1x16.size i2,
            shapeCast S1x16 (shapeCast S16 (View.readAt (Elt F) (sG1 : Memref sig .scVector .vmem S128x128 .f32).view (Rect.unit (s := S128x128) p2 S1x16.size j2).toLoadRect g) h1) h2⟩ : View.Piece (Elt F) S128x64 .f32),
          (⟨Rect.unit (s := S128x64) o1 S1x16.size i1,
            shapeCast S1x16 (shapeCast S16 (View.readAt (Elt F) (sG1 : Memref sig .scVector .vmem S128x128 .f32).view (Rect.unit (s := S128x128) p1 S1x16.size j1).toLoadRect g) h1) h2⟩ : View.Piece (Elt F) S128x64 .f32),
          (⟨Rect.unit (s := S128x64) o0 S1x16.size i0,
            shapeCast S1x16 (shapeCast S16 (View.readAt (Elt F) (sG1 : Memref sig .scVector .vmem S128x128 .f32).view (Rect.unit (s := S128x128) p0 S1x16.size j0).toLoadRect g) h1) h2⟩ : View.Piece (Elt F) S128x64 .f32)] (ix2 r c)
        = g (ix2 r (⟨64 + c.val, by omega⟩ : Fin 128)) :=
  fun r c hr => row_step_core (sS1 : Memref sig .scVector .vmem S128x64 .f32).view (sG1 : Memref sig .scVector .vmem S128x128 .f32).view fc g 64 (fun c => (⟨64 + c.val, by omega⟩ : Fin 128))
    (fun c => rfl) k hc o3 o2 o1 o0 p3 p2 p1 p0 i3 j3 i2 j2 i1 j1 i0 j0 h1 h2 eo3 ep3 eo2 ep2 eo1 ep1 eo0 ep0 r c hr

end Steps

end Cert.Kernel.Run

end
-- ==== Proof.KB.OutPiece.lean ====
/-
  A chunk written whole through its slice of a result, read back element by element: the slice of 128 rows at row
  128·p embeds (r, c) at (128·p + r, c), every element of the slice is such an image, and one unmasked write of a
  whole-rectangle payload through the slice leaves the payload's entry (r, c) there.
-/
import proofs.«205335_g28930899706033_cont_9to1_1924_12_alg».proof.Proof.KB.Tile
import Idealize.ShloMosaic.Lib.Writes
import Idealize.ShloMosaic.Lib.Pipeline.Value

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section OutPiece

variable [FloatOps F]

/-- A chunk of the first result written whole through its slice: every element of the slice is entry (r, c) of the chunk, row
    128·p + r of the array, and holds the payload's entry (r, c). -/
theorem out0_piece (off : Fin 2 → ℕ) (hO : ∀ a, off a + S128x64.size a ≤ S32768x64.size a) (p : ℕ) (hp : p < 256) (eO : off = ![128 * p, 0])
    (fo : (o0V : Memref sig .scVector .hbm S32768x64 .f32).view.ty.Contents (Elt F)) (w : S128x64.Idx → Elt F .f32) :
    ∀ i ∈ ((o0V : Memref sig .scVector .hbm S32768x64 .f32).slice (Rect.unit (s := S32768x64) off S128x64.size hO) (fun _ => rfl)).view.set,
      ∃ (r : Fin 128) (c : Fin 64), i = (ix2 (⟨128 * p + r.val, by omega⟩ : Fin 32768) c : S32768x64.Idx)
        ∧ ((o0V : Memref sig .scVector .hbm S32768x64 .f32).slice (Rect.unit (s := S32768x64) off S128x64.size hO) (fun _ => rfl)).view.writes (Elt F) fo [⟨Rect.whole S128x64, w⟩] i = w (ix2 r c) := by
  intro i hi
  obtain ⟨y, rfl⟩ := View.exists_emb_of_mem_set _ hi
  obtain ⟨r, c, rfl⟩ : ∃ (r : Fin 128) (c : Fin 64), y = ix2 r c := ⟨_, _, eq_ix2 y⟩
  refine ⟨r, c, ?_, ?_⟩
  · subst eO
    funext a
    refine Fin.ext ?_
    match a with
    | ⟨0, _⟩ => show 128 * p + 1 * r.val = 128 * p + r.val; omega
    | ⟨1, _⟩ => show 0 + 1 * c.val = c.val; omega
  · have e : (Rect.whole S128x64).emb (ix2 r c) = ix2 r c := Rect.emb_whole_apply S128x64 (ix2 r c)
    have h := View.read_writes_cons_emb ((o0V : Memref sig .scVector .hbm S32768x64 .f32).slice (Rect.unit (s := S32768x64) off S128x64.size hO) (fun _ => rfl)).view
      fo (Rect.whole S128x64) w [] (ix2 r c)
    exact (congrArg (fun y => ((o0V : Memref sig .scVector .hbm S32768x64 .f32).slice (Rect.unit (s := S32768x64) off S128x64.size hO) (fun _ => rfl)).view.writes (Elt F) fo [⟨Rect.whole S128x64, w⟩]
      (((o0V : Memref sig .scVector .hbm S32768x64 .f32).slice (Rect.unit (s := S32768x64) off S128x64.size hO) (fun _ => rfl)).view.emb y)) e).symm.trans h

/-- A chunk of the second result written whole through its slice: every element of the slice is entry (r, c) of the chunk, row
    128·p + r of the array, and holds the payload's entry (r, c). -/
theorem out1_piece (off : Fin 2 → ℕ) (hO : ∀ a, off a + S128x64.size a ≤ S32768x64.size a) (p : ℕ) (hp : p < 256) (eO : off = ![128 * p, 0])
    (fo : (o1V : Memref sig .scVector .hbm S32768x64 .f32).view.ty.Contents (Elt F)) (w : S128x64.Idx → Elt F .f32) :
    ∀ i ∈ ((o1V : Memref sig .scVector .hbm S32768x64 .f32).slice (Rect.unit (s := S32768x64) off S128x64.size hO) (fun _ => rfl)).view.set,
      ∃ (r : Fin 128) (c : Fin 64), i = (ix2 (⟨128 * p + r.val, by omega⟩ : Fin 32768) c : S32768x64.Idx)
        ∧ ((o1V : Memref sig .scVector .hbm S32768x64 .f32).slice (Rect.unit (s := S32768x64) off S128x64.size hO) (fun _ => rfl)).view.writes (Elt F) fo [⟨Rect.whole S128x64, w⟩] i = w (ix2 r c) := by
  intro i hi
  obtain ⟨y, rfl⟩ := View.exists_emb_of_mem_set _ hi
  obtain ⟨r, c, rfl⟩ : ∃ (r : Fin 128) (c : Fin 64), y = ix2 r c := ⟨_, _, eq_ix2 y⟩
  refine ⟨r, c, ?_, ?_⟩
  · subst eO
    funext a
    refine Fin.ext ?_
    match a with
    | ⟨0, _⟩ => show 128 * p + 1 * r.val = 128 * p + r.val; omega
    | ⟨1, _⟩ => show 0 + 1 * c.val = c.val; omega
  · have e : (Rect.whole S128x64).emb (ix2 r c) = ix2 r c := Rect.emb_whole_apply S128x64 (ix2 r c)
    have h := View.read_writes_cons_emb ((o1V : Memref sig .scVector .hbm S32768x64 .f32).slice (Rect.unit (s := S32768x64) off S128x64.size hO) (fun _ => rfl)).view
      fo (Rect.whole S128x64) w [] (ix2 r c)
    exact (congrArg (fun y => ((o1V : Memref sig .scVector .hbm S32768x64 .f32).slice (Rect.unit (s := S32768x64) off S128x64.size hO) (fun _ => rfl)).view.writes (Elt F) fo [⟨Rect.whole S128x64, w⟩]
      (((o1V : Memref sig .scVector .hbm S32768x64 .f32).slice (Rect.unit (s := S32768x64) off S128x64.size hO) (fun _ => rfl)).view.emb y)) e).symm.trans h

end OutPiece

end Cert.Kernel.Run

end
-- ==== Proof.KB.Chunk.lean ====
/-
  What a finished chunk holds. Chunk j of worker w is rows 128(8w+j) … 128(8w+j)+127 of a result; row r of it was copied from
  the half buffer's row r, which is half of the gathered row r, which is the table's row named by word r of row j of the
  worker's copy of the positions, i.e. by the positions at (8w+j, r) — the row that result row 128(8w+j)+r is to hold.
-/
import proofs.«205335_g28930899706033_cont_9to1_1924_12_alg».proof.Proof.KB.Tile
import Idealize.ShloMosaic.Lib.Writes
import Idealize.ShloMosaic.Lib.SparseCore.Stream
import Idealize.ShloMosaic.Lib.Pipeline.Value
import proofs.«205335_g28930899706033_cont_9to1_1924_12_alg».proof.Proof.KB.OutPiece

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Chunk

variable [FloatOps F]
variable (ps : (d : Dev nD) → Buf (Elt F) (psLoc d)) (tb : (d : Dev nD) → Buf (Elt F) (tbLoc d))
variable (d : Dev nD) (L : grid0.Coords)
omit [FloatOps F] in
/-- Two rank-2 indices with equal coordinates are equal. -/
theorem ix2_congr {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]
/-- Word r of row j of the worker's copy of the positions is the positions' word at (8w + j, r). -/
theorem idx_word (fi : Buf (Elt F) ((V d (cV L) (jV L)).loc cc0_scratch0)) (offR : Fin 2 → ℕ) (hR : ∀ a, offR a + S1x128.size a ≤ S8x128.size a)
    (j : ℕ) (hj : j < 8) (eR : offR = ![j, 0]) (r : Fin 128) :
    View.read (Elt F) (((sIx : Memref sig .scVector .vmem S8x128 .i32).slice (Rect.unit (s := S8x128) offR S1x128.size hR) (fun _ => rfl)).squeeze S128 squeezes_S1x128_S128).view
      (View.write (Elt F) (sIx : Memref sig .scVector .vmem S8x128 .i32).view fi (ReadAs.same.apply (View.read (Elt F) (psK L).view (ps d))) Finset.univ) (ix1 r)
    = ps d (ix2 (⟨(wL L).val * 8 + j, by have := (wL L).isLt; omega⟩ : Fin 256) r) := by
  have e : View.write (Elt F) (sIx : Memref sig .scVector .vmem S8x128 .i32).view fi (ReadAs.same.apply (View.read (Elt F) (psK L).view (ps d))) Finset.univ
      = ReadAs.same.apply (View.read (Elt F) (psK L).view (ps d)) := View.write_whole_univ _ _ _
  rw [e, View.read_apply]
  show (View.read (Elt F) (psK L).view (ps d) _) = _
  rw [View.read_apply]
  refine (cast_eq _ _).trans (congrArg (ps d) ?_)
  have hre : Shape.reshapeEquiv (s := S1x128) (s' := S128) squeezes_S1x128_S128.numel_eq (ix1 r) = (ix2 (0 : Fin 1) r : S1x128.Idx) :=
    Shape.reshapeEquiv_eq_of_rowMajor _ (by rw [Shape.rowMajor_val_two, Shape.rowMajor_val_one]; simp)
  subst eR
  funext a
  apply Fin.ext
  match a with
  | ⟨0, _⟩ =>
    show k0_off1 L 0 + 1 * ((![j, 0] : Fin 2 → ℕ) 0 + 1 * ((Shape.reshapeEquiv (s := S1x128) (s' := S128) squeezes_S1x128_S128.numel_eq (ix1 r)) 0).val) = (wL L).val * 8 + j
    rw [hre, k0_off1_eq]
    simp [wid]; omega
  | ⟨1, _⟩ =>
    show k0_off1 L 1 + 1 * ((![j, 0] : Fin 2 → ℕ) 1 + 1 * ((Shape.reshapeEquiv (s := S1x128) (s' := S128) squeezes_S1x128_S128.numel_eq (ix1 r)) 1).val) = r.val
    rw [hre, k0_off1_eq]
    simp
/-- Entry (r, c') of gather buffer 0 after the gather of row j of the worker's positions: the table's entry c' of the row the
    positions name at (8w + j, r). -/
theorem gbuf_val0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (r : Fin 128) (c' : Fin 128) :
    (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩] (ix2 r c')
      = tb d (ix2 (⟨(show BitVec 32 from ps d (ix2 (⟨(wL L).val * 8 + j, by have := (wL L).isLt; omega⟩ : Fin 256) r)).toNat % 32768, Nat.mod_lt _ (by decide)⟩ : Fin 32768) c') := by
  have h1 := View.read_writes_cons_emb (v := (sG0 : Memref sig .scVector .vmem S128x128 .f32).view) fg (Rect.whole S128x128)
    (SparseCore.gatherPayload HG (View.read (Elt F) ((tbV : Memref sig .scVector .hbm S32768x128 .f32).slice (Rect.unit (s := S32768x128) ![0, 0] S32768x128.size i0) (fun _ => rfl)).view (tb d)) (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')) [] (ix2 r c')
  rw [Rect.emb_whole_apply] at h1
  refine (show _ = _ from h1).trans ?_
  unfold SparseCore.gatherPayload
  rw [View.read_apply]
  refine (cast_eq _ _).trans (congrArg (tb d) ?_)
  have hsym : ∀ (k : Fin (S128x128.size HG.axis')), k.val = r.val → S128.rowMajor.symm (k.cast hn.symm) = (ix1 r : S128.Idx) := by
    intro k hk
    rw [Equiv.symm_apply_eq]
    apply Fin.ext
    rw [Shape.rowMajor_val_one]
    exact hk
  have hax := Shape.Gathers.idx_axis HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')
  have h0 : ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val
      = (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (ix1 r)).toNat := by
    rw [hax]
    show (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (S128.rowMajor.symm (Fin.cast hn.symm ((ix2 r c' : S128x128.Idx) HG.axis')))).toNat = _
    rw [hsym _ rfl]
  have h1' := Shape.Gathers.idx_of_ne HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c') (1 : Fin 2) (by decide)
  funext a
  apply Fin.ext
  match a with
  | ⟨0, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val = _
    rw [h0, idx_word ps d L fi offR hR j hj eR r, Nat.zero_add, Nat.one_mul]
    exact (Nat.mod_eq_of_lt (hps _)).symm
  | ⟨1, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) (1 : Fin 2)).val = c'.val
    rw [h1', Nat.zero_add, Nat.one_mul]
    rfl

/-- Entry (r, c') of gather buffer 1 after the gather of row j of the worker's positions: the table's entry c' of the row the
    positions name at (8w + j, r). -/
theorem gbuf_val1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (r : Fin 128) (c' : Fin 128) :
    (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩] (ix2 r c')
      = tb d (ix2 (⟨(show BitVec 32 from ps d (ix2 (⟨(wL L).val * 8 + j, by have := (wL L).isLt; omega⟩ : Fin 256) r)).toNat % 32768, Nat.mod_lt _ (by decide)⟩ : Fin 32768) c') := by
  have h1 := View.read_writes_cons_emb (v := (sG1 : Memref sig .scVector .vmem S128x128 .f32).view) fg (Rect.whole S128x128)
    (SparseCore.gatherPayload HG (View.read (Elt F) ((tbV : Memref sig .scVector .hbm S32768x128 .f32).slice (Rect.unit (s := S32768x128) ![0, 0] S32768x128.size i0) (fun _ => rfl)).view (tb d)) (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')) [] (ix2 r c')
  rw [Rect.emb_whole_apply] at h1
  refine (show _ = _ from h1).trans ?_
  unfold SparseCore.gatherPayload
  rw [View.read_apply]
  refine (cast_eq _ _).trans (congrArg (tb d) ?_)
  have hsym : ∀ (k : Fin (S128x128.size HG.axis')), k.val = r.val → S128.rowMajor.symm (k.cast hn.symm) = (ix1 r : S128.Idx) := by
    intro k hk
    rw [Equiv.symm_apply_eq]
    apply Fin.ext
    rw [Shape.rowMajor_val_one]
    exact hk
  have hax := Shape.Gathers.idx_axis HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')
  have h0 : ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val
      = (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (ix1 r)).toNat := by
    rw [hax]
    show (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) (S128.rowMajor.symm (Fin.cast hn.symm ((ix2 r c' : S128x128.Idx) HG.axis')))).toNat = _
    rw [hsym _ rfl]
  have h1' := Shape.Gathers.idx_of_ne HG (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c') (1 : Fin 2) (by decide)
  funext a
  apply Fin.ext
  match a with
  | ⟨0, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) HG.axis).val = _
    rw [h0, idx_word ps d L fi offR hR j hj eR r, Nat.zero_add, Nat.one_mul]
    exact (Nat.mod_eq_of_lt (hps _)).symm
  | ⟨1, _⟩ =>
    show 0 + 1 * ((HG.idx (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin') (ix2 r c')) (1 : Fin 2)).val = c'.val
    rw [h1', Nat.zero_add, Nat.one_mul]
    rfl
/-- A finished chunk of result 0 copied out of half buffer sC0: on its rows it holds the looked-up rows. -/
theorem chunk_fix0_s0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG0 : Memref sig .scVector .vmem S128x128 .f32).view))
    (hg : g = (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sC0 : Memref sig .scVector .vmem S128x64 .f32).view)) (T : ℕ) (hT : T = 128)
    (hc : ∀ (r : Fin 128) (c : Fin 64), r.val < T → fc (ix2 r c) = g (ix2 r (⟨c.val, by omega⟩ : Fin 128)))
    (off : Fin 2 → ℕ) (hO : ∀ a, off a + S128x64.size a ≤ S32768x64.size a)
    (eO : off = ![2048 * (L 1).val + 1024 * (L 0).val + 128 * j, 0])
    (hset : ((o0V : Memref sig .scVector .hbm S32768x64 .f32).slice (Rect.unit (s := S32768x64) off S128x64.size hO) (fun _ => rfl)).view.set = chunkSet (chunkOf (wL L) ⟨j, hj⟩))
    (fo : ((o0V : Memref sig .scVector .hbm S32768x64 .f32).slice (Rect.unit (s := S32768x64) off S128x64.size hO) (fun _ => rfl)).view.ty.Contents (Elt F)) :
    (((o0V : Memref sig .scVector .hbm S32768x64 .f32).slice (Rect.unit (s := S32768x64) off S128x64.size hO) (fun _ => rfl)).view.loc (V d (cV L) (jV L)) ↦[((o0V : Memref sig .scVector .hbm S32768x64 .f32).slice (Rect.unit (s := S32768x64) off S128x64.size hO) (fun _ => rfl)).view.set]{fullShare}
        ((o0V : Memref sig .scVector .hbm S32768x64 .f32).slice (Rect.unit (s := S32768x64) off S128x64.size hO) (fun _ => rfl)).view.writes (Elt F) fo [⟨Rect.whole S128x64, ReadAs.same.apply (View.read (Elt F) (sC0 : Memref sig .scVector .vmem S128x64 .f32).view fc)⟩] : sProp 𝕄)
      = o0Loc d ↦[chunkSet (chunkOf (wL L) ⟨j, hj⟩)]{fullShare} G0 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out0_piece off hO ((wL L).val * 8 + j) (by omega) eO' fo (ReadAs.same.apply (View.read (Elt F) (sC0 : Memref sig .scVector .vmem S128x64 .f32).view fc)) i hi
  rw [hval]
  show fc (ix2 r c) = _
  rw [hc r c (hT ▸ r.isLt), hg, gbuf_val0 ps tb d L hps fi fg offR hR j hj eR HG i0 hn hin' r _]
  unfold G0 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 0 copied out of half buffer sC1: on its rows it holds the looked-up rows. -/
theorem chunk_fix0_s1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG1 : Memref sig .scVector .vmem S128x128 .f32).view))
    (hg : g = (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sC1 : Memref sig .scVector .vmem S128x64 .f32).view)) (T : ℕ) (hT : T = 128)
    (hc : ∀ (r : Fin 128) (c : Fin 64), r.val < T → fc (ix2 r c) = g (ix2 r (⟨c.val, by omega⟩ : Fin 128)))
    (off : Fin 2 → ℕ) (hO : ∀ a, off a + S128x64.size a ≤ S32768x64.size a)
    (eO : off = ![2048 * (L 1).val + 1024 * (L 0).val + 128 * j, 0])
    (hset : ((o0V : Memref sig .scVector .hbm S32768x64 .f32).slice (Rect.unit (s := S32768x64) off S128x64.size hO) (fun _ => rfl)).view.set = chunkSet (chunkOf (wL L) ⟨j, hj⟩))
    (fo : ((o0V : Memref sig .scVector .hbm S32768x64 .f32).slice (Rect.unit (s := S32768x64) off S128x64.size hO) (fun _ => rfl)).view.ty.Contents (Elt F)) :
    (((o0V : Memref sig .scVector .hbm S32768x64 .f32).slice (Rect.unit (s := S32768x64) off S128x64.size hO) (fun _ => rfl)).view.loc (V d (cV L) (jV L)) ↦[((o0V : Memref sig .scVector .hbm S32768x64 .f32).slice (Rect.unit (s := S32768x64) off S128x64.size hO) (fun _ => rfl)).view.set]{fullShare}
        ((o0V : Memref sig .scVector .hbm S32768x64 .f32).slice (Rect.unit (s := S32768x64) off S128x64.size hO) (fun _ => rfl)).view.writes (Elt F) fo [⟨Rect.whole S128x64, ReadAs.same.apply (View.read (Elt F) (sC1 : Memref sig .scVector .vmem S128x64 .f32).view fc)⟩] : sProp 𝕄)
      = o0Loc d ↦[chunkSet (chunkOf (wL L) ⟨j, hj⟩)]{fullShare} G0 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out0_piece off hO ((wL L).val * 8 + j) (by omega) eO' fo (ReadAs.same.apply (View.read (Elt F) (sC1 : Memref sig .scVector .vmem S128x64 .f32).view fc)) i hi
  rw [hval]
  show fc (ix2 r c) = _
  rw [hc r c (hT ▸ r.isLt), hg, gbuf_val1 ps tb d L hps fi fg offR hR j hj eR HG i0 hn hin' r _]
  unfold G0 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 1 copied out of half buffer sS0: on its rows it holds the looked-up rows. -/
theorem chunk_fix1_s0 (hps : ∀ j, (show BitVec 32 from ps d j).toNat < 32768)
    (fi : Buf (Elt F) ((V d (cV L) (jV L)).loc cc0_scratch0)) (fg : (sG0 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG0 : Memref sig .scVector .vmem S128x128 .f32).view))
    (hg : g = (sG0 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sS0 : Memref sig .scVector .vmem S128x64 .f32).view)) (T : ℕ) (hT : T = 128)
    (hc : ∀ (r : Fin 128) (c : Fin 64), r.val < T → fc (ix2 r c) = g (ix2 r (⟨64 + c.val, by omega⟩ : Fin 128)))
    (off : Fin 2 → ℕ) (hO : ∀ a, off a + S128x64.size a ≤ S32768x64.size a)
    (eO : off = ![2048 * (L 1).val + 1024 * (L 0).val + 128 * j, 0])
    (hset : ((o1V : Memref sig .scVector .hbm S32768x64 .f32).slice (Rect.unit (s := S32768x64) off S128x64.size hO) (fun _ => rfl)).view.set = chunkSet (chunkOf (wL L) ⟨j, hj⟩))
    (fo : ((o1V : Memref sig .scVector .hbm S32768x64 .f32).slice (Rect.unit (s := S32768x64) off S128x64.size hO) (fun _ => rfl)).view.ty.Contents (Elt F)) :
    (((o1V : Memref sig .scVector .hbm S32768x64 .f32).slice (Rect.unit (s := S32768x64) off S128x64.size hO) (fun _ => rfl)).view.loc (V d (cV L) (jV L)) ↦[((o1V : Memref sig .scVector .hbm S32768x64 .f32).slice (Rect.unit (s := S32768x64) off S128x64.size hO) (fun _ => rfl)).view.set]{fullShare}
        ((o1V : Memref sig .scVector .hbm S32768x64 .f32).slice (Rect.unit (s := S32768x64) off S128x64.size hO) (fun _ => rfl)).view.writes (Elt F) fo [⟨Rect.whole S128x64, ReadAs.same.apply (View.read (Elt F) (sS0 : Memref sig .scVector .vmem S128x64 .f32).view fc)⟩] : sProp 𝕄)
      = o1Loc d ↦[chunkSet (chunkOf (wL L) ⟨j, hj⟩)]{fullShare} G1 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out1_piece off hO ((wL L).val * 8 + j) (by omega) eO' fo (ReadAs.same.apply (View.read (Elt F) (sS0 : Memref sig .scVector .vmem S128x64 .f32).view fc)) i hi
  rw [hval]
  show fc (ix2 r c) = _
  rw [hc r c (hT ▸ r.isLt), hg, gbuf_val0 ps tb d L hps fi fg offR hR j hj eR HG i0 hn hin' r _]
  unfold G1 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

/-- A finished chunk of result 1 copied out of half buffer sS1: on its rows it holds the looked-up rows. -/
theorem chunk_fix1_s1 (hps : ∀ j, (show BitVec 32 from ps d j).toNat < 32768)
    (fi : Buf (Elt F) ((V d (cV L) (jV L)).loc cc0_scratch0)) (fg : (sG1 : Memref sig .scVector .vmem S128x128 .f32).view.ty.Contents (Elt F))
    (offR : Fin 2 → ℕ) (hR : ∀ a, offR a + S1x128.size a ≤ S8x128.size a) (j : ℕ) (hj : j < 8) (eR : offR = ![j, 0])
    (HG : S32768x128.Gathers 0 S128x128) (i0 : ∀ a, (![0, 0] : Fin 2 → ℕ) a + S32768x128.size a ≤ S32768x128.size a)
    (hn : S128.numel = S128x128.size HG.axis')
    (hin' : ∀ x, (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ) x).toNat < S32768x128.size HG.axis)
    (g : Buf (Elt F) (View.loc (V d (cV L) (jV L)) (sG1 : Memref sig .scVector .vmem S128x128 .f32).view))
    (hg : g = (sG1 : Memref sig .scVector .vmem S128x128 .f32).view.writes (Elt F) fg
        [⟨Rect.whole S128x128, SparseCore.gatherPayload HG (View.read (Elt F) ((tbV : Memref sig .scVector .hbm S32768x128 .f32).slice (Rect.unit (s := S32768x128) ![0, 0] S32768x128.size i0) (fun _ => rfl)).view (tb d))
          (SparseCore.rows (View.read (Elt F) (((sIx : Memref sig .scVector .vmem S8x128 .i32).slice (Rect.unit (s := S8x128) offR S1x128.size hR) (fun _ => rfl)).squeeze S128 squeezes_S1x128_S128).view (View.write (Elt F) (sIx : Memref sig .scVector .vmem S8x128 .i32).view fi (ReadAs.same.apply (View.read (Elt F) (psK L).view (ps d))) Finset.univ)) hn hin')⟩])
    (fc : Buf (Elt F) (View.loc (V d (cV L) (jV L)) (sS1 : Memref sig .scVector .vmem S128x64 .f32).view)) (T : ℕ) (hT : T = 128)
    (hc : ∀ (r : Fin 128) (c : Fin 64), r.val < T → fc (ix2 r c) = g (ix2 r (⟨64 + c.val, by omega⟩ : Fin 128)))
    (off : Fin 2 → ℕ) (hO : ∀ a, off a + S128x64.size a ≤ S32768x64.size a)
    (eO : off = ![2048 * (L 1).val + 1024 * (L 0).val + 128 * j, 0])
    (hset : ((o1V : Memref sig .scVector .hbm S32768x64 .f32).slice (Rect.unit (s := S32768x64) off S128x64.size hO) (fun _ => rfl)).view.set = chunkSet (chunkOf (wL L) ⟨j, hj⟩))
    (fo : ((o1V : Memref sig .scVector .hbm S32768x64 .f32).slice (Rect.unit (s := S32768x64) off S128x64.size hO) (fun _ => rfl)).view.ty.Contents (Elt F)) :
    (((o1V : Memref sig .scVector .hbm S32768x64 .f32).slice (Rect.unit (s := S32768x64) off S128x64.size hO) (fun _ => rfl)).view.loc (V d (cV L) (jV L)) ↦[((o1V : Memref sig .scVector .hbm S32768x64 .f32).slice (Rect.unit (s := S32768x64) off S128x64.size hO) (fun _ => rfl)).view.set]{fullShare}
        ((o1V : Memref sig .scVector .hbm S32768x64 .f32).slice (Rect.unit (s := S32768x64) off S128x64.size hO) (fun _ => rfl)).view.writes (Elt F) fo [⟨Rect.whole S128x64, ReadAs.same.apply (View.read (Elt F) (sS1 : Memref sig .scVector .vmem S128x64 .f32).view fc)⟩] : sProp 𝕄)
      = o1Loc d ↦[chunkSet (chunkOf (wL L) ⟨j, hj⟩)]{fullShare} G1 d (ps d) (tb d) := by
  have hw : (wL L).val = (L 1).val * 2 + (L 0).val := rfl
  have hwlt := (wL L).isLt
  have eO' : off = ![128 * ((wL L).val * 8 + j), 0] := by
    rw [eO, hw]; funext a; match a with
    | ⟨0, _⟩ => show 2048 * (L 1).val + 1024 * (L 0).val + 128 * j = 128 * (((L 1).val * 2 + (L 0).val) * 8 + j); omega
    | ⟨1, _⟩ => rfl
  rw [hset]
  refine pointsTo_congr (fun i hi => ?_)
  rw [← hset] at hi
  obtain ⟨r, c, rfl, hval⟩ := out1_piece off hO ((wL L).val * 8 + j) (by omega) eO' fo (ReadAs.same.apply (View.read (Elt F) (sS1 : Memref sig .scVector .vmem S128x64 .f32).view fc)) i hi
  rw [hval]
  show fc (ix2 r c) = _
  rw [hc r c (hT ▸ r.isLt), hg, gbuf_val1 ps tb d L hps fi fg offR hR j hj eR HG i0 hn hin' r _]
  unfold G1 srcRow
  refine congrArg (tb d) (ix2_congr ?_ rfl)
  refine congrArg (fun x : S256x128.Idx => (show BitVec 32 from ps d x).toNat % 32768) (ix2_congr ?_ ?_)
  · show (wL L).val * 8 + j = (128 * ((wL L).val * 8 + j) + r.val) / 128
    omega
  · show r.val = (128 * ((wL L).val * 8 + j) + r.val) % 128
    omega

end Chunk

end Cert.Kernel.Run

end
-- ==== Proof.KB.Body.lean ====
/-
  One worker's task, run symbolically: the copy of its rows of positions, the eight chunk gathers (two in flight, on
  two buffers), the split of each gathered chunk's rows into their two halves, and the sixteen copies out.
-/
import proofs.«205335_g28930899706033_cont_9to1_1924_12_alg».proof.Proof.KB.Tile
import proofs.«205335_g28930899706033_cont_9to1_1924_12_alg».proof.Proof.KB.Rows
import proofs.«205335_g28930899706033_cont_9to1_1924_12_alg».proof.Proof.KB.Chunk

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

section Tile

variable [FloatOps F]
variable (ps : (d : Dev nD) → Buf (Elt F) (psLoc d)) (tb : (d : Dev nD) → Buf (Elt F) (tbLoc d))
variable (d : Dev nD) (L : grid0.Coords)

omit [FloatOps F] in
/-- The worker's own semaphores: the seven the kernel names, and the rest. -/
theorem ownSems0_V :
    (ownSems0 (V d (cV L) (jV L)) : sProp 𝕄)
      = iprop(semVal (((V d (cV L) (jV L)), SemLoc.dma cc0_scratch7.sem) : GSem nD τ sig) 0 ∗ semVal (((V d (cV L) (jV L)), SemLoc.dma cc0_scratch8.sem) : GSem nD τ sig) 0 ∗ semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scratch11.sem) : GSem nD τ sig) 0 ∗ semVal (((V d (cV L) (jV L)), SemLoc.dma cc0_scratch12.sem) : GSem nD τ sig) 0 ∗ semVal (((V d (cV L) (jV L)), SemLoc.dma cc0_scoped0.sem) : GSem nD τ sig) 0
          ∗ bigSep ((((((((ownCells (V d (cV L) (jV L))).erase (((V d (cV L) (jV L)), SemLoc.dma cc0_scratch7.sem) : GSem nD τ sig)).erase (((V d (cV L) (jV L)), SemLoc.dma cc0_scratch8.sem) : GSem nD τ sig)).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scoped0.sem) : GSem nD τ sig)) fun g => semVal g 0) := by
  unfold SparseCore.Cfg.ownSems0
  rw [SparseCore.bigSep_erase' ((mem_ownCells (g := (((V d (cV L) (jV L)), SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (((V d (cV L) (jV L)), SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch9.sem) : GSem nD τ sig))).mpr ⟨rfl, by show (SemLoc.dma cc0_scratch9.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch10.sem) : GSem nD τ sig))).mpr ⟨rfl, by show (SemLoc.dma cc0_scratch10.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩⟩)]

omit [FloatOps F] in
/-- The worker's own buffers: the seven scratch buffers the kernel names, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

omit [FloatOps F] in
theorem pts_psK (f : Buf (Elt F) (psLoc d)) :
    ((psK L).view.loc (V d (cV L) (jV L)) ↦[(psK L).view.set]{fullShare} f : sProp 𝕄) = psLoc d ↦[posSet (wL L)]{fullShare} f := by
  rw [set_psK]
omit [FloatOps F] in
theorem pts_tb (q : PosShare TreeShare) (f : Buf (Elt F) (tbLoc d)) :
    ((tbV : Memref sig .scVector .hbm S32768x128 .f32).view.loc (V d (cV L) (jV L)) ↦{q} f : sProp 𝕄) = tbLoc d ↦{q} f := by
  simp only [Memref.view_whole, View.set_whole]
omit [FloatOps F] in
theorem pts_out0K0 (f : Buf (Elt F) (o0Loc d)) :
    ((out0K0 L).view.loc (V d (cV L) (jV L)) ↦[(out0K0 L).view.set]{fullShare} f : sProp 𝕄) = o0Loc d ↦[chunkSet (chunkOf (wL L) 0)]{fullShare} f := by
  rw [set_out0K0]
omit [FloatOps F] in
theorem pts_out1K0 (f : Buf (Elt F) (o1Loc d)) :
    ((out1K0 L).view.loc (V d (cV L) (jV L)) ↦[(out1K0 L).view.set]{fullShare} f : sProp 𝕄) = o1Loc d ↦[chunkSet (chunkOf (wL L) 0)]{fullShare} f := by
  rw [set_out1K0]
omit [FloatOps F] in
theorem pts_out0K1 (f : Buf (Elt F) (o0Loc d)) :
    ((out0K1 L).view.loc (V d (cV L) (jV L)) ↦[(out0K1 L).view.set]{fullShare} f : sProp 𝕄) = o0Loc d ↦[chunkSet (chunkOf (wL L) 1)]{fullShare} f := by
  rw [set_out0K1]
omit [FloatOps F] in
theorem pts_out1K1 (f : Buf (Elt F) (o1Loc d)) :
    ((out1K1 L).view.loc (V d (cV L) (jV L)) ↦[(out1K1 L).view.set]{fullShare} f : sProp 𝕄) = o1Loc d ↦[chunkSet (chunkOf (wL L) 1)]{fullShare} f := by
  rw [set_out1K1]
omit [FloatOps F] in
theorem pts_out0K2 (f : Buf (Elt F) (o0Loc d)) :
    ((out0K2 L).view.loc (V d (cV L) (jV L)) ↦[(out0K2 L).view.set]{fullShare} f : sProp 𝕄) = o0Loc d ↦[chunkSet (chunkOf (wL L) 2)]{fullShare} f := by
  rw [set_out0K2]
omit [FloatOps F] in
theorem pts_out1K2 (f : Buf (Elt F) (o1Loc d)) :
    ((out1K2 L).view.loc (V d (cV L) (jV L)) ↦[(out1K2 L).view.set]{fullShare} f : sProp 𝕄) = o1Loc d ↦[chunkSet (chunkOf (wL L) 2)]{fullShare} f := by
  rw [set_out1K2]
omit [FloatOps F] in
theorem pts_out0K3 (f : Buf (Elt F) (o0Loc d)) :
    ((out0K3 L).view.loc (V d (cV L) (jV L)) ↦[(out0K3 L).view.set]{fullShare} f : sProp 𝕄) = o0Loc d ↦[chunkSet (chunkOf (wL L) 3)]{fullShare} f := by
  rw [set_out0K3]
omit [FloatOps F] in
theorem pts_out1K3 (f : Buf (Elt F) (o1Loc d)) :
    ((out1K3 L).view.loc (V d (cV L) (jV L)) ↦[(out1K3 L).view.set]{fullShare} f : sProp 𝕄) = o1Loc d ↦[chunkSet (chunkOf (wL L) 3)]{fullShare} f := by
  rw [set_out1K3]
omit [FloatOps F] in
theorem pts_out0K4 (f : Buf (Elt F) (o0Loc d)) :
    ((out0K4 L).view.loc (V d (cV L) (jV L)) ↦[(out0K4 L).view.set]{fullShare} f : sProp 𝕄) = o0Loc d ↦[chunkSet (chunkOf (wL L) 4)]{fullShare} f := by
  rw [set_out0K4]
omit [FloatOps F] in
theorem pts_out1K4 (f : Buf (Elt F) (o1Loc d)) :
    ((out1K4 L).view.loc (V d (cV L) (jV L)) ↦[(out1K4 L).view.set]{fullShare} f : sProp 𝕄) = o1Loc d ↦[chunkSet (chunkOf (wL L) 4)]{fullShare} f := by
  rw [set_out1K4]
omit [FloatOps F] in
theorem pts_out0K5 (f : Buf (Elt F) (o0Loc d)) :
    ((out0K5 L).view.loc (V d (cV L) (jV L)) ↦[(out0K5 L).view.set]{fullShare} f : sProp 𝕄) = o0Loc d ↦[chunkSet (chunkOf (wL L) 5)]{fullShare} f := by
  rw [set_out0K5]
omit [FloatOps F] in
theorem pts_out1K5 (f : Buf (Elt F) (o1Loc d)) :
    ((out1K5 L).view.loc (V d (cV L) (jV L)) ↦[(out1K5 L).view.set]{fullShare} f : sProp 𝕄) = o1Loc d ↦[chunkSet (chunkOf (wL L) 5)]{fullShare} f := by
  rw [set_out1K5]
omit [FloatOps F] in
theorem pts_out0K6 (f : Buf (Elt F) (o0Loc d)) :
    ((out0K6 L).view.loc (V d (cV L) (jV L)) ↦[(out0K6 L).view.set]{fullShare} f : sProp 𝕄) = o0Loc d ↦[chunkSet (chunkOf (wL L) 6)]{fullShare} f := by
  rw [set_out0K6]
omit [FloatOps F] in
theorem pts_out1K6 (f : Buf (Elt F) (o1Loc d)) :
    ((out1K6 L).view.loc (V d (cV L) (jV L)) ↦[(out1K6 L).view.set]{fullShare} f : sProp 𝕄) = o1Loc d ↦[chunkSet (chunkOf (wL L) 6)]{fullShare} f := by
  rw [set_out1K6]
omit [FloatOps F] in
theorem pts_out0K7 (f : Buf (Elt F) (o0Loc d)) :
    ((out0K7 L).view.loc (V d (cV L) (jV L)) ↦[(out0K7 L).view.set]{fullShare} f : sProp 𝕄) = o0Loc d ↦[chunkSet (chunkOf (wL L) 7)]{fullShare} f := by
  rw [set_out0K7]
omit [FloatOps F] in
theorem pts_out1K7 (f : Buf (Elt F) (o1Loc d)) :
    ((out1K7 L).view.loc (V d (cV L) (jV L)) ↦[(out1K7 L).view.set]{fullShare} f : sProp 𝕄) = o1Loc d ↦[chunkSet (chunkOf (wL L) 7)]{fullShare} f := by
  rw [set_out1K7]

omit [FloatOps F] in
theorem pts_sIx (f : Buf (Elt F) ((V d (cV L) (jV L)).loc cc0_scratch0)) :
    ((sIx : Memref sig .scVector .vmem S8x128 .i32).view.loc (V d (cV L) (jV L)) ↦{fullShare} f : sProp 𝕄) = (V d (cV L) (jV L)).loc cc0_scratch0 ↦{fullShare} f := rfl
omit [FloatOps F] in
theorem pts_sG0 (f : Buf (Elt F) ((V d (cV L) (jV L)).loc cc0_scratch1)) :
    ((sG0 : Memref sig .scVector .vmem S128x128 .f32).view.loc (V d (cV L) (jV L)) ↦{fullShare} f : sProp 𝕄) = (V d (cV L) (jV L)).loc cc0_scratch1 ↦{fullShare} f := rfl
omit [FloatOps F] in
theorem pts_sG1 (f : Buf (Elt F) ((V d (cV L) (jV L)).loc cc0_scratch2)) :
    ((sG1 : Memref sig .scVector .vmem S128x128 .f32).view.loc (V d (cV L) (jV L)) ↦{fullShare} f : sProp 𝕄) = (V d (cV L) (jV L)).loc cc0_scratch2 ↦{fullShare} f := rfl
omit [FloatOps F] in
theorem pts_sC0 (f : Buf (Elt F) ((V d (cV L) (jV L)).loc cc0_scratch3)) :
    ((sC0 : Memref sig .scVector .vmem S128x64 .f32).view.loc (V d (cV L) (jV L)) ↦{fullShare} f : sProp 𝕄) = (V d (cV L) (jV L)).loc cc0_scratch3 ↦{fullShare} f := rfl
omit [FloatOps F] in
theorem pts_sC1 (f : Buf (Elt F) ((V d (cV L) (jV L)).loc cc0_scratch4)) :
    ((sC1 : Memref sig .scVector .vmem S128x64 .f32).view.loc (V d (cV L) (jV L)) ↦{fullShare} f : sProp 𝕄) = (V d (cV L) (jV L)).loc cc0_scratch4 ↦{fullShare} f := rfl
omit [FloatOps F] in
theorem pts_sS0 (f : Buf (Elt F) ((V d (cV L) (jV L)).loc cc0_scratch5)) :
    ((sS0 : Memref sig .scVector .vmem S128x64 .f32).view.loc (V d (cV L) (jV L)) ↦{fullShare} f : sProp 𝕄) = (V d (cV L) (jV L)).loc cc0_scratch5 ↦{fullShare} f := rfl
omit [FloatOps F] in
theorem pts_sS1 (f : Buf (Elt F) ((V d (cV L) (jV L)).loc cc0_scratch6)) :
    ((sS1 : Memref sig .scVector .vmem S128x64 .f32).view.loc (V d (cV L) (jV L)) ↦{fullShare} f : sProp 𝕄) = (V d (cV L) (jV L)).loc cc0_scratch6 ↦{fullShare} f := rfl

theorem list_lt (hps : ∀ j, (show BitVec 32 from ps d j).toNat < 32768)
    (fi : Buf (Elt F) ((V d (cV L) (jV L)).loc cc0_scratch0)) (off : Fin 2 → Nat) (h : ∀ a, off a + S1x128.size a ≤ S8x128.size a) (x : S128.Idx) :
    (View.read (Elt F) (((sIx : Memref sig .scVector .vmem S8x128 .i32).slice (Rect.unit (s := S8x128) off S1x128.size h) (fun _ => rfl)).squeeze S128 squeezes_S1x128_S128).view
      (View.write (Elt F) (sIx : Memref sig .scVector .vmem S8x128 .i32).view fi (ReadAs.same.apply (View.read (Elt F) (psK L).view (ps d))) Finset.univ) x).toNat < 32768 := by
  have e : View.write (Elt F) (sIx : Memref sig .scVector .vmem S8x128 .i32).view fi (ReadAs.same.apply (View.read (Elt F) (psK L).view (ps d))) Finset.univ
      = ReadAs.same.apply (View.read (Elt F) (psK L).view (ps d)) := View.write_whole_univ _ _ _
  rw [e, View.read_apply]
  show (View.read (Elt F) (psK L).view (ps d) _).toNat < 32768
  rw [View.read_apply]
  exact hps _
omit [FloatOps F] in
/-- A buffer's contents, named. -/
theorem name_contents {ℓ : Loc nD τ sig} {q : PosShare TreeShare} (f : Buf (Elt F) ℓ) :
    (ℓ ↦{q} f : sProp 𝕄) ⊢ iprop(∃ g, ⌜g = f⌝ ∗ (ℓ ↦{q} g)) := by
  iintro H; iexists f; isplitr
  · ipureintro; rfl
  · iexact H

omit [FloatOps F] in
/-- The worker's share of the table as two read tokens, one per gather buffer, and a remainder. -/
theorem toks2 (q : PosShare TreeShare) (f : Buf (Elt F) (tbLoc d)) :
    ((tbV : Memref sig .scVector .hbm S32768x128 .f32).view.loc (V d (cV L) (jV L)) ↦{q} f : sProp 𝕄)
      ⊣⊢ iprop(((tbV : Memref sig .scVector .hbm S32768x128 .f32).view.loc (V d (cV L) (jV L)) ↦{Transfers.shareDrop q 2} f)
          ∗ ((tbV : Memref sig .scVector .hbm S32768x128 .f32).view.loc (V d (cV L) (jV L)) ↦{Transfers.shareTok q 2 0} f)
          ∗ ((tbV : Memref sig .scVector .hbm S32768x128 .f32).view.loc (V d (cV L) (jV L)) ↦{Transfers.shareTok q 2 1} f)) := by
  have h : ((tbV : Memref sig .scVector .hbm S32768x128 .f32).view.loc (V d (cV L) (jV L)) ↦{q} f : sProp 𝕄)
      ⊣⊢ iprop(((tbV : Memref sig .scVector .hbm S32768x128 .f32).view.loc (V d (cV L) (jV L)) ↦{Transfers.shareDrop q 2} f)
          ∗ BI.bigSep Finset.univ (fun i : Fin 2 => (tbV : Memref sig .scVector .hbm S32768x128 .f32).view.loc (V d (cV L) (jV L)) ↦{Transfers.shareTok q 2 i} f)) := Transfers.pointsTo_toks q 2
  rw [show (Finset.univ : Finset (Fin 2)) = {0, 1} by decide, SparseCore.bigSep_insert' (by decide), bigSep_singleton] at h
  exact h
omit [FloatOps F] in
/-- Recording one more wait at index `none` keeps the set of waits of the stated form. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp
/-- Before trip `k` of the split of gather buffer 0: the buffer holds `g`, and rows below `k` of the two half buffers are the left
    and right halves of `g`'s rows. -/
def inv0 (g : Buf (Elt F) ((V d (cV L) (jV L)).loc cc0_scratch1)) (k : Nat) (_ : PUnit) : sProp 𝕄 :=
  iprop(((sG0 : Memref sig .scVector .vmem S128x128 .f32).view.loc (V d (cV L) (jV L)) ↦{fullShare} g)
    ∗ (∃ fc, ((sC0 : Memref sig .scVector .vmem S128x64 .f32).view.loc (V d (cV L) (jV L)) ↦{fullShare} fc)
        ∗ ⌜∀ (r : Fin 128) (c : Fin 64), r.val < k → fc (ix2 r c) = g (ix2 r (⟨c.val, by omega⟩ : Fin 128))⌝)
    ∗ (∃ fs, ((sS0 : Memref sig .scVector .vmem S128x64 .f32).view.loc (V d (cV L) (jV L)) ↦{fullShare} fs)
        ∗ ⌜∀ (r : Fin 128) (c : Fin 64), r.val < k → fs (ix2 r c) = g (ix2 r (⟨64 + c.val, by omega⟩ : Fin 128))⌝))

/-- Before trip `k` of the split of gather buffer 1: the buffer holds `g`, and rows below `k` of the two half buffers are the left
    and right halves of `g`'s rows. -/
def inv1 (g : Buf (Elt F) ((V d (cV L) (jV L)).loc cc0_scratch2)) (k : Nat) (_ : PUnit) : sProp 𝕄 :=
  iprop(((sG1 : Memref sig .scVector .vmem S128x128 .f32).view.loc (V d (cV L) (jV L)) ↦{fullShare} g)
    ∗ (∃ fc, ((sC1 : Memref sig .scVector .vmem S128x64 .f32).view.loc (V d (cV L) (jV L)) ↦{fullShare} fc)
        ∗ ⌜∀ (r : Fin 128) (c : Fin 64), r.val < k → fc (ix2 r c) = g (ix2 r (⟨c.val, by omega⟩ : Fin 128))⌝)
    ∗ (∃ fs, ((sS1 : Memref sig .scVector .vmem S128x64 .f32).view.loc (V d (cV L) (jV L)) ↦{fullShare} fs)
        ∗ ⌜∀ (r : Fin 128) (c : Fin 64), r.val < k → fs (ix2 r c) = g (ix2 r (⟨64 + c.val, by omega⟩ : Fin 128))⌝))

set_option maxHeartbeats 8000000 in
theorem tile_body (hF : (K (F := F)).Facts) (hps : ∀ j, (show BitVec 32 from ps d j).toNat < 32768)
    (O : CellTallies nD τ sig (HIx 1)) (W : Waits sig (HIx 1)) (hO : ∀ g, O g none = 0) :
    iprop(levAts (K (F := F)).L (K (F := F)).lev ∗ emp ∗ goW ps tb d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__rope_kernel L psV (Memref.isWhole_whole _) tbV (Memref.isWhole_whole _) o0V (Memref.isWhole_whole _) o1V (Memref.isWhole_whole _)
            sIx (Memref.isWhole_whole _) sG0 (Memref.isWhole_whole _) sG1 (Memref.isWhole_whole _) sC0 (Memref.isWhole_whole _) sC1 (Memref.isWhole_whole _)
            sS0 (Memref.isWhole_whole _) sS1 (Memref.isWhole_whole _) cc0_scratch7 cc0_scratch8 cc0_scratch9 cc0_scratch10 cc0_scratch11 cc0_scratch12 cc0_scoped0)
          fun _ => iprop(tdW ps tb d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hin := list_lt ps d L hps
  simp only [cc0__rope_kernel_eq_skeleton]; unfold cc0__rope_kernel_skel
  rw [(K (F := F)).scopedBufs_V hF d (cV L) (jV L), SparseCore.Cfg.scopedSems0_V (Val := Elt F) d (cV L) (jV L), ownSems0_V, ownBufs_V]
  unfold goW sep8
  iintro ⟨#Hlv, -, ⟨Hps, Htb, ⟨⟨%f00, Ho00⟩, ⟨%f01, Ho01⟩, ⟨%f02, Ho02⟩, ⟨%f03, Ho03⟩, ⟨%f04, Ho04⟩, ⟨%f05, Ho05⟩, ⟨%f06, Ho06⟩, ⟨%f07, Ho07⟩⟩, ⟨⟨%f10, Ho10⟩, ⟨%f11, Ho11⟩, ⟨%f12, Ho12⟩, ⟨%f13, Ho13⟩, ⟨%f14, Ho14⟩, ⟨%f15, Ho15⟩, ⟨%f16, Ho16⟩, ⟨%f17, Ho17⟩⟩⟩,
    ⟨⟨%fi, Hi⟩, ⟨%fg0, Hg0⟩, ⟨%fg1, Hg1⟩, ⟨%fc0, Hc0⟩, ⟨%fc1, Hc1⟩, ⟨%fs0, Hs0⟩, ⟨%fs1, Hs1⟩, Hbufs⟩, ⟨Hm7, Hm8, Hm9, Hm10, Hm11, Hm12, Hm0, Hsems⟩, HO⟩
  ihave Hmw := ((K (F := F)).mayWaits_none (thr := (V d (cV L) (jV L))) hO) $$ Hlv
  ihave Hps' := (Entails.of_eq (pts_psK (F := F) d L _).symm) $$ Hps
  ihave Htb' := (Entails.of_eq (pts_tb (F := F) d L _ _).symm) $$ Htb
  ihave Ho00' := (Entails.of_eq (pts_out0K0 (F := F) d L _).symm) $$ Ho00
  ihave Ho10' := (Entails.of_eq (pts_out1K0 (F := F) d L _).symm) $$ Ho10
  ihave Ho01' := (Entails.of_eq (pts_out0K1 (F := F) d L _).symm) $$ Ho01
  ihave Ho11' := (Entails.of_eq (pts_out1K1 (F := F) d L _).symm) $$ Ho11
  ihave Ho02' := (Entails.of_eq (pts_out0K2 (F := F) d L _).symm) $$ Ho02
  ihave Ho12' := (Entails.of_eq (pts_out1K2 (F := F) d L _).symm) $$ Ho12
  ihave Ho03' := (Entails.of_eq (pts_out0K3 (F := F) d L _).symm) $$ Ho03
  ihave Ho13' := (Entails.of_eq (pts_out1K3 (F := F) d L _).symm) $$ Ho13
  ihave Ho04' := (Entails.of_eq (pts_out0K4 (F := F) d L _).symm) $$ Ho04
  ihave Ho14' := (Entails.of_eq (pts_out1K4 (F := F) d L _).symm) $$ Ho14
  ihave Ho05' := (Entails.of_eq (pts_out0K5 (F := F) d L _).symm) $$ Ho05
  ihave Ho15' := (Entails.of_eq (pts_out1K5 (F := F) d L _).symm) $$ Ho15
  ihave Ho06' := (Entails.of_eq (pts_out0K6 (F := F) d L _).symm) $$ Ho06
  ihave Ho16' := (Entails.of_eq (pts_out1K6 (F := F) d L _).symm) $$ Ho16
  ihave Ho07' := (Entails.of_eq (pts_out0K7 (F := F) d L _).symm) $$ Ho07
  ihave Ho17' := (Entails.of_eq (pts_out1K7 (F := F) d L _).symm) $$ Ho17
  ihave Hi' := (Entails.of_eq (pts_sIx (F := F) d L _).symm) $$ Hi
  ihave Hg0' := (Entails.of_eq (pts_sG0 (F := F) d L _).symm) $$ Hg0
  ihave Hg1' := (Entails.of_eq (pts_sG1 (F := F) d L _).symm) $$ Hg1
  ihave Hc0' := (Entails.of_eq (pts_sC0 (F := F) d L _).symm) $$ Hc0
  ihave Hc1' := (Entails.of_eq (pts_sC1 (F := F) d L _).symm) $$ Hc1
  ihave Hs0' := (Entails.of_eq (pts_sS0 (F := F) d L _).symm) $$ Hs0
  ihave Hs1' := (Entails.of_eq (pts_sS1 (F := F) d L _).symm) $$ Hs1
  ihave Htbs := (toks2 (F := F) d L _ _).1 $$ Htb'
  icases Htbs with ⟨Htbr, Htb0, Htb1⟩
  sl_exec
  ihave Hn := (name_contents _) $$ Hg0'
  icases Hn with ⟨%g1, %hg1, Hg0'⟩
  sl_for (inv0 d L g1) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g1 k.val hc (k0_off12_eq k) (k0_off11_eq k) (k0_off9_eq k) (k0_off8_eq k) (k0_off6_eq k) (k0_off5_eq k) (k0_off3_eq k) (k0_off2_eq k)
    · iexists _; isplitl [Hs]; · iexact Hs
      ipureintro
      sl_unfold_run_names
      exact row_step_sS0 d L fs g1 k.val hs (k0_off12_eq k) (k0_off13_eq k) (k0_off9_eq k) (k0_off10_eq k) (k0_off6_eq k) (k0_off7_eq k) (k0_off3_eq k) (k0_off4_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc1, Hc0', %hc1⟩, ⟨%fs1, Hs0', %hs1⟩⟩
  sl_exec
  ihave Hn := (name_contents _) $$ Hg1'
  icases Hn with ⟨%g2, %hg2, Hg1'⟩
  sl_for (inv1 d L g2) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g2 k.val hc (k0_off25_eq k) (k0_off24_eq k) (k0_off22_eq k) (k0_off21_eq k) (k0_off19_eq k) (k0_off18_eq k) (k0_off16_eq k) (k0_off15_eq k)
    · iexists _; isplitl [Hs]; · iexact Hs
      ipureintro
      sl_unfold_run_names
      exact row_step_sS1 d L fs g2 k.val hs (k0_off25_eq k) (k0_off26_eq k) (k0_off22_eq k) (k0_off23_eq k) (k0_off19_eq k) (k0_off20_eq k) (k0_off16_eq k) (k0_off17_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc2, Hc1', %hc2⟩, ⟨%fs2, Hs1', %hs2⟩⟩
  sl_exec
  ihave Hn := (name_contents _) $$ Hg0'
  icases Hn with ⟨%g3, %hg3, Hg0'⟩
  sl_for (inv0 d L g3) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g3 k.val hc (k0_off37_eq k) (k0_off36_eq k) (k0_off34_eq k) (k0_off33_eq k) (k0_off31_eq k) (k0_off30_eq k) (k0_off28_eq k) (k0_off27_eq k)
    · iexists _; isplitl [Hs]; · iexact Hs
      ipureintro
      sl_unfold_run_names
      exact row_step_sS0 d L fs g3 k.val hs (k0_off37_eq k) (k0_off38_eq k) (k0_off34_eq k) (k0_off35_eq k) (k0_off31_eq k) (k0_off32_eq k) (k0_off28_eq k) (k0_off29_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc3, Hc0', %hc3⟩, ⟨%fs3, Hs0', %hs3⟩⟩
  sl_exec
  ihave Hn := (name_contents _) $$ Hg1'
  icases Hn with ⟨%g4, %hg4, Hg1'⟩
  sl_for (inv1 d L g4) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g4 k.val hc (k0_off49_eq k) (k0_off48_eq k) (k0_off46_eq k) (k0_off45_eq k) (k0_off43_eq k) (k0_off42_eq k) (k0_off40_eq k) (k0_off39_eq k)
    · iexists _; isplitl [Hs]; · iexact Hs
      ipureintro
      sl_unfold_run_names
      exact row_step_sS1 d L fs g4 k.val hs (k0_off49_eq k) (k0_off50_eq k) (k0_off46_eq k) (k0_off47_eq k) (k0_off43_eq k) (k0_off44_eq k) (k0_off40_eq k) (k0_off41_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc4, Hc1', %hc4⟩, ⟨%fs4, Hs1', %hs4⟩⟩
  sl_exec
  ihave Hn := (name_contents _) $$ Hg0'
  icases Hn with ⟨%g5, %hg5, Hg0'⟩
  sl_for (inv0 d L g5) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g5 k.val hc (k0_off61_eq k) (k0_off60_eq k) (k0_off58_eq k) (k0_off57_eq k) (k0_off55_eq k) (k0_off54_eq k) (k0_off52_eq k) (k0_off51_eq k)
    · iexists _; isplitl [Hs]; · iexact Hs
      ipureintro
      sl_unfold_run_names
      exact row_step_sS0 d L fs g5 k.val hs (k0_off61_eq k) (k0_off62_eq k) (k0_off58_eq k) (k0_off59_eq k) (k0_off55_eq k) (k0_off56_eq k) (k0_off52_eq k) (k0_off53_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc5, Hc0', %hc5⟩, ⟨%fs5, Hs0', %hs5⟩⟩
  sl_exec
  ihave Hn := (name_contents _) $$ Hg1'
  icases Hn with ⟨%g6, %hg6, Hg1'⟩
  sl_for (inv1 d L g6) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g6 k.val hc (k0_off73_eq k) (k0_off72_eq k) (k0_off70_eq k) (k0_off69_eq k) (k0_off67_eq k) (k0_off66_eq k) (k0_off64_eq k) (k0_off63_eq k)
    · iexists _; isplitl [Hs]; · iexact Hs
      ipureintro
      sl_unfold_run_names
      exact row_step_sS1 d L fs g6 k.val hs (k0_off73_eq k) (k0_off74_eq k) (k0_off70_eq k) (k0_off71_eq k) (k0_off67_eq k) (k0_off68_eq k) (k0_off64_eq k) (k0_off65_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc6, Hc1', %hc6⟩, ⟨%fs6, Hs1', %hs6⟩⟩
  sl_exec
  ihave Hn := (name_contents _) $$ Hg0'
  icases Hn with ⟨%g7, %hg7, Hg0'⟩
  sl_for (inv0 d L g7) $$ [Hg0' Hc0' Hs0']
  case region =>
    intro k _
    unfold inv0
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC0 d L fc g7 k.val hc (k0_off85_eq k) (k0_off84_eq k) (k0_off82_eq k) (k0_off81_eq k) (k0_off79_eq k) (k0_off78_eq k) (k0_off76_eq k) (k0_off75_eq k)
    · iexists _; isplitl [Hs]; · iexact Hs
      ipureintro
      sl_unfold_run_names
      exact row_step_sS0 d L fs g7 k.val hs (k0_off85_eq k) (k0_off86_eq k) (k0_off82_eq k) (k0_off83_eq k) (k0_off79_eq k) (k0_off80_eq k) (k0_off76_eq k) (k0_off77_eq k)
  · unfold inv0
    isplitl [Hg0']; · iexact Hg0'
    isplitl [Hc0']
    · iexists _; isplitl [Hc0']; · iexact Hc0'
      ipureintro; intro r c h; exact absurd h (Nat.not_lt_zero _)
    · iexists _; isplitl [Hs0']; · iexact Hs0'
      ipureintro; intro r c h; exact absurd h (Nat.not_lt_zero _)
  iintro %_ HI
  unfold inv0
  icases HI with ⟨Hg0', ⟨%fc7, Hc0', %hc7⟩, ⟨%fs7, Hs0', %hs7⟩⟩
  sl_exec
  ihave Hn := (name_contents _) $$ Hg1'
  icases Hn with ⟨%g8, %hg8, Hg1'⟩
  sl_for (inv1 d L g8) $$ [Hg1' Hc1' Hs1']
  case region =>
    intro k _
    unfold inv1
    iintro ⟨Hg, ⟨%fc, Hc, %hc⟩, ⟨%fs, Hs, %hs⟩⟩
    sl_exec
    sl_step
    isplitl [Hg]; · iexact Hg
    isplitl [Hc]
    · iexists _; isplitl [Hc]; · iexact Hc
      ipureintro
      sl_unfold_run_names
      exact row_step_sC1 d L fc g8 k.val hc (k0_off97_eq k) (k0_off96_eq k) (k0_off94_eq k) (k0_off93_eq k) (k0_off91_eq k) (k0_off90_eq k) (k0_off88_eq k) (k0_off87_eq k)
    · iexists _; isplitl [Hs]; · iexact Hs
      ipureintro
      sl_unfold_run_names
      exact row_step_sS1 d L fs g8 k.val hs (k0_off97_eq k) (k0_off98_eq k) (k0_off94_eq k) (k0_off95_eq k) (k0_off91_eq k) (k0_off92_eq k) (k0_off88_eq k) (k0_off89_eq k)
  · unfold inv1
    isplitl [Hg1']; · iexact Hg1'
    isplitl [Hc1']
    · iexists _; isplitl [Hc1']; · iexact Hc1'
      ipureintro; intro r c h; exact absurd h (Nat.not_lt_zero _)
    · iexists _; isplitl [Hs1']; · iexact Hs1'
      ipureintro; intro r c h; exact absurd h (Nat.not_lt_zero _)
  iintro %_ HI
  unfold inv1
  icases HI with ⟨Hg1', ⟨%fc8, Hc1', %hc8⟩, ⟨%fs8, Hs1', %hs8⟩⟩
  sl_exec
  sl_step
  unfold tdW sep8
  isplitl [Hps' Htbr Htb0 Htb1 Ho00' Ho01' Ho02' Ho03' Ho04' Ho05' Ho06' Ho07' Ho10' Ho11' Ho12' Ho13' Ho14' Ho15' Ho16' Ho17']
  · isplitl [Hps']; · iapply (Entails.of_eq (pts_psK (F := F) d L _)); iexact Hps'
    isplitl [Htbr Htb0 Htb1]
    · iapply (Entails.of_eq (pts_tb (F := F) d L _ _)); iapply (toks2 (F := F) d L _ _).2
      isplitl [Htbr]; · iexact Htbr
      isplitl [Htb0]; · iexact Htb0
      iexact Htb1
    isplitl [Ho00' Ho01' Ho02' Ho03' Ho04' Ho05' Ho06' Ho07']
    ·
      isplitl [Ho00']
      · iapply (Entails.of_eq (chunk_fix0_s0 ps tb d L hps fi _ _ _ 0 (by decide) rfl _ _ _ _ g1 hg1 fc1 _ (by decide) hc1 _ _ (k0_off14_eq L ⟨0, by decide⟩) (set_out0K0 L) _)); iexact Ho00'
      isplitl [Ho01']
      · iapply (Entails.of_eq (chunk_fix0_s1 ps tb d L hps fi _ _ _ 1 (by decide) rfl _ _ _ _ g2 hg2 fc2 _ (by decide) hc2 _ _ (k0_off14_eq L ⟨1, by decide⟩) (set_out0K1 L) _)); iexact Ho01'
      isplitl [Ho02']
      · iapply (Entails.of_eq (chunk_fix0_s0 ps tb d L hps fi _ _ _ 2 (by decide) rfl _ _ _ _ g3 hg3 fc3 _ (by decide) hc3 _ _ (k0_off14_eq L ⟨2, by decide⟩) (set_out0K2 L) _)); iexact Ho02'
      isplitl [Ho03']
      · iapply (Entails.of_eq (chunk_fix0_s1 ps tb d L hps fi _ _ _ 3 (by decide) rfl _ _ _ _ g4 hg4 fc4 _ (by decide) hc4 _ _ (k0_off14_eq L ⟨3, by decide⟩) (set_out0K3 L) _)); iexact Ho03'
      isplitl [Ho04']
      · iapply (Entails.of_eq (chunk_fix0_s0 ps tb d L hps fi _ _ _ 4 (by decide) rfl _ _ _ _ g5 hg5 fc5 _ (by decide) hc5 _ _ (k0_off14_eq L ⟨4, by decide⟩) (set_out0K4 L) _)); iexact Ho04'
      isplitl [Ho05']
      · iapply (Entails.of_eq (chunk_fix0_s1 ps tb d L hps fi _ _ _ 5 (by decide) rfl _ _ _ _ g6 hg6 fc6 _ (by decide) hc6 _ _ (k0_off14_eq L ⟨5, by decide⟩) (set_out0K5 L) _)); iexact Ho05'
      isplitl [Ho06']
      · iapply (Entails.of_eq (chunk_fix0_s0 ps tb d L hps fi _ _ _ 6 (by decide) rfl _ _ _ _ g7 hg7 fc7 _ (by decide) hc7 _ _ (k0_off14_eq L ⟨6, by decide⟩) (set_out0K6 L) _)); iexact Ho06'
      · iapply (Entails.of_eq (chunk_fix0_s1 ps tb d L hps fi _ _ _ 7 (by decide) rfl _ _ _ _ g8 hg8 fc8 _ (by decide) hc8 _ _ (k0_off14_eq L ⟨7, by decide⟩) (set_out0K7 L) _)); iexact Ho07'
    ·
      isplitl [Ho10']
      · iapply (Entails.of_eq (chunk_fix1_s0 ps tb d L hps fi _ _ _ 0 (by decide) rfl _ _ _ _ g1 hg1 fs1 _ (by decide) hs1 _ _ (k0_off14_eq L ⟨0, by decide⟩) (set_out1K0 L) _)); iexact Ho10'
      isplitl [Ho11']
      · iapply (Entails.of_eq (chunk_fix1_s1 ps tb d L hps fi _ _ _ 1 (by decide) rfl _ _ _ _ g2 hg2 fs2 _ (by decide) hs2 _ _ (k0_off14_eq L ⟨1, by decide⟩) (set_out1K1 L) _)); iexact Ho11'
      isplitl [Ho12']
      · iapply (Entails.of_eq (chunk_fix1_s0 ps tb d L hps fi _ _ _ 2 (by decide) rfl _ _ _ _ g3 hg3 fs3 _ (by decide) hs3 _ _ (k0_off14_eq L ⟨2, by decide⟩) (set_out1K2 L) _)); iexact Ho12'
      isplitl [Ho13']
      · iapply (Entails.of_eq (chunk_fix1_s1 ps tb d L hps fi _ _ _ 3 (by decide) rfl _ _ _ _ g4 hg4 fs4 _ (by decide) hs4 _ _ (k0_off14_eq L ⟨3, by decide⟩) (set_out1K3 L) _)); iexact Ho13'
      isplitl [Ho14']
      · iapply (Entails.of_eq (chunk_fix1_s0 ps tb d L hps fi _ _ _ 4 (by decide) rfl _ _ _ _ g5 hg5 fs5 _ (by decide) hs5 _ _ (k0_off14_eq L ⟨4, by decide⟩) (set_out1K4 L) _)); iexact Ho14'
      isplitl [Ho15']
      · iapply (Entails.of_eq (chunk_fix1_s1 ps tb d L hps fi _ _ _ 5 (by decide) rfl _ _ _ _ g6 hg6 fs6 _ (by decide) hs6 _ _ (k0_off14_eq L ⟨5, by decide⟩) (set_out1K5 L) _)); iexact Ho15'
      isplitl [Ho16']
      · iapply (Entails.of_eq (chunk_fix1_s0 ps tb d L hps fi _ _ _ 6 (by decide) rfl _ _ _ _ g7 hg7 fs7 _ (by decide) hs7 _ _ (k0_off14_eq L ⟨6, by decide⟩) (set_out1K6 L) _)); iexact Ho16'
      · iapply (Entails.of_eq (chunk_fix1_s1 ps tb d L hps fi _ _ _ 7 (by decide) rfl _ _ _ _ g8 hg8 fs8 _ (by decide) hs8 _ _ (k0_off14_eq L ⟨7, by decide⟩) (set_out1K7 L) _)); iexact Ho17'
  isplitl [Hi' Hg0' Hg1' Hc0' Hc1' Hs0' Hs1' Hbufs]
  · isplitl [Hi']; · iexists _; iexact Hi'
    isplitl [Hg0']; · iexists _; iexact Hg0'
    isplitl [Hg1']; · iexists _; iexact Hg1'
    isplitl [Hc0']; · iexists _; iexact Hc0'
    isplitl [Hc1']; · iexists _; iexact Hc1'
    isplitl [Hs0']; · iexists _; iexact Hs0'
    isplitl [Hs1']; · iexists _; iexact Hs1'
    iexact Hbufs
  isplitl [Hm7 Hm8 Hm9 Hm10 Hm11 Hm12 Hm0 Hsems]
  · isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm0]; · iexact Hm0
    iexact Hsems
  iexists _; isplitr
  rotate_left
  · iexact HO
  · ipureintro
    repeat (refine waits_insert _ ?_)
    exact fun p hp => .inl hp

end Tile

end Cert.Kernel.Run

end
-- ==== Proof.lean ====
/-
  A lookup of cache rows at given positions. The inputs are a 4 × 8192 array of positions and two caches of 32768 rows
  of 64 entries; each result holds, at (b, s, k), entry k of the row of its cache that the position at (b, s) names. The
  stated precondition makes every position a row number (0 … 32767) and both caches finite.

  The kernel reads the positions as 256 rows of 128 and the two caches side by side as one table of 32768 rows of 128
  entries. Its 32 workers (two groups of sixteen) each own 1024 positions: a worker copies its eight rows of positions,
  gathers the named rows of the table chunk by chunk (128 rows at a time, two chunks in flight), splits each gathered
  row into its two halves of 64, and copies the halves out to its rows of the two results; the results are then
  reshaped to 4 × 8192 × 64. The reference is the bounds-checked lookup of rows, once per cache: it shifts negative
  positions, masks positions out of bounds to NaN and gathers the rest; under the range every position is in bounds.
  Both are therefore the one function `Cert.Rope.takeRows` of a cache and the positions, which gives the three frames
  and the equality of the two programs' results at the ideal instance; the ideal pass rewrote nothing, so there is
  nothing to preserve. One worker's task is proved once for a symbolic worker, at each float instance.
-/
import proofs.«205335_g28930899706033_cont_9to1_1924_12_alg».proof.Defs
import proofs.«205335_g28930899706033_cont_9to1_1924_12_alg».proof.Proof.Assemble
import proofs.«205335_g28930899706033_cont_9to1_1924_12_alg».proof.Proof.KI.Body
import proofs.«205335_g28930899706033_cont_9to1_1924_12_alg».proof.Proof.KB.Body

noncomputable section

namespace Cert.Proof

theorem claim : Cert.Claim :=
  Cert.Proof.Assemble.claim_of
    (fun ps tb d L hF hps O W hO => Cert.KernelIdeal.Run.tile_body ps tb d L hF hps O W hO)
    (fun ps tb d L hF hps O W hO => Cert.Kernel.Run.tile_body ps tb d L hF hps O W hO)

end Cert.Proof

end
